-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v73_0)) (v1 : (c : Dev Cert.KernelIdeal.nD) → Buf (Elt Ideal) ((c.tc : Thread Cert.KernelIdeal.nD Cert.KernelIdeal.τ).loc Cert.KernelIdeal.main_v74)) (v2 : (c : Dev Cert.KernelIdeal.nD) → Buf (Elt Ideal) ((c.tc : Thread Cert.KernelIdeal.nD Cert.KernelIdeal.τ).loc Cert.KernelIdeal.main_v73_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73_0) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_v73_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x1 .f32) (main_arg9 : FVec F S1 .f32) (main_arg10 : FVec F S128x128 .f32) (main_arg11 : FVec F S128 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S256x128 .f32) (main_arg7 : FVec F S128 .f32) (main_arg8 : FVec F S128x1 .f32) (main_arg9 : FVec F S1 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S256x128 .f32) (main_arg7 : FVec F S128 .f32) (main_arg8 : FVec F S128x1 .f32) (main_arg9 : FVec F S1 .f32) (main_arg10 : FVec F S128x128 .f32) (main_arg11 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S100000x128 : Shape := ⟨2, ![100000, 128]⟩
abbrev S2000x256 : Shape := ⟨2, ![2000, 256]⟩
abbrev S2000x128 : Shape := ⟨2, ![2000, 128]⟩
abbrev S1600000x128 : Shape := ⟨2, ![1600000, 128]⟩
abbrev S100000x1 : Shape := ⟨2, ![100000, 1]⟩
abbrev S1x1 : Shape := ⟨2, ![1, 1]⟩
abbrev S2000x1 : Shape := ⟨2, ![2000, 1]⟩
abbrev S2000 : Shape := ⟨1, ![2000]⟩

abbrev nBuf : Space → Nat
  | .hbm => 103
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S100000, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x1, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S1600000x1, .f32⟩
  | .hbm, ⟨83, _⟩ => ⟨S1600000x128, .f32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x1, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S1x1, .f32⟩
  | .hbm, ⟨98, _⟩ => ⟨S1x128, .f32⟩
  | .hbm, ⟨99, _⟩ => ⟨S100000x128, .f32⟩
  | .hbm, ⟨100, _⟩ => ⟨S100000x1, .f32⟩
  | .hbm, ⟨101, _⟩ => ⟨S100000x128, .f32⟩
  | .hbm, ⟨102, _⟩ => ⟨S100000, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S256x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S128x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S1x1, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28_0 : Ref sig .tc := ⟨.hbm, 47, rfl⟩
abbrev main_v28_1 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73_0 : Ref sig .tc := ⟨.hbm, 99, rfl⟩
abbrev main_v73_1 : Ref sig .tc := ⟨.hbm, 100, rfl⟩
abbrev main_v73_2 : Ref sig .tc := ⟨.hbm, 101, rfl⟩
abbrev main_v74 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc2_stg8_0 : Ref sig .tc := ⟨.vmem, 26, rfl⟩
abbrev cc2_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc2_sem7_0 : DmaSem sig := 24
abbrev cc2_sem7_1 : DmaSem sig := 25
abbrev cc2_sem8_0 : DmaSem sig := 26
abbrev cc2_sem8_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x1_S1x128 : S128x1.ShapeCasts S1x128
  shapeCasts_S1_S1x1 : S1.ShapeCasts S1x1
  reduces_S2000x128_S2000 : S2000x128.Reduces [1] S2000
  shapeCasts_S2000_S2000x1 : S2000.ShapeCasts S2000x1
  broadcasts_S2000x1_S2000x128 : S2000x1.Broadcasts S2000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x1.size a ≤ S100000x1.size a
  hwx2_7 : ∀ i : grid2.Coords, EltTy.bits .f32 = 32 ∨ (Rect.block (s := S100000x1) S2000x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S100000x128.size a
  hwx2_8 : ∀ i : grid2.Coords, EltTy.bits .f32 = 32 ∨ (Rect.block (s := S100000x128) S2000x128.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v69) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v70) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v73_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v73_1) S2000x1.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v73_2) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x1 : Shape := ⟨2, ![1, 1]⟩

abbrev nBuf : Space → Nat
  | .hbm => 156
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S128x1, .f32⟩
  | 9 => ⟨S1, .f32⟩
  | 10 => ⟨S128x128, .f32⟩
  | 11 => ⟨S128, .f32⟩
  | 12 => ⟨S1x1600000, .i32⟩
  | 13 => ⟨S1600000, .i32⟩
  | 14 => ⟨S1x1600000, .i32⟩
  | 15 => ⟨S1600000, .i32⟩
  | 16 => ⟨S100000x128, .f32⟩
  | 17 => ⟨S1x128, .f32⟩
  | 18 => ⟨S100000x128, .f32⟩
  | 19 => ⟨S100000x128, .f32⟩
  | 20 => ⟨S100000x128, .f32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x1, .f32⟩
  | 60 => ⟨S1600000x128, .f32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .f32⟩
  | 79 => ⟨S1600000, .f32⟩
  | 80 => ⟨S_, .f32⟩
  | 81 => ⟨S100000, .f32⟩
  | 82 => ⟨S1600000x1, .i32⟩
  | 83 => ⟨S100000, .f32⟩
  | 84 => ⟨S_, .f32⟩
  | 85 => ⟨S100000, .f32⟩
  | 86 => ⟨S100000, .f32⟩
  | 87 => ⟨S100000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000, .f32⟩
  | 106 => ⟨S1600000, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x128, .f32⟩
  | 116 => ⟨S1600000x1, .f32⟩
  | 117 => ⟨S1600000x128, .f32⟩
  | 118 => ⟨S1600000x128, .f32⟩
  | 119 => ⟨S_, .f32⟩
  | 120 => ⟨S100000x128, .f32⟩
  | 121 => ⟨S1600000x1, .i32⟩
  | 122 => ⟨S100000x128, .f32⟩
  | 123 => ⟨S100000, .f32⟩
  | 124 => ⟨S100000x1, .f32⟩
  | 125 => ⟨S100000x128, .f32⟩
  | 126 => ⟨S100000x128, .f32⟩
  | 127 => ⟨S100000x128, .f32⟩
  | _ => ⟨S100000x256, .f32⟩

abbrev hbmTy0_1 (i : Nat) : BufTy := match i % 128 with
  | 0 => ⟨S1x128, .f32⟩
  | 1 => ⟨S100000x128, .f32⟩
  | 2 => ⟨S100000x128, .f32⟩
  | 3 => ⟨S100000x128, .f32⟩
  | 4 => ⟨S_, .f32⟩
  | 5 => ⟨S100000, .f32⟩
  | 6 => ⟨S_, .f32⟩
  | 7 => ⟨S100000, .f32⟩
  | 8 => ⟨S100000, .f32⟩
  | 9 => ⟨S100000x1, .f32⟩
  | 10 => ⟨S100000x128, .f32⟩
  | 11 => ⟨S100000x128, .f32⟩
  | 12 => ⟨S100000x128, .f32⟩
  | 13 => ⟨S_, .f32⟩
  | 14 => ⟨S100000, .f32⟩
  | 15 => ⟨S100000x1, .f32⟩
  | 16 => ⟨S100000x1, .f32⟩
  | 17 => ⟨S100000x128, .f32⟩
  | 18 => ⟨S100000x128, .f32⟩
  | 19 => ⟨S100000x1, .f32⟩
  | 20 => ⟨S1x1, .f32⟩
  | 21 => ⟨S100000x1, .f32⟩
  | 22 => ⟨S100000x1, .f32⟩
  | 23 => ⟨S100000, .f32⟩
  | 24 => ⟨S100000x128, .f32⟩
  | 25 => ⟨S1x128, .f32⟩
  | 26 => ⟨S100000x128, .f32⟩
  | 27 => ⟨S100000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call0_cst : Ref sig .tc := ⟨.hbm, 74, rfl⟩
abbrev main_call0_v0 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_11 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_15 : Ref sig .tc := ⟨.hbm, 107, rfl⟩
abbrev main_v76 : Ref sig .tc := ⟨.hbm, 108, rfl⟩
abbrev main_v77 : Ref sig .tc := ⟨.hbm, 109, rfl⟩
abbrev main_c_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_17 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_call1_cst : Ref sig .tc := ⟨.hbm, 132, rfl⟩
abbrev main_call1_v0 : Ref sig .tc := ⟨.hbm, 133, rfl⟩
abbrev main_call1_cst_0 : Ref sig .tc := ⟨.hbm, 134, rfl⟩
abbrev main_call1_v1 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_call1_v5 : Ref sig .tc := ⟨.hbm, 139, rfl⟩
abbrev main_call1_v6 : Ref sig .tc := ⟨.hbm, 140, rfl⟩
abbrev main_call1_cst_1 : Ref sig .tc := ⟨.hbm, 141, rfl⟩
abbrev main_call1_v7 : Ref sig .tc := ⟨.hbm, 142, rfl⟩
abbrev main_call1_v8 : Ref sig .tc := ⟨.hbm, 143, rfl⟩
abbrev main_call1_v9 : Ref sig .tc := ⟨.hbm, 144, rfl⟩
abbrev main_call1_v10 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.RefStaged.lean ====
/-
  The idealized reference's run, read stretch by stretch.

  The reference is one line of 144 array operations.  Its run leaves every buffer at the fold of the operations over
  the launch contents.  That fold is read here in twelve stretches, cut after the two dense input steps, after each
  layer's edge coefficients, after each layer's message-passing step, after the second dense step, after the residual
  sum, inside the log-softmax after its row maximum and after its shifted entries, after the log-softmax, and after
  each of the two remaining heads.  Within a stretch a buffer's contents are a short composition
  of the stretch's operations over the buffers the stretch reads; those are earlier stretches' results, which hold
  their stage's value of the arguments, or argument arrays, which no operation writes.  So each result buffer ends at
  its stage's value of the arguments, and the arguments end as launched.
-/
import proofs.«101989_j22505628631761_1_alg».proof.Proof.RefRead
import Idealize.ShloMosaic.Lib.StableHlo.Run

set_option maxRecDepth 16384

noncomputable section

namespace Cert.ReferenceIdeal.Staged

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Operations 0 to 8 of the program. -/
abbrev st0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg6 main_v4 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg7 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v4 main_v6 main_v7 (addf : (⟨S100000x128, .f32⟩ : BufTy).Contents (Elt F) → (⟨S100000x128, .f32⟩ : BufTy).Contents (Elt F) → (⟨S100000x128, .f32⟩ : BufTy).Contents (Elt F)),
    binary main_arg0 main_arg2 main_v8 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]

/-- Operations 9 to 37 of the program. -/
abbrev st1 : List (HloOp τ sig (Elt F)) :=
  [ nullary main_cst (constant S_ .f32 0x3F800000#32),
    unary main_cst main_v9 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v3 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (addf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_c (constantI S_ 32 0#32),
    unary main_c main_v16 (broadcastInDim S1600000 ![] bcast_S_S1600000 : (⟨S_, .i32⟩ : BufTy).Contents (Elt F) → (⟨S1600000, .i32⟩ : BufTy).Contents (Elt F)),
    binary main_v1 main_v16 main_v17 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v18 (broadcastInDim S1600000 ![] bcast_S_S1600000 : (⟨S_, .i32⟩ : BufTy).Contents (Elt F) → (⟨S1600000, .i32⟩ : BufTy).Contents (Elt F)),
    binary main_v1 main_v18 main_v19 (addi : (⟨S1600000, .i32⟩ : BufTy).Contents (Elt F) → (⟨S1600000, .i32⟩ : BufTy).Contents (Elt F) → (⟨S1600000, .i32⟩ : BufTy).Contents (Elt F)),
    ternary main_v17 main_v19 main_v1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v20 main_v21 (broadcastInDim S1600000x1 ![0] bcast_S1600000_S1600000x1_0 : (⟨S1600000, .i32⟩ : BufTy).Contents (Elt F) → (⟨S1600000x1, .i32⟩ : BufTy).Contents (Elt F)),
    binary main_v15 main_v21 main_v22 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v23 (broadcastInDim S1600000 ![] bcast_S_S1600000 : (⟨S_, .i32⟩ : BufTy).Contents (Elt F) → (⟨S1600000, .i32⟩ : BufTy).Contents (Elt F)),
    binary main_v3 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v25 (broadcastInDim S1600000 ![] bcast_S_S1600000 : (⟨S_, .i32⟩ : BufTy).Contents (Elt F) → (⟨S1600000, .i32⟩ : BufTy).Contents (Elt F)),
    binary main_v3 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_v3 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v15 main_v28 main_v29 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v22 main_v29 main_v30 (mulf : (⟨S1600000, .f32⟩ : BufTy).Contents (Elt F) → (⟨S1600000, .f32⟩ : BufTy).Contents (Elt F) → (⟨S1600000, .f32⟩ : BufTy).Contents (Elt F)) ]

/-- Operations 38 to 61 of the program. -/
abbrev st2 : List (HloOp τ sig (Elt F)) :=
  [ nullary main_c_5 (constantI S_ 32 0#32),
    unary main_c_5 main_v31 (broadcastInDim S1600000 ![] bcast_S_S1600000 : (⟨S_, .i32⟩ : BufTy).Contents (Elt F) → (⟨S1600000, .i32⟩ : BufTy).Contents (Elt F)),
    binary main_v1 main_v31 main_v32 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v33 (broadcastInDim S1600000 ![] bcast_S_S1600000 : (⟨S_, .i32⟩ : BufTy).Contents (Elt F) → (⟨S1600000, .i32⟩ : BufTy).Contents (Elt F)),
    binary main_v1 main_v33 main_v34 (addi : (⟨S1600000, .i32⟩ : BufTy).Contents (Elt F) → (⟨S1600000, .i32⟩ : BufTy).Contents (Elt F) → (⟨S1600000, .i32⟩ : BufTy).Contents (Elt F)),
    ternary main_v32 main_v34 main_v1 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v35 main_v36 (broadcastInDim S1600000x1 ![0] bcast_S1600000_S1600000x1_0 : (⟨S1600000, .i32⟩ : BufTy).Contents (Elt F) → (⟨S1600000x1, .i32⟩ : BufTy).Contents (Elt F)),
    binary main_v8 main_v36 main_v37 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v30 main_v38 (broadcastInDim S1600000x1 ![0] bcast_S1600000_S1600000x1_0 : (⟨S1600000, .f32⟩ : BufTy).Contents (Elt F) → (⟨S1600000x1, .f32⟩ : BufTy).Contents (Elt F)),
    unary main_v38 main_v39 (broadcastInDim S1600000x128 ![0, 1] bcast_S1600000x1_S1600000x128_0_1 : (⟨S1600000x1, .f32⟩ : BufTy).Contents (Elt F) → (⟨S1600000x128, .f32⟩ : BufTy).Contents (Elt F)),
    binary main_v37 main_v39 main_v40 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v41 (broadcastInDim S100000x128 ![] bcast_S_S100000x128 : (⟨S_, .f32⟩ : BufTy).Contents (Elt F) → (⟨S100000x128, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v15 main_v15 main_v44 (mulf : (⟨S100000, .f32⟩ : BufTy).Contents (Elt F) → (⟨S100000, .f32⟩ : BufTy).Contents (Elt F) → (⟨S100000, .f32⟩ : BufTy).Contents (Elt F)),
    unary main_v44 main_v45 (broadcastInDim S100000x1 ![0] bcast_S100000_S100000x1_0 : (⟨S100000, .f32⟩ : BufTy).Contents (Elt F) → (⟨S100000x1, .f32⟩ : BufTy).Contents (Elt F)),
    unary main_v45 main_v46 (broadcastInDim S100000x128 ![0, 1] bcast_S100000x1_S100000x128_0_1 : (⟨S100000x1, .f32⟩ : BufTy).Contents (Elt F) → (⟨S100000x128, .f32⟩ : BufTy).Contents (Elt F)),
    binary main_v8 main_v46 main_v47 (mulf : (⟨S100000x128, .f32⟩ : BufTy).Contents (Elt F) → (⟨S100000x128, .f32⟩ : BufTy).Contents (Elt F) → (⟨S100000x128, .f32⟩ : BufTy).Contents (Elt F)),
    binary main_v43 main_v47 main_v48 (addf : (⟨S100000x128, .f32⟩ : BufTy).Contents (Elt F) → (⟨S100000x128, .f32⟩ : BufTy).Contents (Elt F) → (⟨S100000x128, .f32⟩ : BufTy).Contents (Elt F)),
    unary main_arg3 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)) ]

/-- Operations 62 to 65 of the program. -/
abbrev st3 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v51) (TRef.of (T := ⟨S100000x128, .f32⟩) main_call0_v0) (TRef.of (T := ⟨S100000x128, .f32⟩) main_v52) maximumf,
    binary main_v52 main_arg4 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 66 to 94 of the program. -/
abbrev st4 : List (HloOp τ sig (Elt F)) :=
  [ nullary main_cst_8 (constant S_ .f32 0x3F800000#32),
    unary main_cst_8 main_v54 (broadcastInDim S1600000 ![] bcast_S_S1600000 : (⟨S_, .f32⟩ : BufTy).Contents (Elt F) → (⟨S1600000, .f32⟩ : BufTy).Contents (Elt F)),
    nullary main_cst_9 (constant S_ .f32 0x00000000#32),
    unary main_cst_9 main_v55 (broadcastInDim S100000 ![] bcast_S_S100000 : (⟨S_, .f32⟩ : BufTy).Contents (Elt F) → (⟨S100000, .f32⟩ : BufTy).Contents (Elt F)),
    unary main_v3 main_v56 (broadcastInDim S1600000x1 ![0] bcast_S1600000_S1600000x1_0 : (⟨S1600000, .i32⟩ : BufTy).Contents (Elt F) → (⟨S1600000x1, .i32⟩ : BufTy).Contents (Elt F)),
    ternary main_v55 main_v56 main_v54 main_v57 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_10 (constant S_ .f32 0x3F800000#32),
    unary main_cst_10 main_v58 (broadcastInDim S100000 ![] bcast_S_S100000 : (⟨S_, .f32⟩ : BufTy).Contents (Elt F) → (⟨S100000, .f32⟩ : BufTy).Contents (Elt F)),
    binary main_v57 main_v58 main_v59 (addf : (⟨S100000, .f32⟩ : BufTy).Contents (Elt F) → (⟨S100000, .f32⟩ : BufTy).Contents (Elt F) → (⟨S100000, .f32⟩ : BufTy).Contents (Elt F)),
    unary main_v59 main_v60 (Host.rsqrt : (⟨S100000, .f32⟩ : BufTy).Contents (Elt F) → (⟨S100000, .f32⟩ : BufTy).Contents (Elt F)),
    nullary main_c_11 (constantI S_ 32 0#32),
    unary main_c_11 main_v61 (broadcastInDim S1600000 ![] bcast_S_S1600000 : (⟨S_, .i32⟩ : BufTy).Contents (Elt F) → (⟨S1600000, .i32⟩ : BufTy).Contents (Elt F)),
    binary main_v1 main_v61 main_v62 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v63 (broadcastInDim S1600000 ![] bcast_S_S1600000 : (⟨S_, .i32⟩ : BufTy).Contents (Elt F) → (⟨S1600000, .i32⟩ : BufTy).Contents (Elt F)),
    binary main_v1 main_v63 main_v64 (addi : (⟨S1600000, .i32⟩ : BufTy).Contents (Elt F) → (⟨S1600000, .i32⟩ : BufTy).Contents (Elt F) → (⟨S1600000, .i32⟩ : BufTy).Contents (Elt F)),
    ternary main_v62 main_v64 main_v1 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v65 main_v66 (broadcastInDim S1600000x1 ![0] bcast_S1600000_S1600000x1_0 : (⟨S1600000, .i32⟩ : BufTy).Contents (Elt F) → (⟨S1600000x1, .i32⟩ : BufTy).Contents (Elt F)),
    binary main_v60 main_v66 main_v67 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_13 (constantI S_ 32 0#32),
    unary main_c_13 main_v68 (broadcastInDim S1600000 ![] bcast_S_S1600000 : (⟨S_, .i32⟩ : BufTy).Contents (Elt F) → (⟨S1600000, .i32⟩ : BufTy).Contents (Elt F)),
    binary main_v3 main_v68 main_v69 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v70 (broadcastInDim S1600000 ![] bcast_S_S1600000 : (⟨S_, .i32⟩ : BufTy).Contents (Elt F) → (⟨S1600000, .i32⟩ : BufTy).Contents (Elt F)),
    binary main_v3 main_v70 main_v71 (addi : (⟨S1600000, .i32⟩ : BufTy).Contents (Elt F) → (⟨S1600000, .i32⟩ : BufTy).Contents (Elt F) → (⟨S1600000, .i32⟩ : BufTy).Contents (Elt F)),
    ternary main_v69 main_v71 main_v3 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v72 main_v73 (broadcastInDim S1600000x1 ![0] bcast_S1600000_S1600000x1_0 : (⟨S1600000, .i32⟩ : BufTy).Contents (Elt F) → (⟨S1600000x1, .i32⟩ : BufTy).Contents (Elt F)),
    binary main_v60 main_v73 main_v74 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v67 main_v74 main_v75 (mulf : (⟨S1600000, .f32⟩ : BufTy).Contents (Elt F) → (⟨S1600000, .f32⟩ : BufTy).Contents (Elt F) → (⟨S1600000, .f32⟩ : BufTy).Contents (Elt F)) ]

/-- Operations 95 to 118 of the program. -/
abbrev st5 : List (HloOp τ sig (Elt F)) :=
  [ nullary main_c_15 (constantI S_ 32 0#32),
    unary main_c_15 main_v76 (broadcastInDim S1600000 ![] bcast_S_S1600000 : (⟨S_, .i32⟩ : BufTy).Contents (Elt F) → (⟨S1600000, .i32⟩ : BufTy).Contents (Elt F)),
    binary main_v1 main_v76 main_v77 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v78 (broadcastInDim S1600000 ![] bcast_S_S1600000 : (⟨S_, .i32⟩ : BufTy).Contents (Elt F) → (⟨S1600000, .i32⟩ : BufTy).Contents (Elt F)),
    binary main_v1 main_v78 main_v79 (addi : (⟨S1600000, .i32⟩ : BufTy).Contents (Elt F) → (⟨S1600000, .i32⟩ : BufTy).Contents (Elt F) → (⟨S1600000, .i32⟩ : BufTy).Contents (Elt F)),
    ternary main_v77 main_v79 main_v1 main_v80 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v80 main_v81 (broadcastInDim S1600000x1 ![0] bcast_S1600000_S1600000x1_0 : (⟨S1600000, .i32⟩ : BufTy).Contents (Elt F) → (⟨S1600000x1, .i32⟩ : BufTy).Contents (Elt F)),
    binary main_v53 main_v81 main_v82 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v75 main_v83 (broadcastInDim S1600000x1 ![0] bcast_S1600000_S1600000x1_0 : (⟨S1600000, .f32⟩ : BufTy).Contents (Elt F) → (⟨S1600000x1, .f32⟩ : BufTy).Contents (Elt F)),
    unary main_v83 main_v84 (broadcastInDim S1600000x128 ![0, 1] bcast_S1600000x1_S1600000x128_0_1 : (⟨S1600000x1, .f32⟩ : BufTy).Contents (Elt F) → (⟨S1600000x128, .f32⟩ : BufTy).Contents (Elt F)),
    binary main_v82 main_v84 main_v85 (mulf : (⟨S1600000x128, .f32⟩ : BufTy).Contents (Elt F) → (⟨S1600000x128, .f32⟩ : BufTy).Contents (Elt F) → (⟨S1600000x128, .f32⟩ : BufTy).Contents (Elt F)),
    nullary main_cst_17 (constant S_ .f32 0x00000000#32),
    unary main_cst_17 main_v86 (broadcastInDim S100000x128 ![] bcast_S_S100000x128 : (⟨S_, .f32⟩ : BufTy).Contents (Elt F) → (⟨S100000x128, .f32⟩ : BufTy).Contents (Elt F)),
    unary main_v3 main_v87 (broadcastInDim S1600000x1 ![0] bcast_S1600000_S1600000x1_0 : (⟨S1600000, .i32⟩ : BufTy).Contents (Elt F) → (⟨S1600000x1, .i32⟩ : BufTy).Contents (Elt F)),
    ternary main_v86 main_v87 main_v85 main_v88 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v60 main_v60 main_v89 (mulf : (⟨S100000, .f32⟩ : BufTy).Contents (Elt F) → (⟨S100000, .f32⟩ : BufTy).Contents (Elt F) → (⟨S100000, .f32⟩ : BufTy).Contents (Elt F)),
    unary main_v89 main_v90 (broadcastInDim S100000x1 ![0] bcast_S100000_S100000x1_0 : (⟨S100000, .f32⟩ : BufTy).Contents (Elt F) → (⟨S100000x1, .f32⟩ : BufTy).Contents (Elt F)),
    unary main_v90 main_v91 (broadcastInDim S100000x128 ![0, 1] bcast_S100000x1_S100000x128_0_1 : (⟨S100000x1, .f32⟩ : BufTy).Contents (Elt F) → (⟨S100000x128, .f32⟩ : BufTy).Contents (Elt F)),
    binary main_v53 main_v91 main_v92 (mulf : (⟨S100000x128, .f32⟩ : BufTy).Contents (Elt F) → (⟨S100000x128, .f32⟩ : BufTy).Contents (Elt F) → (⟨S100000x128, .f32⟩ : BufTy).Contents (Elt F)),
    binary main_v88 main_v92 main_v93 (addf : (⟨S100000x128, .f32⟩ : BufTy).Contents (Elt F) → (⟨S100000x128, .f32⟩ : BufTy).Contents (Elt F) → (⟨S100000x128, .f32⟩ : BufTy).Contents (Elt F)),
    unary main_arg5 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v93 main_v95 main_v96 (addf : (⟨S100000x128, .f32⟩ : BufTy).Contents (Elt F) → (⟨S100000x128, .f32⟩ : BufTy).Contents (Elt F) → (⟨S100000x128, .f32⟩ : BufTy).Contents (Elt F)) ]

/-- Operations 119 to 119 of the program. -/
abbrev st6 : List (HloOp τ sig (Elt F)) :=
  [ binary main_v96 main_v7 main_v97 (addf : (⟨S100000x128, .f32⟩ : BufTy).Contents (Elt F) → (⟨S100000x128, .f32⟩ : BufTy).Contents (Elt F) → (⟨S100000x128, .f32⟩ : BufTy).Contents (Elt F)) ]

/-- Operations 120 to 121 of the program. -/
abbrev st7 : List (HloOp τ sig (Elt F)) :=
  [ TRef.nullary (TRef.of (T := ⟨S_, .f32⟩) main_call1_cst) (constant S_ .f32 0xFF800000#32),
    TRef.binary (TRef.of (T := ⟨S100000x128, .f32⟩) main_v97) (TRef.of (T := ⟨S_, .f32⟩) main_call1_cst) (TRef.of (T := ⟨S100000, .f32⟩) main_call1_v0) (fun x v => Host.reduce FloatOps.maximumf x v reducesTo_S100000x128_S100000_d1 h_S_) ]

/-- Operations 122 to 127 of the program. -/
abbrev st8 : List (HloOp τ sig (Elt F)) :=
  [ TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x128, .f32⟩) main_call1_v4) (broadcastInDim S100000x128 ![0, 1] bcast_S100000x1_S100000x128_0_1),
    TRef.binary (TRef.of (T := ⟨S100000x128, .f32⟩) main_v97) (TRef.of (T := ⟨S100000x128, .f32⟩) main_call1_v4) (TRef.of (T := ⟨S100000x128, .f32⟩) main_call1_v5) subf ]

/-- Operations 128 to 134 of the program. -/
abbrev st9 : List (HloOp τ sig (Elt F)) :=
  [ TRef.unary (TRef.of (T := ⟨S100000x128, .f32⟩) main_call1_v5) (TRef.of (T := ⟨S100000x128, .f32⟩) main_call1_v6) Host.exp,
    TRef.nullary (TRef.of (T := ⟨S_, .f32⟩) main_call1_cst_1) (constant S_ .f32 0x00000000#32),
    TRef.binary (TRef.of (T := ⟨S100000x128, .f32⟩) main_call1_v6) (TRef.of (T := ⟨S_, .f32⟩) main_call1_cst_1) (TRef.of (T := ⟨S100000, .f32⟩) main_call1_v7) (fun x v => Host.reduceAdd x v reducesTo_S100000x128_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x128, .f32⟩) main_call1_v10) (broadcastInDim S100000x128 ![0, 1] bcast_S100000x1_S100000x128_0_1),
    TRef.binary (TRef.of (T := ⟨S100000x128, .f32⟩) main_call1_v5) (TRef.of (T := ⟨S100000x128, .f32⟩) main_call1_v10) (TRef.of (T := ⟨S100000x128, .f32⟩) main_v98) subf ]

/-- Operations 135 to 139 of the program. -/
abbrev st10 : List (HloOp τ sig (Elt F)) :=
  [ binary main_v97 main_arg8 main_v99 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg9 main_v100 (broadcastInDim S1x1 ![1] bcast_S1_S1x1_1 : (⟨S1, .f32⟩ : BufTy).Contents (Elt F) → (⟨S1x1, .f32⟩ : BufTy).Contents (Elt F)),
    unary main_v100 main_v101 (broadcastInDim S100000x1 ![0, 1] bcast_S1x1_S100000x1_0_1 : (⟨S1x1, .f32⟩ : BufTy).Contents (Elt F) → (⟨S100000x1, .f32⟩ : BufTy).Contents (Elt F)),
    binary main_v99 main_v101 main_v102 (addf : (⟨S100000x1, .f32⟩ : BufTy).Contents (Elt F) → (⟨S100000x1, .f32⟩ : BufTy).Contents (Elt F) → (⟨S100000x1, .f32⟩ : BufTy).Contents (Elt F)),
    reshape main_v102 main_v103 rfl shapeCasts_S100000x1_S100000 ]

/-- Operations 140 to 143 of the program. -/
abbrev st11 : List (HloOp τ sig (Elt F)) :=
  [ binary main_v97 main_arg10 main_v104 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v105 (broadcastInDim S1x128 ![1] bcast_S128_S1x128_1 : (⟨S128, .f32⟩ : BufTy).Contents (Elt F) → (⟨S1x128, .f32⟩ : BufTy).Contents (Elt F)),
    unary main_v105 main_v106 (broadcastInDim S100000x128 ![0, 1] bcast_S1x128_S100000x128_0_1 : (⟨S1x128, .f32⟩ : BufTy).Contents (Elt F) → (⟨S100000x128, .f32⟩ : BufTy).Contents (Elt F)),
    binary main_v104 main_v106 main_v107 (addf : (⟨S100000x128, .f32⟩ : BufTy).Contents (Elt F) → (⟨S100000x128, .f32⟩ : BufTy).Contents (Elt F) → (⟨S100000x128, .f32⟩ : BufTy).Contents (Elt F)) ]

/-- The program's operations are the stretches, in order. -/
theorem ops_split : (ops : List (HloOp τ sig (Elt F))) = st0 ++ (st1 ++ (st2 ++ (st3 ++ (st4 ++ (st5 ++ (st6 ++ (st7 ++ (st8 ++ (st9 ++ (st10 ++ (st11))))))))))) := rfl

/-- Running two stretches one after the other. -/
theorem after_append (xs ys : List (HloOp τ sig (Elt F))) (V : Valuation τ sig (Elt F)) : after (xs ++ ys) V = after ys (after xs V) := by
  induction xs generalizing V with
  | nil => rfl
  | cons op l ih => simp only [List.cons_append, after_cons, ih]

set_option maxHeartbeats 4000000 in
/-- What stretch 0 leaves in `v7`, from what it finds in the buffers it reads. -/
theorem read_v7 (U : Valuation τ sig (Elt F)) (a0 : (⟨S100000x256, .f32⟩ : BufTy).Contents (Elt F)) (a6 : (⟨S256x128, .f32⟩ : BufTy).Contents (Elt F)) (a7 : (⟨S128, .f32⟩ : BufTy).Contents (Elt F))
    (h_arg0 : U (Proc.devRef .tc main_arg0) = a0)
    (h_arg6 : U (Proc.devRef .tc main_arg6) = a6)
    (h_arg7 : U (Proc.devRef .tc main_arg7) = a7) :
    after st0 U (Proc.devRef .tc main_v7) = val_main_v7 (F := F) a0 a6 a7 := by
  dsimp only [st0]
  after_results_simp
  rw [h_arg0, h_arg6, h_arg7]
  rfl

set_option maxHeartbeats 4000000 in
/-- What stretch 0 leaves in `v3`, from what it finds in the buffers it reads. -/
theorem read_v3 (U : Valuation τ sig (Elt F)) (a1 : (⟨S2x1600000, .i32⟩ : BufTy).Contents (Elt F))
    (h_arg1 : U (Proc.devRef .tc main_arg1) = a1) :
    after st0 U (Proc.devRef .tc main_v3) = val_main_v3 (F := F) a1 := by
  dsimp only [st0]
  after_results_simp
  rw [h_arg1]
  rfl

set_option maxHeartbeats 4000000 in
/-- What stretch 0 leaves in `v1`, from what it finds in the buffers it reads. -/
theorem read_v1 (U : Valuation τ sig (Elt F)) (a1 : (⟨S2x1600000, .i32⟩ : BufTy).Contents (Elt F))
    (h_arg1 : U (Proc.devRef .tc main_arg1) = a1) :
    after st0 U (Proc.devRef .tc main_v1) = val_main_v1 (F := F) a1 := by
  dsimp only [st0]
  after_results_simp
  rw [h_arg1]
  rfl

set_option maxHeartbeats 4000000 in
/-- What stretch 0 leaves in `v8`, from what it finds in the buffers it reads. -/
theorem read_v8 (U : Valuation τ sig (Elt F)) (a0 : (⟨S100000x256, .f32⟩ : BufTy).Contents (Elt F)) (a2 : (⟨S256x128, .f32⟩ : BufTy).Contents (Elt F))
    (h_arg0 : U (Proc.devRef .tc main_arg0) = a0)
    (h_arg2 : U (Proc.devRef .tc main_arg2) = a2) :
    after st0 U (Proc.devRef .tc main_v8) = val_main_v8 (F := F) a0 a2 := by
  dsimp only [st0]
  after_results_simp
  rw [h_arg0, h_arg2]
  rfl

set_option maxHeartbeats 4000000 in
/-- What stretch 1 leaves in `v30`, from what it finds in the buffers it reads. -/
theorem read_v30 (U : Valuation τ sig (Elt F)) (a1 : (⟨S2x1600000, .i32⟩ : BufTy).Contents (Elt F))
    (h_v3 : U (Proc.devRef .tc main_v3) = val_main_v3 (F := F) a1)
    (h_v1 : U (Proc.devRef .tc main_v1) = val_main_v1 (F := F) a1) :
    after st1 U (Proc.devRef .tc main_v30) = val_main_v30 (F := F) a1 := by
  dsimp only [st1]
  after_results_simp
  rw [h_v3, h_v1]
  rfl

set_option maxHeartbeats 4000000 in
/-- What stretch 1 leaves in `v15`, from what it finds in the buffers it reads. -/
theorem read_v15 (U : Valuation τ sig (Elt F)) (a1 : (⟨S2x1600000, .i32⟩ : BufTy).Contents (Elt F))
    (h_v3 : U (Proc.devRef .tc main_v3) = val_main_v3 (F := F) a1) :
    after st1 U (Proc.devRef .tc main_v15) = val_main_v15 (F := F) a1 := by
  dsimp only [st1]
  after_results_simp
  rw [h_v3]
  rfl

set_option maxHeartbeats 4000000 in
/-- What stretch 2 leaves in `v51`, from what it finds in the buffers it reads. -/
theorem read_v51 (U : Valuation τ sig (Elt F)) (a0 : (⟨S100000x256, .f32⟩ : BufTy).Contents (Elt F)) (a1 : (⟨S2x1600000, .i32⟩ : BufTy).Contents (Elt F)) (a2 : (⟨S256x128, .f32⟩ : BufTy).Contents (Elt F)) (a3 : (⟨S128, .f32⟩ : BufTy).Contents (Elt F))
    (h_v3 : U (Proc.devRef .tc main_v3) = val_main_v3 (F := F) a1)
    (h_v8 : U (Proc.devRef .tc main_v8) = val_main_v8 (F := F) a0 a2)
    (h_v1 : U (Proc.devRef .tc main_v1) = val_main_v1 (F := F) a1)
    (h_v30 : U (Proc.devRef .tc main_v30) = val_main_v30 (F := F) a1)
    (h_v15 : U (Proc.devRef .tc main_v15) = val_main_v15 (F := F) a1)
    (h_arg3 : U (Proc.devRef .tc main_arg3) = a3) :
    after st2 U (Proc.devRef .tc main_v51) = val_main_v51 (F := F) a0 a1 a2 a3 := by
  dsimp only [st2]
  after_results_simp
  rw [h_v3, h_v8, h_v1, h_v30, h_v15, h_arg3]
  rfl

set_option maxHeartbeats 4000000 in
/-- What stretch 3 leaves in `v53`, from what it finds in the buffers it reads. -/
theorem read_v53 (U : Valuation τ sig (Elt F)) (a0 : (⟨S100000x256, .f32⟩ : BufTy).Contents (Elt F)) (a1 : (⟨S2x1600000, .i32⟩ : BufTy).Contents (Elt F)) (a2 : (⟨S256x128, .f32⟩ : BufTy).Contents (Elt F)) (a3 : (⟨S128, .f32⟩ : BufTy).Contents (Elt F)) (a4 : (⟨S128x128, .f32⟩ : BufTy).Contents (Elt F))
    (h_v51 : U (Proc.devRef .tc main_v51) = val_main_v51 (F := F) a0 a1 a2 a3)
    (h_arg4 : U (Proc.devRef .tc main_arg4) = a4) :
    after st3 U (Proc.devRef .tc main_v53) = val_main_v53 (F := F) a0 a1 a2 a3 a4 := by
  dsimp only [st3]
  after_results_simp
  rw [h_v51, h_arg4]
  rfl

set_option maxHeartbeats 4000000 in
/-- What stretch 4 leaves in `v75`, from what it finds in the buffers it reads. -/
theorem read_v75 (U : Valuation τ sig (Elt F)) (a1 : (⟨S2x1600000, .i32⟩ : BufTy).Contents (Elt F))
    (h_v3 : U (Proc.devRef .tc main_v3) = val_main_v3 (F := F) a1)
    (h_v1 : U (Proc.devRef .tc main_v1) = val_main_v1 (F := F) a1) :
    after st4 U (Proc.devRef .tc main_v75) = val_main_v75 (F := F) a1 := by
  dsimp only [st4]
  after_results_simp
  rw [h_v3, h_v1]
  rfl

set_option maxHeartbeats 4000000 in
/-- What stretch 4 leaves in `v60`, from what it finds in the buffers it reads. -/
theorem read_v60 (U : Valuation τ sig (Elt F)) (a1 : (⟨S2x1600000, .i32⟩ : BufTy).Contents (Elt F))
    (h_v3 : U (Proc.devRef .tc main_v3) = val_main_v3 (F := F) a1) :
    after st4 U (Proc.devRef .tc main_v60) = val_main_v60 (F := F) a1 := by
  dsimp only [st4]
  after_results_simp
  rw [h_v3]
  rfl

set_option maxHeartbeats 4000000 in
/-- What stretch 5 leaves in `v96`, from what it finds in the buffers it reads. -/
theorem read_v96 (U : Valuation τ sig (Elt F)) (a0 : (⟨S100000x256, .f32⟩ : BufTy).Contents (Elt F)) (a1 : (⟨S2x1600000, .i32⟩ : BufTy).Contents (Elt F)) (a2 : (⟨S256x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F))
    (h_v3 : U (Proc.devRef .tc main_v3) = val_main_v3 (F := F) a1)
    (h_v53 : U (Proc.devRef .tc main_v53) = val_main_v53 (F := F) a0 a1 a2 a3 a4)
    (h_v1 : U (Proc.devRef .tc main_v1) = val_main_v1 (F := F) a1)
    (h_v75 : U (Proc.devRef .tc main_v75) = val_main_v75 (F := F) a1)
    (h_v60 : U (Proc.devRef .tc main_v60) = val_main_v60 (F := F) a1)
    (h_arg5 : U (Proc.devRef .tc main_arg5) = a5) :
    after st5 U (Proc.devRef .tc main_v96) = val_main_v96 (F := F) a0 a1 a2 a3 a4 a5 := by
  dsimp only [st5]
  after_results_simp
  rw [h_v3, h_v53, h_v1, h_v75, h_v60, h_arg5]
  rfl

set_option maxHeartbeats 4000000 in
/-- What stretch 6 leaves in `v97`, from what it finds in the buffers it reads. -/
theorem read_v97 (U : Valuation τ sig (Elt F)) (a0 : (⟨S100000x256, .f32⟩ : BufTy).Contents (Elt F)) (a1 : (⟨S2x1600000, .i32⟩ : BufTy).Contents (Elt F)) (a2 : (⟨S256x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S256x128, .f32⟩ : BufTy).Contents (Elt F)) (a7 : (⟨S128, .f32⟩ : BufTy).Contents (Elt F))
    (h_v96 : U (Proc.devRef .tc main_v96) = val_main_v96 (F := F) a0 a1 a2 a3 a4 a5)
    (h_v7 : U (Proc.devRef .tc main_v7) = val_main_v7 (F := F) a0 a6 a7) :
    after st6 U (Proc.devRef .tc main_v97) = val_main_v97 (F := F) a0 a1 a2 a3 a4 a5 a6 a7 := by
  dsimp only [st6]
  after_results_simp
  rw [h_v96, h_v7]
  rfl

set_option maxHeartbeats 4000000 in
/-- What stretch 7 leaves in `call1_v0`, from what it finds in the buffers it reads. -/
theorem read_call1_v0 (U : Valuation τ sig (Elt F)) (a0 : (⟨S100000x256, .f32⟩ : BufTy).Contents (Elt F)) (a1 : (⟨S2x1600000, .i32⟩ : BufTy).Contents (Elt F)) (a2 : (⟨S256x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S256x128, .f32⟩ : BufTy).Contents (Elt F)) (a7 : (⟨S128, .f32⟩ : BufTy).Contents (Elt F))
    (h_v97 : U (Proc.devRef .tc main_v97) = val_main_v97 (F := F) a0 a1 a2 a3 a4 a5 a6 a7) :
    after st7 U (Proc.devRef .tc main_call1_v0) = val_main_call1_v0 (F := F) a0 a1 a2 a3 a4 a5 a6 a7 := by
  dsimp only [st7]
  after_results_simp
  dsimp only [TRef.toBuf, TRef.ofBuf, TRef.of]
  simp only [cast_eq]
  rw [h_v97]
  rfl

set_option maxHeartbeats 4000000 in
/-- What stretch 8 leaves in `call1_v5`, from what it finds in the buffers it reads. -/
theorem read_call1_v5 (U : Valuation τ sig (Elt F)) (a0 : (⟨S100000x256, .f32⟩ : BufTy).Contents (Elt F)) (a1 : (⟨S2x1600000, .i32⟩ : BufTy).Contents (Elt F)) (a2 : (⟨S256x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S256x128, .f32⟩ : BufTy).Contents (Elt F)) (a7 : (⟨S128, .f32⟩ : BufTy).Contents (Elt F))
    (h_v97 : U (Proc.devRef .tc main_v97) = val_main_v97 (F := F) a0 a1 a2 a3 a4 a5 a6 a7)
    (h_call1_v0 : U (Proc.devRef .tc main_call1_v0) = val_main_call1_v0 (F := F) a0 a1 a2 a3 a4 a5 a6 a7) :
    after st8 U (Proc.devRef .tc main_call1_v5) = val_main_call1_v5 (F := F) a0 a1 a2 a3 a4 a5 a6 a7 := by
  dsimp only [st8]
  after_results_simp
  dsimp only [TRef.toBuf, TRef.ofBuf, TRef.of]
  simp only [cast_eq]
  rw [h_v97, h_call1_v0]
  rfl

set_option maxHeartbeats 4000000 in
/-- What stretch 9 leaves in `v98`, from what it finds in the buffers it reads. -/
theorem read_v98 (U : Valuation τ sig (Elt F)) (a0 : (⟨S100000x256, .f32⟩ : BufTy).Contents (Elt F)) (a1 : (⟨S2x1600000, .i32⟩ : BufTy).Contents (Elt F)) (a2 : (⟨S256x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S256x128, .f32⟩ : BufTy).Contents (Elt F)) (a7 : (⟨S128, .f32⟩ : BufTy).Contents (Elt F))
    (h_call1_v5 : U (Proc.devRef .tc main_call1_v5) = val_main_call1_v5 (F := F) a0 a1 a2 a3 a4 a5 a6 a7) :
    after st9 U (Proc.devRef .tc main_v98) = val_main_v98 (F := F) a0 a1 a2 a3 a4 a5 a6 a7 := by
  dsimp only [st9]
  after_results_simp
  dsimp only [TRef.toBuf, TRef.ofBuf, TRef.of]
  simp only [cast_eq]
  rw [h_call1_v5]
  rfl

set_option maxHeartbeats 4000000 in
/-- What stretch 10 leaves in `v103`, from what it finds in the buffers it reads. -/
theorem read_v103 (U : Valuation τ sig (Elt F)) (a0 : (⟨S100000x256, .f32⟩ : BufTy).Contents (Elt F)) (a1 : (⟨S2x1600000, .i32⟩ : BufTy).Contents (Elt F)) (a2 : (⟨S256x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S256x128, .f32⟩ : BufTy).Contents (Elt F)) (a7 : (⟨S128, .f32⟩ : BufTy).Contents (Elt F)) (a8 : (⟨S128x1, .f32⟩ : BufTy).Contents (Elt F)) (a9 : (⟨S1, .f32⟩ : BufTy).Contents (Elt F))
    (h_v97 : U (Proc.devRef .tc main_v97) = val_main_v97 (F := F) a0 a1 a2 a3 a4 a5 a6 a7)
    (h_arg8 : U (Proc.devRef .tc main_arg8) = a8)
    (h_arg9 : U (Proc.devRef .tc main_arg9) = a9) :
    after st10 U (Proc.devRef .tc main_v103) = val_main_v103 (F := F) a0 a1 a2 a3 a4 a5 a6 a7 a8 a9 := by
  dsimp only [st10]
  after_results_simp
  rw [h_v97, h_arg8, h_arg9]
  rfl

set_option maxHeartbeats 4000000 in
/-- What stretch 11 leaves in `v107`, from what it finds in the buffers it reads. -/
theorem read_v107 (U : Valuation τ sig (Elt F)) (a0 : (⟨S100000x256, .f32⟩ : BufTy).Contents (Elt F)) (a1 : (⟨S2x1600000, .i32⟩ : BufTy).Contents (Elt F)) (a2 : (⟨S256x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S256x128, .f32⟩ : BufTy).Contents (Elt F)) (a7 : (⟨S128, .f32⟩ : BufTy).Contents (Elt F)) (a10 : (⟨S128x128, .f32⟩ : BufTy).Contents (Elt F)) (a11 : (⟨S128, .f32⟩ : BufTy).Contents (Elt F))
    (h_v97 : U (Proc.devRef .tc main_v97) = val_main_v97 (F := F) a0 a1 a2 a3 a4 a5 a6 a7)
    (h_arg10 : U (Proc.devRef .tc main_arg10) = a10)
    (h_arg11 : U (Proc.devRef .tc main_arg11) = a11) :
    after st11 U (Proc.devRef .tc main_v107) = val_main_v107 (F := F) a0 a1 a2 a3 a4 a5 a6 a7 a10 a11 := by
  dsimp only [st11]
  after_results_simp
  rw [h_v97, h_arg10, h_arg11]
  rfl

theorem keep0_arg10 (U : Valuation τ sig (Elt F)) : after st0 U (Proc.devRef .tc main_arg10) = U (Proc.devRef .tc main_arg10) :=
  StableHlo.after_of_forall_not_mem (b := (Proc.devRef .tc main_arg10)) _ _ (List.forall_iff_forall_mem.mp (by
    simp only [TRef.nullary, TRef.unary, TRef.binary, TRef.ternary, st0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg11 (U : Valuation τ sig (Elt F)) : after st0 U (Proc.devRef .tc main_arg11) = U (Proc.devRef .tc main_arg11) :=
  StableHlo.after_of_forall_not_mem (b := (Proc.devRef .tc main_arg11)) _ _ (List.forall_iff_forall_mem.mp (by
    simp only [TRef.nullary, TRef.unary, TRef.binary, TRef.ternary, st0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg8 (U : Valuation τ sig (Elt F)) : after st0 U (Proc.devRef .tc main_arg8) = U (Proc.devRef .tc main_arg8) :=
  StableHlo.after_of_forall_not_mem (b := (Proc.devRef .tc main_arg8)) _ _ (List.forall_iff_forall_mem.mp (by
    simp only [TRef.nullary, TRef.unary, TRef.binary, TRef.ternary, st0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg9 (U : Valuation τ sig (Elt F)) : after st0 U (Proc.devRef .tc main_arg9) = U (Proc.devRef .tc main_arg9) :=
  StableHlo.after_of_forall_not_mem (b := (Proc.devRef .tc main_arg9)) _ _ (List.forall_iff_forall_mem.mp (by
    simp only [TRef.nullary, TRef.unary, TRef.binary, TRef.ternary, st0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg5 (U : Valuation τ sig (Elt F)) : after st0 U (Proc.devRef .tc main_arg5) = U (Proc.devRef .tc main_arg5) :=
  StableHlo.after_of_forall_not_mem (b := (Proc.devRef .tc main_arg5)) _ _ (List.forall_iff_forall_mem.mp (by
    simp only [TRef.nullary, TRef.unary, TRef.binary, TRef.ternary, st0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg4 (U : Valuation τ sig (Elt F)) : after st0 U (Proc.devRef .tc main_arg4) = U (Proc.devRef .tc main_arg4) :=
  StableHlo.after_of_forall_not_mem (b := (Proc.devRef .tc main_arg4)) _ _ (List.forall_iff_forall_mem.mp (by
    simp only [TRef.nullary, TRef.unary, TRef.binary, TRef.ternary, st0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg3 (U : Valuation τ sig (Elt F)) : after st0 U (Proc.devRef .tc main_arg3) = U (Proc.devRef .tc main_arg3) :=
  StableHlo.after_of_forall_not_mem (b := (Proc.devRef .tc main_arg3)) _ _ (List.forall_iff_forall_mem.mp (by
    simp only [TRef.nullary, TRef.unary, TRef.binary, TRef.ternary, st0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_arg10 (U : Valuation τ sig (Elt F)) : after st1 U (Proc.devRef .tc main_arg10) = U (Proc.devRef .tc main_arg10) :=
  StableHlo.after_of_forall_not_mem (b := (Proc.devRef .tc main_arg10)) _ _ (List.forall_iff_forall_mem.mp (by
    simp only [TRef.nullary, TRef.unary, TRef.binary, TRef.ternary, st1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_arg11 (U : Valuation τ sig (Elt F)) : after st1 U (Proc.devRef .tc main_arg11) = U (Proc.devRef .tc main_arg11) :=
  StableHlo.after_of_forall_not_mem (b := (Proc.devRef .tc main_arg11)) _ _ (List.forall_iff_forall_mem.mp (by
    simp only [TRef.nullary, TRef.unary, TRef.binary, TRef.ternary, st1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_arg8 (U : Valuation τ sig (Elt F)) : after st1 U (Proc.devRef .tc main_arg8) = U (Proc.devRef .tc main_arg8) :=
  StableHlo.after_of_forall_not_mem (b := (Proc.devRef .tc main_arg8)) _ _ (List.forall_iff_forall_mem.mp (by
    simp only [TRef.nullary, TRef.unary, TRef.binary, TRef.ternary, st1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_arg9 (U : Valuation τ sig (Elt F)) : after st1 U (Proc.devRef .tc main_arg9) = U (Proc.devRef .tc main_arg9) :=
  StableHlo.after_of_forall_not_mem (b := (Proc.devRef .tc main_arg9)) _ _ (List.forall_iff_forall_mem.mp (by
    simp only [TRef.nullary, TRef.unary, TRef.binary, TRef.ternary, st1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_v7 (U : Valuation τ sig (Elt F)) : after st1 U (Proc.devRef .tc main_v7) = U (Proc.devRef .tc main_v7) :=
  StableHlo.after_of_forall_not_mem (b := (Proc.devRef .tc main_v7)) _ _ (List.forall_iff_forall_mem.mp (by
    simp only [TRef.nullary, TRef.unary, TRef.binary, TRef.ternary, st1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_v3 (U : Valuation τ sig (Elt F)) : after st1 U (Proc.devRef .tc main_v3) = U (Proc.devRef .tc main_v3) :=
  StableHlo.after_of_forall_not_mem (b := (Proc.devRef .tc main_v3)) _ _ (List.forall_iff_forall_mem.mp (by
    simp only [TRef.nullary, TRef.unary, TRef.binary, TRef.ternary, st1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_v1 (U : Valuation τ sig (Elt F)) : after st1 U (Proc.devRef .tc main_v1) = U (Proc.devRef .tc main_v1) :=
  StableHlo.after_of_forall_not_mem (b := (Proc.devRef .tc main_v1)) _ _ (List.forall_iff_forall_mem.mp (by
    simp only [TRef.nullary, TRef.unary, TRef.binary, TRef.ternary, st1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_arg5 (U : Valuation τ sig (Elt F)) : after st1 U (Proc.devRef .tc main_arg5) = U (Proc.devRef .tc main_arg5) :=
  StableHlo.after_of_forall_not_mem (b := (Proc.devRef .tc main_arg5)) _ _ (List.forall_iff_forall_mem.mp (by
    simp only [TRef.nullary, TRef.unary, TRef.binary, TRef.ternary, st1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_arg4 (U : Valuation τ sig (Elt F)) : after st1 U (Proc.devRef .tc main_arg4) = U (Proc.devRef .tc main_arg4) :=
  StableHlo.after_of_forall_not_mem (b := (Proc.devRef .tc main_arg4)) _ _ (List.forall_iff_forall_mem.mp (by
    simp only [TRef.nullary, TRef.unary, TRef.binary, TRef.ternary, st1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_v8 (U : Valuation τ sig (Elt F)) : after st1 U (Proc.devRef .tc main_v8) = U (Proc.devRef .tc main_v8) :=
  StableHlo.after_of_forall_not_mem (b := (Proc.devRef .tc main_v8)) _ _ (List.forall_iff_forall_mem.mp (by
    simp only [TRef.nullary, TRef.unary, TRef.binary, TRef.ternary, st1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_arg3 (U : Valuation τ sig (Elt F)) : after st1 U (Proc.devRef .tc main_arg3) = U (Proc.devRef .tc main_arg3) :=
  StableHlo.after_of_forall_not_mem (b := (Proc.devRef .tc main_arg3)) _ _ (List.forall_iff_forall_mem.mp (by
    simp only [TRef.nullary, TRef.unary, TRef.binary, TRef.ternary, st1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_arg10 (U : Valuation τ sig (Elt F)) : after st2 U (Proc.devRef .tc main_arg10) = U (Proc.devRef .tc main_arg10) :=
  StableHlo.after_of_forall_not_mem (b := (Proc.devRef .tc main_arg10)) _ _ (List.forall_iff_forall_mem.mp (by
    simp only [TRef.nullary, TRef.unary, TRef.binary, TRef.ternary, st2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_arg11 (U : Valuation τ sig (Elt F)) : after st2 U (Proc.devRef .tc main_arg11) = U (Proc.devRef .tc main_arg11) :=
  StableHlo.after_of_forall_not_mem (b := (Proc.devRef .tc main_arg11)) _ _ (List.forall_iff_forall_mem.mp (by
    simp only [TRef.nullary, TRef.unary, TRef.binary, TRef.ternary, st2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_arg8 (U : Valuation τ sig (Elt F)) : after st2 U (Proc.devRef .tc main_arg8) = U (Proc.devRef .tc main_arg8) :=
  StableHlo.after_of_forall_not_mem (b := (Proc.devRef .tc main_arg8)) _ _ (List.forall_iff_forall_mem.mp (by
    simp only [TRef.nullary, TRef.unary, TRef.binary, TRef.ternary, st2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_arg9 (U : Valuation τ sig (Elt F)) : after st2 U (Proc.devRef .tc main_arg9) = U (Proc.devRef .tc main_arg9) :=
  StableHlo.after_of_forall_not_mem (b := (Proc.devRef .tc main_arg9)) _ _ (List.forall_iff_forall_mem.mp (by
    simp only [TRef.nullary, TRef.unary, TRef.binary, TRef.ternary, st2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_v7 (U : Valuation τ sig (Elt F)) : after st2 U (Proc.devRef .tc main_v7) = U (Proc.devRef .tc main_v7) :=
  StableHlo.after_of_forall_not_mem (b := (Proc.devRef .tc main_v7)) _ _ (List.forall_iff_forall_mem.mp (by
    simp only [TRef.nullary, TRef.unary, TRef.binary, TRef.ternary, st2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_v3 (U : Valuation τ sig (Elt F)) : after st2 U (Proc.devRef .tc main_v3) = U (Proc.devRef .tc main_v3) :=
  StableHlo.after_of_forall_not_mem (b := (Proc.devRef .tc main_v3)) _ _ (List.forall_iff_forall_mem.mp (by
    simp only [TRef.nullary, TRef.unary, TRef.binary, TRef.ternary, st2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_v1 (U : Valuation τ sig (Elt F)) : after st2 U (Proc.devRef .tc main_v1) = U (Proc.devRef .tc main_v1) :=
  StableHlo.after_of_forall_not_mem (b := (Proc.devRef .tc main_v1)) _ _ (List.forall_iff_forall_mem.mp (by
    simp only [TRef.nullary, TRef.unary, TRef.binary, TRef.ternary, st2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_arg5 (U : Valuation τ sig (Elt F)) : after st2 U (Proc.devRef .tc main_arg5) = U (Proc.devRef .tc main_arg5) :=
  StableHlo.after_of_forall_not_mem (b := (Proc.devRef .tc main_arg5)) _ _ (List.forall_iff_forall_mem.mp (by
    simp only [TRef.nullary, TRef.unary, TRef.binary, TRef.ternary, st2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_arg4 (U : Valuation τ sig (Elt F)) : after st2 U (Proc.devRef .tc main_arg4) = U (Proc.devRef .tc main_arg4) :=
  StableHlo.after_of_forall_not_mem (b := (Proc.devRef .tc main_arg4)) _ _ (List.forall_iff_forall_mem.mp (by
    simp only [TRef.nullary, TRef.unary, TRef.binary, TRef.ternary, st2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_arg10 (U : Valuation τ sig (Elt F)) : after st3 U (Proc.devRef .tc main_arg10) = U (Proc.devRef .tc main_arg10) :=
  StableHlo.after_of_forall_not_mem (b := (Proc.devRef .tc main_arg10)) _ _ (List.forall_iff_forall_mem.mp (by
    simp only [TRef.nullary, TRef.unary, TRef.binary, TRef.ternary, st3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_arg11 (U : Valuation τ sig (Elt F)) : after st3 U (Proc.devRef .tc main_arg11) = U (Proc.devRef .tc main_arg11) :=
  StableHlo.after_of_forall_not_mem (b := (Proc.devRef .tc main_arg11)) _ _ (List.forall_iff_forall_mem.mp (by
    simp only [TRef.nullary, TRef.unary, TRef.binary, TRef.ternary, st3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_arg8 (U : Valuation τ sig (Elt F)) : after st3 U (Proc.devRef .tc main_arg8) = U (Proc.devRef .tc main_arg8) :=
  StableHlo.after_of_forall_not_mem (b := (Proc.devRef .tc main_arg8)) _ _ (List.forall_iff_forall_mem.mp (by
    simp only [TRef.nullary, TRef.unary, TRef.binary, TRef.ternary, st3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_arg9 (U : Valuation τ sig (Elt F)) : after st3 U (Proc.devRef .tc main_arg9) = U (Proc.devRef .tc main_arg9) :=
  StableHlo.after_of_forall_not_mem (b := (Proc.devRef .tc main_arg9)) _ _ (List.forall_iff_forall_mem.mp (by
    simp only [TRef.nullary, TRef.unary, TRef.binary, TRef.ternary, st3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_v7 (U : Valuation τ sig (Elt F)) : after st3 U (Proc.devRef .tc main_v7) = U (Proc.devRef .tc main_v7) :=
  StableHlo.after_of_forall_not_mem (b := (Proc.devRef .tc main_v7)) _ _ (List.forall_iff_forall_mem.mp (by
    simp only [TRef.nullary, TRef.unary, TRef.binary, TRef.ternary, st3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_v3 (U : Valuation τ sig (Elt F)) : after st3 U (Proc.devRef .tc main_v3) = U (Proc.devRef .tc main_v3) :=
  StableHlo.after_of_forall_not_mem (b := (Proc.devRef .tc main_v3)) _ _ (List.forall_iff_forall_mem.mp (by
    simp only [TRef.nullary, TRef.unary, TRef.binary, TRef.ternary, st3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_v1 (U : Valuation τ sig (Elt F)) : after st3 U (Proc.devRef .tc main_v1) = U (Proc.devRef .tc main_v1) :=
  StableHlo.after_of_forall_not_mem (b := (Proc.devRef .tc main_v1)) _ _ (List.forall_iff_forall_mem.mp (by
    simp only [TRef.nullary, TRef.unary, TRef.binary, TRef.ternary, st3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_arg5 (U : Valuation τ sig (Elt F)) : after st3 U (Proc.devRef .tc main_arg5) = U (Proc.devRef .tc main_arg5) :=
  StableHlo.after_of_forall_not_mem (b := (Proc.devRef .tc main_arg5)) _ _ (List.forall_iff_forall_mem.mp (by
    simp only [TRef.nullary, TRef.unary, TRef.binary, TRef.ternary, st3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep4_arg10 (U : Valuation τ sig (Elt F)) : after st4 U (Proc.devRef .tc main_arg10) = U (Proc.devRef .tc main_arg10) :=
  StableHlo.after_of_forall_not_mem (b := (Proc.devRef .tc main_arg10)) _ _ (List.forall_iff_forall_mem.mp (by
    simp only [TRef.nullary, TRef.unary, TRef.binary, TRef.ternary, st4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep4_arg11 (U : Valuation τ sig (Elt F)) : after st4 U (Proc.devRef .tc main_arg11) = U (Proc.devRef .tc main_arg11) :=
  StableHlo.after_of_forall_not_mem (b := (Proc.devRef .tc main_arg11)) _ _ (List.forall_iff_forall_mem.mp (by
    simp only [TRef.nullary, TRef.unary, TRef.binary, TRef.ternary, st4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep4_arg8 (U : Valuation τ sig (Elt F)) : after st4 U (Proc.devRef .tc main_arg8) = U (Proc.devRef .tc main_arg8) :=
  StableHlo.after_of_forall_not_mem (b := (Proc.devRef .tc main_arg8)) _ _ (List.forall_iff_forall_mem.mp (by
    simp only [TRef.nullary, TRef.unary, TRef.binary, TRef.ternary, st4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep4_arg9 (U : Valuation τ sig (Elt F)) : after st4 U (Proc.devRef .tc main_arg9) = U (Proc.devRef .tc main_arg9) :=
  StableHlo.after_of_forall_not_mem (b := (Proc.devRef .tc main_arg9)) _ _ (List.forall_iff_forall_mem.mp (by
    simp only [TRef.nullary, TRef.unary, TRef.binary, TRef.ternary, st4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep4_v7 (U : Valuation τ sig (Elt F)) : after st4 U (Proc.devRef .tc main_v7) = U (Proc.devRef .tc main_v7) :=
  StableHlo.after_of_forall_not_mem (b := (Proc.devRef .tc main_v7)) _ _ (List.forall_iff_forall_mem.mp (by
    simp only [TRef.nullary, TRef.unary, TRef.binary, TRef.ternary, st4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep4_v3 (U : Valuation τ sig (Elt F)) : after st4 U (Proc.devRef .tc main_v3) = U (Proc.devRef .tc main_v3) :=
  StableHlo.after_of_forall_not_mem (b := (Proc.devRef .tc main_v3)) _ _ (List.forall_iff_forall_mem.mp (by
    simp only [TRef.nullary, TRef.unary, TRef.binary, TRef.ternary, st4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep4_v53 (U : Valuation τ sig (Elt F)) : after st4 U (Proc.devRef .tc main_v53) = U (Proc.devRef .tc main_v53) :=
  StableHlo.after_of_forall_not_mem (b := (Proc.devRef .tc main_v53)) _ _ (List.forall_iff_forall_mem.mp (by
    simp only [TRef.nullary, TRef.unary, TRef.binary, TRef.ternary, st4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep4_v1 (U : Valuation τ sig (Elt F)) : after st4 U (Proc.devRef .tc main_v1) = U (Proc.devRef .tc main_v1) :=
  StableHlo.after_of_forall_not_mem (b := (Proc.devRef .tc main_v1)) _ _ (List.forall_iff_forall_mem.mp (by
    simp only [TRef.nullary, TRef.unary, TRef.binary, TRef.ternary, st4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep4_arg5 (U : Valuation τ sig (Elt F)) : after st4 U (Proc.devRef .tc main_arg5) = U (Proc.devRef .tc main_arg5) :=
  StableHlo.after_of_forall_not_mem (b := (Proc.devRef .tc main_arg5)) _ _ (List.forall_iff_forall_mem.mp (by
    simp only [TRef.nullary, TRef.unary, TRef.binary, TRef.ternary, st4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep5_arg10 (U : Valuation τ sig (Elt F)) : after st5 U (Proc.devRef .tc main_arg10) = U (Proc.devRef .tc main_arg10) :=
  StableHlo.after_of_forall_not_mem (b := (Proc.devRef .tc main_arg10)) _ _ (List.forall_iff_forall_mem.mp (by
    simp only [TRef.nullary, TRef.unary, TRef.binary, TRef.ternary, st5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep5_arg11 (U : Valuation τ sig (Elt F)) : after st5 U (Proc.devRef .tc main_arg11) = U (Proc.devRef .tc main_arg11) :=
  StableHlo.after_of_forall_not_mem (b := (Proc.devRef .tc main_arg11)) _ _ (List.forall_iff_forall_mem.mp (by
    simp only [TRef.nullary, TRef.unary, TRef.binary, TRef.ternary, st5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep5_arg8 (U : Valuation τ sig (Elt F)) : after st5 U (Proc.devRef .tc main_arg8) = U (Proc.devRef .tc main_arg8) :=
  StableHlo.after_of_forall_not_mem (b := (Proc.devRef .tc main_arg8)) _ _ (List.forall_iff_forall_mem.mp (by
    simp only [TRef.nullary, TRef.unary, TRef.binary, TRef.ternary, st5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep5_arg9 (U : Valuation τ sig (Elt F)) : after st5 U (Proc.devRef .tc main_arg9) = U (Proc.devRef .tc main_arg9) :=
  StableHlo.after_of_forall_not_mem (b := (Proc.devRef .tc main_arg9)) _ _ (List.forall_iff_forall_mem.mp (by
    simp only [TRef.nullary, TRef.unary, TRef.binary, TRef.ternary, st5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep5_v7 (U : Valuation τ sig (Elt F)) : after st5 U (Proc.devRef .tc main_v7) = U (Proc.devRef .tc main_v7) :=
  StableHlo.after_of_forall_not_mem (b := (Proc.devRef .tc main_v7)) _ _ (List.forall_iff_forall_mem.mp (by
    simp only [TRef.nullary, TRef.unary, TRef.binary, TRef.ternary, st5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep6_arg10 (U : Valuation τ sig (Elt F)) : after st6 U (Proc.devRef .tc main_arg10) = U (Proc.devRef .tc main_arg10) :=
  StableHlo.after_of_forall_not_mem (b := (Proc.devRef .tc main_arg10)) _ _ (List.forall_iff_forall_mem.mp (by
    simp only [TRef.nullary, TRef.unary, TRef.binary, TRef.ternary, st6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep6_arg11 (U : Valuation τ sig (Elt F)) : after st6 U (Proc.devRef .tc main_arg11) = U (Proc.devRef .tc main_arg11) :=
  StableHlo.after_of_forall_not_mem (b := (Proc.devRef .tc main_arg11)) _ _ (List.forall_iff_forall_mem.mp (by
    simp only [TRef.nullary, TRef.unary, TRef.binary, TRef.ternary, st6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep6_arg8 (U : Valuation τ sig (Elt F)) : after st6 U (Proc.devRef .tc main_arg8) = U (Proc.devRef .tc main_arg8) :=
  StableHlo.after_of_forall_not_mem (b := (Proc.devRef .tc main_arg8)) _ _ (List.forall_iff_forall_mem.mp (by
    simp only [TRef.nullary, TRef.unary, TRef.binary, TRef.ternary, st6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep6_arg9 (U : Valuation τ sig (Elt F)) : after st6 U (Proc.devRef .tc main_arg9) = U (Proc.devRef .tc main_arg9) :=
  StableHlo.after_of_forall_not_mem (b := (Proc.devRef .tc main_arg9)) _ _ (List.forall_iff_forall_mem.mp (by
    simp only [TRef.nullary, TRef.unary, TRef.binary, TRef.ternary, st6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep7_v97 (U : Valuation τ sig (Elt F)) : after st7 U (Proc.devRef .tc main_v97) = U (Proc.devRef .tc main_v97) :=
  StableHlo.after_of_forall_not_mem (b := (Proc.devRef .tc main_v97)) _ _ (List.forall_iff_forall_mem.mp (by
    simp only [TRef.nullary, TRef.unary, TRef.binary, TRef.ternary, st7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep7_arg10 (U : Valuation τ sig (Elt F)) : after st7 U (Proc.devRef .tc main_arg10) = U (Proc.devRef .tc main_arg10) :=
  StableHlo.after_of_forall_not_mem (b := (Proc.devRef .tc main_arg10)) _ _ (List.forall_iff_forall_mem.mp (by
    simp only [TRef.nullary, TRef.unary, TRef.binary, TRef.ternary, st7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep7_arg11 (U : Valuation τ sig (Elt F)) : after st7 U (Proc.devRef .tc main_arg11) = U (Proc.devRef .tc main_arg11) :=
  StableHlo.after_of_forall_not_mem (b := (Proc.devRef .tc main_arg11)) _ _ (List.forall_iff_forall_mem.mp (by
    simp only [TRef.nullary, TRef.unary, TRef.binary, TRef.ternary, st7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep7_arg8 (U : Valuation τ sig (Elt F)) : after st7 U (Proc.devRef .tc main_arg8) = U (Proc.devRef .tc main_arg8) :=
  StableHlo.after_of_forall_not_mem (b := (Proc.devRef .tc main_arg8)) _ _ (List.forall_iff_forall_mem.mp (by
    simp only [TRef.nullary, TRef.unary, TRef.binary, TRef.ternary, st7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep7_arg9 (U : Valuation τ sig (Elt F)) : after st7 U (Proc.devRef .tc main_arg9) = U (Proc.devRef .tc main_arg9) :=
  StableHlo.after_of_forall_not_mem (b := (Proc.devRef .tc main_arg9)) _ _ (List.forall_iff_forall_mem.mp (by
    simp only [TRef.nullary, TRef.unary, TRef.binary, TRef.ternary, st7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep8_v97 (U : Valuation τ sig (Elt F)) : after st8 U (Proc.devRef .tc main_v97) = U (Proc.devRef .tc main_v97) :=
  StableHlo.after_of_forall_not_mem (b := (Proc.devRef .tc main_v97)) _ _ (List.forall_iff_forall_mem.mp (by
    simp only [TRef.nullary, TRef.unary, TRef.binary, TRef.ternary, st8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep8_arg10 (U : Valuation τ sig (Elt F)) : after st8 U (Proc.devRef .tc main_arg10) = U (Proc.devRef .tc main_arg10) :=
  StableHlo.after_of_forall_not_mem (b := (Proc.devRef .tc main_arg10)) _ _ (List.forall_iff_forall_mem.mp (by
    simp only [TRef.nullary, TRef.unary, TRef.binary, TRef.ternary, st8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep8_arg11 (U : Valuation τ sig (Elt F)) : after st8 U (Proc.devRef .tc main_arg11) = U (Proc.devRef .tc main_arg11) :=
  StableHlo.after_of_forall_not_mem (b := (Proc.devRef .tc main_arg11)) _ _ (List.forall_iff_forall_mem.mp (by
    simp only [TRef.nullary, TRef.unary, TRef.binary, TRef.ternary, st8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep8_arg8 (U : Valuation τ sig (Elt F)) : after st8 U (Proc.devRef .tc main_arg8) = U (Proc.devRef .tc main_arg8) :=
  StableHlo.after_of_forall_not_mem (b := (Proc.devRef .tc main_arg8)) _ _ (List.forall_iff_forall_mem.mp (by
    simp only [TRef.nullary, TRef.unary, TRef.binary, TRef.ternary, st8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep8_arg9 (U : Valuation τ sig (Elt F)) : after st8 U (Proc.devRef .tc main_arg9) = U (Proc.devRef .tc main_arg9) :=
  StableHlo.after_of_forall_not_mem (b := (Proc.devRef .tc main_arg9)) _ _ (List.forall_iff_forall_mem.mp (by
    simp only [TRef.nullary, TRef.unary, TRef.binary, TRef.ternary, st8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep9_v97 (U : Valuation τ sig (Elt F)) : after st9 U (Proc.devRef .tc main_v97) = U (Proc.devRef .tc main_v97) :=
  StableHlo.after_of_forall_not_mem (b := (Proc.devRef .tc main_v97)) _ _ (List.forall_iff_forall_mem.mp (by
    simp only [TRef.nullary, TRef.unary, TRef.binary, TRef.ternary, st9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep9_arg10 (U : Valuation τ sig (Elt F)) : after st9 U (Proc.devRef .tc main_arg10) = U (Proc.devRef .tc main_arg10) :=
  StableHlo.after_of_forall_not_mem (b := (Proc.devRef .tc main_arg10)) _ _ (List.forall_iff_forall_mem.mp (by
    simp only [TRef.nullary, TRef.unary, TRef.binary, TRef.ternary, st9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep9_arg11 (U : Valuation τ sig (Elt F)) : after st9 U (Proc.devRef .tc main_arg11) = U (Proc.devRef .tc main_arg11) :=
  StableHlo.after_of_forall_not_mem (b := (Proc.devRef .tc main_arg11)) _ _ (List.forall_iff_forall_mem.mp (by
    simp only [TRef.nullary, TRef.unary, TRef.binary, TRef.ternary, st9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep9_arg8 (U : Valuation τ sig (Elt F)) : after st9 U (Proc.devRef .tc main_arg8) = U (Proc.devRef .tc main_arg8) :=
  StableHlo.after_of_forall_not_mem (b := (Proc.devRef .tc main_arg8)) _ _ (List.forall_iff_forall_mem.mp (by
    simp only [TRef.nullary, TRef.unary, TRef.binary, TRef.ternary, st9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep9_arg9 (U : Valuation τ sig (Elt F)) : after st9 U (Proc.devRef .tc main_arg9) = U (Proc.devRef .tc main_arg9) :=
  StableHlo.after_of_forall_not_mem (b := (Proc.devRef .tc main_arg9)) _ _ (List.forall_iff_forall_mem.mp (by
    simp only [TRef.nullary, TRef.unary, TRef.binary, TRef.ternary, st9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep10_v98 (U : Valuation τ sig (Elt F)) : after st10 U (Proc.devRef .tc main_v98) = U (Proc.devRef .tc main_v98) :=
  StableHlo.after_of_forall_not_mem (b := (Proc.devRef .tc main_v98)) _ _ (List.forall_iff_forall_mem.mp (by
    simp only [TRef.nullary, TRef.unary, TRef.binary, TRef.ternary, st10, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep10_v97 (U : Valuation τ sig (Elt F)) : after st10 U (Proc.devRef .tc main_v97) = U (Proc.devRef .tc main_v97) :=
  StableHlo.after_of_forall_not_mem (b := (Proc.devRef .tc main_v97)) _ _ (List.forall_iff_forall_mem.mp (by
    simp only [TRef.nullary, TRef.unary, TRef.binary, TRef.ternary, st10, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep10_arg10 (U : Valuation τ sig (Elt F)) : after st10 U (Proc.devRef .tc main_arg10) = U (Proc.devRef .tc main_arg10) :=
  StableHlo.after_of_forall_not_mem (b := (Proc.devRef .tc main_arg10)) _ _ (List.forall_iff_forall_mem.mp (by
    simp only [TRef.nullary, TRef.unary, TRef.binary, TRef.ternary, st10, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep10_arg11 (U : Valuation τ sig (Elt F)) : after st10 U (Proc.devRef .tc main_arg11) = U (Proc.devRef .tc main_arg11) :=
  StableHlo.after_of_forall_not_mem (b := (Proc.devRef .tc main_arg11)) _ _ (List.forall_iff_forall_mem.mp (by
    simp only [TRef.nullary, TRef.unary, TRef.binary, TRef.ternary, st10, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep11_v98 (U : Valuation τ sig (Elt F)) : after st11 U (Proc.devRef .tc main_v98) = U (Proc.devRef .tc main_v98) :=
  StableHlo.after_of_forall_not_mem (b := (Proc.devRef .tc main_v98)) _ _ (List.forall_iff_forall_mem.mp (by
    simp only [TRef.nullary, TRef.unary, TRef.binary, TRef.ternary, st11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep11_v103 (U : Valuation τ sig (Elt F)) : after st11 U (Proc.devRef .tc main_v103) = U (Proc.devRef .tc main_v103) :=
  StableHlo.after_of_forall_not_mem (b := (Proc.devRef .tc main_v103)) _ _ (List.forall_iff_forall_mem.mp (by
    simp only [TRef.nullary, TRef.unary, TRef.binary, TRef.ternary, st11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

variable (m : (ℓ : Loc nD τ sig) → Buf (Elt F) ℓ) (c : Dev nD)

/-- The buffers' contents at the launch and after each stretch. -/
abbrev B0 : Valuation τ sig (Elt F) := launchContents m c
abbrev B1 : Valuation τ sig (Elt F) := after st0 (B0 m c)
abbrev B2 : Valuation τ sig (Elt F) := after st1 (B1 m c)
abbrev B3 : Valuation τ sig (Elt F) := after st2 (B2 m c)
abbrev B4 : Valuation τ sig (Elt F) := after st3 (B3 m c)
abbrev B5 : Valuation τ sig (Elt F) := after st4 (B4 m c)
abbrev B6 : Valuation τ sig (Elt F) := after st5 (B5 m c)
abbrev B7 : Valuation τ sig (Elt F) := after st6 (B6 m c)
abbrev B8 : Valuation τ sig (Elt F) := after st7 (B7 m c)
abbrev B9 : Valuation τ sig (Elt F) := after st8 (B8 m c)
abbrev B10 : Valuation τ sig (Elt F) := after st9 (B9 m c)
abbrev B11 : Valuation τ sig (Elt F) := after st10 (B10 m c)
abbrev B12 : Valuation τ sig (Elt F) := after st11 (B11 m c)

/-- The program's run is the stretches' runs, one after the other. -/
theorem after_ops : after (ops : List (HloOp τ sig (Elt F))) (launchContents m c) = B12 m c := by
  rw [ops_split]
  simp only [after_append]

theorem at0_arg10 : B0 m c (Proc.devRef .tc main_arg10) = (m ((c.tc : Thread nD τ).loc main_arg10)) := rfl

theorem at0_arg11 : B0 m c (Proc.devRef .tc main_arg11) = (m ((c.tc : Thread nD τ).loc main_arg11)) := rfl

theorem at0_arg8 : B0 m c (Proc.devRef .tc main_arg8) = (m ((c.tc : Thread nD τ).loc main_arg8)) := rfl

theorem at0_arg9 : B0 m c (Proc.devRef .tc main_arg9) = (m ((c.tc : Thread nD τ).loc main_arg9)) := rfl

theorem at0_arg5 : B0 m c (Proc.devRef .tc main_arg5) = (m ((c.tc : Thread nD τ).loc main_arg5)) := rfl

theorem at0_arg4 : B0 m c (Proc.devRef .tc main_arg4) = (m ((c.tc : Thread nD τ).loc main_arg4)) := rfl

theorem at0_arg3 : B0 m c (Proc.devRef .tc main_arg3) = (m ((c.tc : Thread nD τ).loc main_arg3)) := rfl

theorem at0_arg0 : B0 m c (Proc.devRef .tc main_arg0) = (m ((c.tc : Thread nD τ).loc main_arg0)) := rfl

theorem at0_arg6 : B0 m c (Proc.devRef .tc main_arg6) = (m ((c.tc : Thread nD τ).loc main_arg6)) := rfl

theorem at0_arg7 : B0 m c (Proc.devRef .tc main_arg7) = (m ((c.tc : Thread nD τ).loc main_arg7)) := rfl

theorem at0_arg1 : B0 m c (Proc.devRef .tc main_arg1) = (m ((c.tc : Thread nD τ).loc main_arg1)) := rfl

theorem at0_arg2 : B0 m c (Proc.devRef .tc main_arg2) = (m ((c.tc : Thread nD τ).loc main_arg2)) := rfl

theorem at1_v7 : B1 m c (Proc.devRef .tc main_v7) = val_main_v7 (F := F) (m ((c.tc : Thread nD τ).loc main_arg0)) (m ((c.tc : Thread nD τ).loc main_arg6)) (m ((c.tc : Thread nD τ).loc main_arg7)) :=
  read_v7 (B0 m c) (m ((c.tc : Thread nD τ).loc main_arg0)) (m ((c.tc : Thread nD τ).loc main_arg6)) (m ((c.tc : Thread nD τ).loc main_arg7)) (at0_arg0 m c) (at0_arg6 m c) (at0_arg7 m c)

theorem at1_v3 : B1 m c (Proc.devRef .tc main_v3) = val_main_v3 (F := F) (m ((c.tc : Thread nD τ).loc main_arg1)) :=
  read_v3 (B0 m c) (m ((c.tc : Thread nD τ).loc main_arg1)) (at0_arg1 m c)

theorem at1_v1 : B1 m c (Proc.devRef .tc main_v1) = val_main_v1 (F := F) (m ((c.tc : Thread nD τ).loc main_arg1)) :=
  read_v1 (B0 m c) (m ((c.tc : Thread nD τ).loc main_arg1)) (at0_arg1 m c)

theorem at1_v8 : B1 m c (Proc.devRef .tc main_v8) = val_main_v8 (F := F) (m ((c.tc : Thread nD τ).loc main_arg0)) (m ((c.tc : Thread nD τ).loc main_arg2)) :=
  read_v8 (B0 m c) (m ((c.tc : Thread nD τ).loc main_arg0)) (m ((c.tc : Thread nD τ).loc main_arg2)) (at0_arg0 m c) (at0_arg2 m c)

theorem at1_arg10 : B1 m c (Proc.devRef .tc main_arg10) = (m ((c.tc : Thread nD τ).loc main_arg10)) :=
  (keep0_arg10 (B0 m c)).trans (at0_arg10 m c)

theorem at1_arg11 : B1 m c (Proc.devRef .tc main_arg11) = (m ((c.tc : Thread nD τ).loc main_arg11)) :=
  (keep0_arg11 (B0 m c)).trans (at0_arg11 m c)

theorem at1_arg8 : B1 m c (Proc.devRef .tc main_arg8) = (m ((c.tc : Thread nD τ).loc main_arg8)) :=
  (keep0_arg8 (B0 m c)).trans (at0_arg8 m c)

theorem at1_arg9 : B1 m c (Proc.devRef .tc main_arg9) = (m ((c.tc : Thread nD τ).loc main_arg9)) :=
  (keep0_arg9 (B0 m c)).trans (at0_arg9 m c)

theorem at1_arg5 : B1 m c (Proc.devRef .tc main_arg5) = (m ((c.tc : Thread nD τ).loc main_arg5)) :=
  (keep0_arg5 (B0 m c)).trans (at0_arg5 m c)

theorem at1_arg4 : B1 m c (Proc.devRef .tc main_arg4) = (m ((c.tc : Thread nD τ).loc main_arg4)) :=
  (keep0_arg4 (B0 m c)).trans (at0_arg4 m c)

theorem at1_arg3 : B1 m c (Proc.devRef .tc main_arg3) = (m ((c.tc : Thread nD τ).loc main_arg3)) :=
  (keep0_arg3 (B0 m c)).trans (at0_arg3 m c)

theorem at2_v30 : B2 m c (Proc.devRef .tc main_v30) = val_main_v30 (F := F) (m ((c.tc : Thread nD τ).loc main_arg1)) :=
  read_v30 (B1 m c) (m ((c.tc : Thread nD τ).loc main_arg1)) (at1_v3 m c) (at1_v1 m c)

theorem at2_v15 : B2 m c (Proc.devRef .tc main_v15) = val_main_v15 (F := F) (m ((c.tc : Thread nD τ).loc main_arg1)) :=
  read_v15 (B1 m c) (m ((c.tc : Thread nD τ).loc main_arg1)) (at1_v3 m c)

theorem at2_arg10 : B2 m c (Proc.devRef .tc main_arg10) = (m ((c.tc : Thread nD τ).loc main_arg10)) :=
  (keep1_arg10 (B1 m c)).trans (at1_arg10 m c)

theorem at2_arg11 : B2 m c (Proc.devRef .tc main_arg11) = (m ((c.tc : Thread nD τ).loc main_arg11)) :=
  (keep1_arg11 (B1 m c)).trans (at1_arg11 m c)

theorem at2_arg8 : B2 m c (Proc.devRef .tc main_arg8) = (m ((c.tc : Thread nD τ).loc main_arg8)) :=
  (keep1_arg8 (B1 m c)).trans (at1_arg8 m c)

theorem at2_arg9 : B2 m c (Proc.devRef .tc main_arg9) = (m ((c.tc : Thread nD τ).loc main_arg9)) :=
  (keep1_arg9 (B1 m c)).trans (at1_arg9 m c)

theorem at2_v7 : B2 m c (Proc.devRef .tc main_v7) = val_main_v7 (F := F) (m ((c.tc : Thread nD τ).loc main_arg0)) (m ((c.tc : Thread nD τ).loc main_arg6)) (m ((c.tc : Thread nD τ).loc main_arg7)) :=
  (keep1_v7 (B1 m c)).trans (at1_v7 m c)

theorem at2_v3 : B2 m c (Proc.devRef .tc main_v3) = val_main_v3 (F := F) (m ((c.tc : Thread nD τ).loc main_arg1)) :=
  (keep1_v3 (B1 m c)).trans (at1_v3 m c)

theorem at2_v1 : B2 m c (Proc.devRef .tc main_v1) = val_main_v1 (F := F) (m ((c.tc : Thread nD τ).loc main_arg1)) :=
  (keep1_v1 (B1 m c)).trans (at1_v1 m c)

theorem at2_arg5 : B2 m c (Proc.devRef .tc main_arg5) = (m ((c.tc : Thread nD τ).loc main_arg5)) :=
  (keep1_arg5 (B1 m c)).trans (at1_arg5 m c)

theorem at2_arg4 : B2 m c (Proc.devRef .tc main_arg4) = (m ((c.tc : Thread nD τ).loc main_arg4)) :=
  (keep1_arg4 (B1 m c)).trans (at1_arg4 m c)

theorem at2_v8 : B2 m c (Proc.devRef .tc main_v8) = val_main_v8 (F := F) (m ((c.tc : Thread nD τ).loc main_arg0)) (m ((c.tc : Thread nD τ).loc main_arg2)) :=
  (keep1_v8 (B1 m c)).trans (at1_v8 m c)

theorem at2_arg3 : B2 m c (Proc.devRef .tc main_arg3) = (m ((c.tc : Thread nD τ).loc main_arg3)) :=
  (keep1_arg3 (B1 m c)).trans (at1_arg3 m c)

theorem at3_v51 : B3 m c (Proc.devRef .tc main_v51) = val_main_v51 (F := F) (m ((c.tc : Thread nD τ).loc main_arg0)) (m ((c.tc : Thread nD τ).loc main_arg1)) (m ((c.tc : Thread nD τ).loc main_arg2)) (m ((c.tc : Thread nD τ).loc main_arg3)) :=
  read_v51 (B2 m c) (m ((c.tc : Thread nD τ).loc main_arg0)) (m ((c.tc : Thread nD τ).loc main_arg1)) (m ((c.tc : Thread nD τ).loc main_arg2)) (m ((c.tc : Thread nD τ).loc main_arg3)) (at2_v3 m c) (at2_v8 m c) (at2_v1 m c) (at2_v30 m c) (at2_v15 m c) (at2_arg3 m c)

theorem at3_arg10 : B3 m c (Proc.devRef .tc main_arg10) = (m ((c.tc : Thread nD τ).loc main_arg10)) :=
  (keep2_arg10 (B2 m c)).trans (at2_arg10 m c)

theorem at3_arg11 : B3 m c (Proc.devRef .tc main_arg11) = (m ((c.tc : Thread nD τ).loc main_arg11)) :=
  (keep2_arg11 (B2 m c)).trans (at2_arg11 m c)

theorem at3_arg8 : B3 m c (Proc.devRef .tc main_arg8) = (m ((c.tc : Thread nD τ).loc main_arg8)) :=
  (keep2_arg8 (B2 m c)).trans (at2_arg8 m c)

theorem at3_arg9 : B3 m c (Proc.devRef .tc main_arg9) = (m ((c.tc : Thread nD τ).loc main_arg9)) :=
  (keep2_arg9 (B2 m c)).trans (at2_arg9 m c)

theorem at3_v7 : B3 m c (Proc.devRef .tc main_v7) = val_main_v7 (F := F) (m ((c.tc : Thread nD τ).loc main_arg0)) (m ((c.tc : Thread nD τ).loc main_arg6)) (m ((c.tc : Thread nD τ).loc main_arg7)) :=
  (keep2_v7 (B2 m c)).trans (at2_v7 m c)

theorem at3_v3 : B3 m c (Proc.devRef .tc main_v3) = val_main_v3 (F := F) (m ((c.tc : Thread nD τ).loc main_arg1)) :=
  (keep2_v3 (B2 m c)).trans (at2_v3 m c)

theorem at3_v1 : B3 m c (Proc.devRef .tc main_v1) = val_main_v1 (F := F) (m ((c.tc : Thread nD τ).loc main_arg1)) :=
  (keep2_v1 (B2 m c)).trans (at2_v1 m c)

theorem at3_arg5 : B3 m c (Proc.devRef .tc main_arg5) = (m ((c.tc : Thread nD τ).loc main_arg5)) :=
  (keep2_arg5 (B2 m c)).trans (at2_arg5 m c)

theorem at3_arg4 : B3 m c (Proc.devRef .tc main_arg4) = (m ((c.tc : Thread nD τ).loc main_arg4)) :=
  (keep2_arg4 (B2 m c)).trans (at2_arg4 m c)

theorem at4_v53 : B4 m c (Proc.devRef .tc main_v53) = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  read_v53 (B3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (at3_v51 m c) (at3_arg4 m c)

theorem at4_arg10 : B4 m c (Proc.devRef .tc main_arg10) = (m ((c.tc : Thread nD τ).loc main_arg10)) :=
  (keep3_arg10 (B3 m c)).trans (at3_arg10 m c)

theorem at4_arg11 : B4 m c (Proc.devRef .tc main_arg11) = (m ((c.tc : Thread nD τ).loc main_arg11)) :=
  (keep3_arg11 (B3 m c)).trans (at3_arg11 m c)

theorem at4_arg8 : B4 m c (Proc.devRef .tc main_arg8) = (m ((c.tc : Thread nD τ).loc main_arg8)) :=
  (keep3_arg8 (B3 m c)).trans (at3_arg8 m c)

theorem at4_arg9 : B4 m c (Proc.devRef .tc main_arg9) = (m ((c.tc : Thread nD τ).loc main_arg9)) :=
  (keep3_arg9 (B3 m c)).trans (at3_arg9 m c)

theorem at4_v7 : B4 m c (Proc.devRef .tc main_v7) = val_main_v7 (F := F) (m ((c.tc : Thread nD τ).loc main_arg0)) (m ((c.tc : Thread nD τ).loc main_arg6)) (m ((c.tc : Thread nD τ).loc main_arg7)) :=
  (keep3_v7 (B3 m c)).trans (at3_v7 m c)

theorem at4_v3 : B4 m c (Proc.devRef .tc main_v3) = val_main_v3 (F := F) (m ((c.tc : Thread nD τ).loc main_arg1)) :=
  (keep3_v3 (B3 m c)).trans (at3_v3 m c)

theorem at4_v1 : B4 m c (Proc.devRef .tc main_v1) = val_main_v1 (F := F) (m ((c.tc : Thread nD τ).loc main_arg1)) :=
  (keep3_v1 (B3 m c)).trans (at3_v1 m c)

theorem at4_arg5 : B4 m c (Proc.devRef .tc main_arg5) = (m ((c.tc : Thread nD τ).loc main_arg5)) :=
  (keep3_arg5 (B3 m c)).trans (at3_arg5 m c)

theorem at5_v75 : B5 m c (Proc.devRef .tc main_v75) = val_main_v75 (F := F) (m ((c.tc : Thread nD τ).loc main_arg1)) :=
  read_v75 (B4 m c) (m ((c.tc : Thread nD τ).loc main_arg1)) (at4_v3 m c) (at4_v1 m c)

theorem at5_v60 : B5 m c (Proc.devRef .tc main_v60) = val_main_v60 (F := F) (m ((c.tc : Thread nD τ).loc main_arg1)) :=
  read_v60 (B4 m c) (m ((c.tc : Thread nD τ).loc main_arg1)) (at4_v3 m c)

theorem at5_arg10 : B5 m c (Proc.devRef .tc main_arg10) = (m ((c.tc : Thread nD τ).loc main_arg10)) :=
  (keep4_arg10 (B4 m c)).trans (at4_arg10 m c)

theorem at5_arg11 : B5 m c (Proc.devRef .tc main_arg11) = (m ((c.tc : Thread nD τ).loc main_arg11)) :=
  (keep4_arg11 (B4 m c)).trans (at4_arg11 m c)

theorem at5_arg8 : B5 m c (Proc.devRef .tc main_arg8) = (m ((c.tc : Thread nD τ).loc main_arg8)) :=
  (keep4_arg8 (B4 m c)).trans (at4_arg8 m c)

theorem at5_arg9 : B5 m c (Proc.devRef .tc main_arg9) = (m ((c.tc : Thread nD τ).loc main_arg9)) :=
  (keep4_arg9 (B4 m c)).trans (at4_arg9 m c)

theorem at5_v7 : B5 m c (Proc.devRef .tc main_v7) = val_main_v7 (F := F) (m ((c.tc : Thread nD τ).loc main_arg0)) (m ((c.tc : Thread nD τ).loc main_arg6)) (m ((c.tc : Thread nD τ).loc main_arg7)) :=
  (keep4_v7 (B4 m c)).trans (at4_v7 m c)

theorem at5_v3 : B5 m c (Proc.devRef .tc main_v3) = val_main_v3 (F := F) (m ((c.tc : Thread nD τ).loc main_arg1)) :=
  (keep4_v3 (B4 m c)).trans (at4_v3 m c)

theorem at5_v53 : B5 m c (Proc.devRef .tc main_v53) = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (keep4_v53 (B4 m c)).trans (at4_v53 m c)

theorem at5_v1 : B5 m c (Proc.devRef .tc main_v1) = val_main_v1 (F := F) (m ((c.tc : Thread nD τ).loc main_arg1)) :=
  (keep4_v1 (B4 m c)).trans (at4_v1 m c)

theorem at5_arg5 : B5 m c (Proc.devRef .tc main_arg5) = (m ((c.tc : Thread nD τ).loc main_arg5)) :=
  (keep4_arg5 (B4 m c)).trans (at4_arg5 m c)

theorem at6_v96 : B6 m c (Proc.devRef .tc main_v96) = val_main_v96 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  read_v96 (B5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (at5_v3 m c) (at5_v53 m c) (at5_v1 m c) (at5_v75 m c) (at5_v60 m c) (at5_arg5 m c)

theorem at6_arg10 : B6 m c (Proc.devRef .tc main_arg10) = (m ((c.tc : Thread nD τ).loc main_arg10)) :=
  (keep5_arg10 (B5 m c)).trans (at5_arg10 m c)

theorem at6_arg11 : B6 m c (Proc.devRef .tc main_arg11) = (m ((c.tc : Thread nD τ).loc main_arg11)) :=
  (keep5_arg11 (B5 m c)).trans (at5_arg11 m c)

theorem at6_arg8 : B6 m c (Proc.devRef .tc main_arg8) = (m ((c.tc : Thread nD τ).loc main_arg8)) :=
  (keep5_arg8 (B5 m c)).trans (at5_arg8 m c)

theorem at6_arg9 : B6 m c (Proc.devRef .tc main_arg9) = (m ((c.tc : Thread nD τ).loc main_arg9)) :=
  (keep5_arg9 (B5 m c)).trans (at5_arg9 m c)

theorem at6_v7 : B6 m c (Proc.devRef .tc main_v7) = val_main_v7 (F := F) (m ((c.tc : Thread nD τ).loc main_arg0)) (m ((c.tc : Thread nD τ).loc main_arg6)) (m ((c.tc : Thread nD τ).loc main_arg7)) :=
  (keep5_v7 (B5 m c)).trans (at5_v7 m c)

theorem at7_v97 : B7 m c (Proc.devRef .tc main_v97) = val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  read_v97 (B6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (at6_v96 m c) (at6_v7 m c)

theorem at7_arg10 : B7 m c (Proc.devRef .tc main_arg10) = (m ((c.tc : Thread nD τ).loc main_arg10)) :=
  (keep6_arg10 (B6 m c)).trans (at6_arg10 m c)

theorem at7_arg11 : B7 m c (Proc.devRef .tc main_arg11) = (m ((c.tc : Thread nD τ).loc main_arg11)) :=
  (keep6_arg11 (B6 m c)).trans (at6_arg11 m c)

theorem at7_arg8 : B7 m c (Proc.devRef .tc main_arg8) = (m ((c.tc : Thread nD τ).loc main_arg8)) :=
  (keep6_arg8 (B6 m c)).trans (at6_arg8 m c)

theorem at7_arg9 : B7 m c (Proc.devRef .tc main_arg9) = (m ((c.tc : Thread nD τ).loc main_arg9)) :=
  (keep6_arg9 (B6 m c)).trans (at6_arg9 m c)

theorem at8_call1_v0 : B8 m c (Proc.devRef .tc main_call1_v0) = val_main_call1_v0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  read_call1_v0 (B7 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (at7_v97 m c)

theorem at8_v97 : B8 m c (Proc.devRef .tc main_v97) = val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (keep7_v97 (B7 m c)).trans (at7_v97 m c)

theorem at8_arg10 : B8 m c (Proc.devRef .tc main_arg10) = (m ((c.tc : Thread nD τ).loc main_arg10)) :=
  (keep7_arg10 (B7 m c)).trans (at7_arg10 m c)

theorem at8_arg11 : B8 m c (Proc.devRef .tc main_arg11) = (m ((c.tc : Thread nD τ).loc main_arg11)) :=
  (keep7_arg11 (B7 m c)).trans (at7_arg11 m c)

theorem at8_arg8 : B8 m c (Proc.devRef .tc main_arg8) = (m ((c.tc : Thread nD τ).loc main_arg8)) :=
  (keep7_arg8 (B7 m c)).trans (at7_arg8 m c)

theorem at8_arg9 : B8 m c (Proc.devRef .tc main_arg9) = (m ((c.tc : Thread nD τ).loc main_arg9)) :=
  (keep7_arg9 (B7 m c)).trans (at7_arg9 m c)

theorem at9_call1_v5 : B9 m c (Proc.devRef .tc main_call1_v5) = val_main_call1_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  read_call1_v5 (B8 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (at8_v97 m c) (at8_call1_v0 m c)

theorem at9_v97 : B9 m c (Proc.devRef .tc main_v97) = val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (keep8_v97 (B8 m c)).trans (at8_v97 m c)

theorem at9_arg10 : B9 m c (Proc.devRef .tc main_arg10) = (m ((c.tc : Thread nD τ).loc main_arg10)) :=
  (keep8_arg10 (B8 m c)).trans (at8_arg10 m c)

theorem at9_arg11 : B9 m c (Proc.devRef .tc main_arg11) = (m ((c.tc : Thread nD τ).loc main_arg11)) :=
  (keep8_arg11 (B8 m c)).trans (at8_arg11 m c)

theorem at9_arg8 : B9 m c (Proc.devRef .tc main_arg8) = (m ((c.tc : Thread nD τ).loc main_arg8)) :=
  (keep8_arg8 (B8 m c)).trans (at8_arg8 m c)

theorem at9_arg9 : B9 m c (Proc.devRef .tc main_arg9) = (m ((c.tc : Thread nD τ).loc main_arg9)) :=
  (keep8_arg9 (B8 m c)).trans (at8_arg9 m c)

theorem at10_v98 : B10 m c (Proc.devRef .tc main_v98) = val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  read_v98 (B9 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (at9_call1_v5 m c)

theorem at10_v97 : B10 m c (Proc.devRef .tc main_v97) = val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (keep9_v97 (B9 m c)).trans (at9_v97 m c)

theorem at10_arg10 : B10 m c (Proc.devRef .tc main_arg10) = (m ((c.tc : Thread nD τ).loc main_arg10)) :=
  (keep9_arg10 (B9 m c)).trans (at9_arg10 m c)

theorem at10_arg11 : B10 m c (Proc.devRef .tc main_arg11) = (m ((c.tc : Thread nD τ).loc main_arg11)) :=
  (keep9_arg11 (B9 m c)).trans (at9_arg11 m c)

theorem at10_arg8 : B10 m c (Proc.devRef .tc main_arg8) = (m ((c.tc : Thread nD τ).loc main_arg8)) :=
  (keep9_arg8 (B9 m c)).trans (at9_arg8 m c)

theorem at10_arg9 : B10 m c (Proc.devRef .tc main_arg9) = (m ((c.tc : Thread nD τ).loc main_arg9)) :=
  (keep9_arg9 (B9 m c)).trans (at9_arg9 m c)

theorem at11_v103 : B11 m c (Proc.devRef .tc main_v103) = val_main_v103 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  read_v103 (B10 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (at10_v97 m c) (at10_arg8 m c) (at10_arg9 m c)

theorem at11_v98 : B11 m c (Proc.devRef .tc main_v98) = val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (keep10_v98 (B10 m c)).trans (at10_v98 m c)

theorem at11_v97 : B11 m c (Proc.devRef .tc main_v97) = val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (keep10_v97 (B10 m c)).trans (at10_v97 m c)

theorem at11_arg10 : B11 m c (Proc.devRef .tc main_arg10) = (m ((c.tc : Thread nD τ).loc main_arg10)) :=
  (keep10_arg10 (B10 m c)).trans (at10_arg10 m c)

theorem at11_arg11 : B11 m c (Proc.devRef .tc main_arg11) = (m ((c.tc : Thread nD τ).loc main_arg11)) :=
  (keep10_arg11 (B10 m c)).trans (at10_arg11 m c)

theorem at12_v107 : B12 m c (Proc.devRef .tc main_v107) = val_main_v107 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) :=
  read_v107 (B11 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (at11_v97 m c) (at11_arg10 m c) (at11_arg11 m c)

theorem at12_v98 : B12 m c (Proc.devRef .tc main_v98) = val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (keep11_v98 (B11 m c)).trans (at11_v98 m c)

theorem at12_v103 : B12 m c (Proc.devRef .tc main_v103) = val_main_v103 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (keep11_v103 (B11 m c)).trans (at11_v103 m c)

/-- The program's run leaves `v98` at its stage's value of the arguments. -/
theorem value_v98 : after (ops : List (HloOp τ sig (Elt F))) (launchContents m c) (Proc.devRef .tc main_v98) = val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [after_ops]
  exact at12_v98 m c

/-- The program's run leaves `v103` at its stage's value of the arguments. -/
theorem value_v103 : after (ops : List (HloOp τ sig (Elt F))) (launchContents m c) (Proc.devRef .tc main_v103) = val_main_v103 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [after_ops]
  exact at12_v103 m c

/-- The program's run leaves `v107` at its stage's value of the arguments. -/
theorem value_v107 : after (ops : List (HloOp τ sig (Elt F))) (launchContents m c) (Proc.devRef .tc main_v107) = val_main_v107 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) := by
  rw [after_ops]
  exact at12_v107 m c

set_option maxHeartbeats 4000000 in
theorem kept_arg0 : after (ops : List (HloOp τ sig (Elt F))) (launchContents m c) (Proc.devRef .tc main_arg0) = (m ((c.tc : Thread nD τ).loc main_arg0)) :=
  StableHlo.after_of_forall_not_mem (b := (Proc.devRef .tc main_arg0)) _ _ (List.forall_iff_forall_mem.mp (by
    simp only [ops, TRef.nullary, TRef.unary, TRef.binary, TRef.ternary, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem kept_arg1 : after (ops : List (HloOp τ sig (Elt F))) (launchContents m c) (Proc.devRef .tc main_arg1) = (m ((c.tc : Thread nD τ).loc main_arg1)) :=
  StableHlo.after_of_forall_not_mem (b := (Proc.devRef .tc main_arg1)) _ _ (List.forall_iff_forall_mem.mp (by
    simp only [ops, TRef.nullary, TRef.unary, TRef.binary, TRef.ternary, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem kept_arg2 : after (ops : List (HloOp τ sig (Elt F))) (launchContents m c) (Proc.devRef .tc main_arg2) = (m ((c.tc : Thread nD τ).loc main_arg2)) :=
  StableHlo.after_of_forall_not_mem (b := (Proc.devRef .tc main_arg2)) _ _ (List.forall_iff_forall_mem.mp (by
    simp only [ops, TRef.nullary, TRef.unary, TRef.binary, TRef.ternary, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem kept_arg3 : after (ops : List (HloOp τ sig (Elt F))) (launchContents m c) (Proc.devRef .tc main_arg3) = (m ((c.tc : Thread nD τ).loc main_arg3)) :=
  StableHlo.after_of_forall_not_mem (b := (Proc.devRef .tc main_arg3)) _ _ (List.forall_iff_forall_mem.mp (by
    simp only [ops, TRef.nullary, TRef.unary, TRef.binary, TRef.ternary, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem kept_arg4 : after (ops : List (HloOp τ sig (Elt F))) (launchContents m c) (Proc.devRef .tc main_arg4) = (m ((c.tc : Thread nD τ).loc main_arg4)) :=
  StableHlo.after_of_forall_not_mem (b := (Proc.devRef .tc main_arg4)) _ _ (List.forall_iff_forall_mem.mp (by
    simp only [ops, TRef.nullary, TRef.unary, TRef.binary, TRef.ternary, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem kept_arg5 : after (ops : List (HloOp τ sig (Elt F))) (launchContents m c) (Proc.devRef .tc main_arg5) = (m ((c.tc : Thread nD τ).loc main_arg5)) :=
  StableHlo.after_of_forall_not_mem (b := (Proc.devRef .tc main_arg5)) _ _ (List.forall_iff_forall_mem.mp (by
    simp only [ops, TRef.nullary, TRef.unary, TRef.binary, TRef.ternary, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem kept_arg6 : after (ops : List (HloOp τ sig (Elt F))) (launchContents m c) (Proc.devRef .tc main_arg6) = (m ((c.tc : Thread nD τ).loc main_arg6)) :=
  StableHlo.after_of_forall_not_mem (b := (Proc.devRef .tc main_arg6)) _ _ (List.forall_iff_forall_mem.mp (by
    simp only [ops, TRef.nullary, TRef.unary, TRef.binary, TRef.ternary, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem kept_arg7 : after (ops : List (HloOp τ sig (Elt F))) (launchContents m c) (Proc.devRef .tc main_arg7) = (m ((c.tc : Thread nD τ).loc main_arg7)) :=
  StableHlo.after_of_forall_not_mem (b := (Proc.devRef .tc main_arg7)) _ _ (List.forall_iff_forall_mem.mp (by
    simp only [ops, TRef.nullary, TRef.unary, TRef.binary, TRef.ternary, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem kept_arg8 : after (ops : List (HloOp τ sig (Elt F))) (launchContents m c) (Proc.devRef .tc main_arg8) = (m ((c.tc : Thread nD τ).loc main_arg8)) :=
  StableHlo.after_of_forall_not_mem (b := (Proc.devRef .tc main_arg8)) _ _ (List.forall_iff_forall_mem.mp (by
    simp only [ops, TRef.nullary, TRef.unary, TRef.binary, TRef.ternary, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem kept_arg9 : after (ops : List (HloOp τ sig (Elt F))) (launchContents m c) (Proc.devRef .tc main_arg9) = (m ((c.tc : Thread nD τ).loc main_arg9)) :=
  StableHlo.after_of_forall_not_mem (b := (Proc.devRef .tc main_arg9)) _ _ (List.forall_iff_forall_mem.mp (by
    simp only [ops, TRef.nullary, TRef.unary, TRef.binary, TRef.ternary, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem kept_arg10 : after (ops : List (HloOp τ sig (Elt F))) (launchContents m c) (Proc.devRef .tc main_arg10) = (m ((c.tc : Thread nD τ).loc main_arg10)) :=
  StableHlo.after_of_forall_not_mem (b := (Proc.devRef .tc main_arg10)) _ _ (List.forall_iff_forall_mem.mp (by
    simp only [ops, TRef.nullary, TRef.unary, TRef.binary, TRef.ternary, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem kept_arg11 : after (ops : List (HloOp τ sig (Elt F))) (launchContents m c) (Proc.devRef .tc main_arg11) = (m ((c.tc : Thread nD τ).loc main_arg11)) :=
  StableHlo.after_of_forall_not_mem (b := (Proc.devRef .tc main_arg11)) _ _ (List.forall_iff_forall_mem.mp (by
    simp only [ops, TRef.nullary, TRef.unary, TRef.binary, TRef.ternary, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

omit c in
/-- On every device, from any memory with zero counters: every weakly fair execution of the program terminates with
    each result at its stage's value of the arguments, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v98) = val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v103) = val_main_v103 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v107) = val_main_v107 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v98).trans (value_v98 m c), (h c main_v103).trans (value_v103 m c), (h c main_v107).trans (value_v107 m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c),
      (h c main_arg11).trans (kept_arg11 m c)⟩)
    (run_seq scopedRefs_eq scopedSems_eq defs main (fun _ => ops) main_eq (fun _ => ops_sub) m ρ)

end Cert.ReferenceIdeal.Staged

end
-- ==== Proof.KernelRun.lean ====
/-
  The idealized kernel program's run with its RESULT buffers named.

  The program is three kernel regions among four stretches of host operations.  Its generated frame certificate
  proves termination and that the argument arrays end as launched; the equivalence claim also needs what the
  result buffers hold.  The run below is the same launch over the same segments, with the final thread state read
  at EVERY unscoped buffer: each ends at the last boundary's contents `Gen.W7`, the fold of the host stretches and
  the regions' write-backs over the launch memory.
-/
import proofs.«101989_j22505628631761_1_alg».proof.Proof.Gen.KernelIdeal.Frame

set_option maxRecDepth 16384

noncomputable section

namespace Cert.KernelIdeal.Outcome

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in every final state each unscoped
    buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- A TensorCore buffer that is not scoped to a region is among those the final state is read at. -/
theorem at_ref (r : PUnit × MemSt nD τ sig (Elt F))
    (h : ∀ c : Dev nD, ∀ b ∈ Pipeline.ucRefs τ sig, r.2.mem (((c : Thread nD τ)).1, b) = W7 m ρ c b)
    (c : Dev nD) (b : Ref sig .tc) (hb : ¬ (Proc.devRef .tc b : DevRef τ sig).isScoped) :
    r.2.mem ((c.tc : Thread nD τ).loc b) = W7 m ρ c (Proc.devRef .tc b) :=
  h c _ (mem_uc b hb)

end Cert.KernelIdeal.Outcome

end
-- ==== Proof.Stretch.lean ====
/-
  The host stretches of the idealized kernel program, each read as ONE function of the buffers it starts from.

  Between its three kernel regions the program runs plain array operations: before the first region the degree
  normalisation (the edge endpoints, each node's in-degree plus one, its inverse square root, the per-edge
  coefficient and the self-loop coefficient); after the first and after the second region one message-passing step
  (gather the source rows, scale by the edge coefficient, sum into the destination rows, add the scaled self-loop
  term and the bias).  The message-passing step is named once (`aggregate`), and the buffers each stretch leaves are
  stated as that function of the buffers it found; the operations inside are never opened.
-/
import proofs.«101989_j22505628631761_1_alg».proof.Proof.Gen.KernelIdeal.Frame
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-! ## The stretches' functions -/

/-- The first row of the edge list: the source node of each edge. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The second row of the edge list: the destination node of each edge. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- A list of node numbers as a column of gather indices, a negative entry wrapped around by the node count. -/
def wrapIdx (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Each node's inverse square root of (in-degree + 1). -/
def dinvOf (dst : (⟨S1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- The per-edge coefficient: the product of the two endpoints' inverse square roots. -/
def coefOf (src dst : (⟨S1600000, .i32⟩ : BufTy).Contents (Elt F)) : (⟨S1600000, .f32⟩ : BufTy).Contents (Elt F) :=
  mulf (Host.gather gather_S100000_S1600000x1_S1600000_n_0_n_n_0_1_1 (dinvOf dst) (wrapIdx src))
    (Host.gather gather_S100000_S1600000x1_S1600000_n_0_n_n_0_1_1 (dinvOf dst) (wrapIdx dst))

/-- The self-loop coefficient: the square of a node's inverse square root. -/
def selfOf (dst : (⟨S1600000, .i32⟩ : BufTy).Contents (Elt F)) : (⟨S100000, .f32⟩ : BufTy).Contents (Elt F) :=
  mulf (dinvOf dst) (dinvOf dst)

/-- One message-passing step on a table `h` of node rows: the sum over incoming edges of the source row times the edge
    coefficient, plus the node's own row times the self-loop coefficient, plus the bias. -/
def aggregate (h : (⟨S100000x128, .f32⟩ : BufTy).Contents (Elt F)) (src dst : (⟨S1600000, .i32⟩ : BufTy).Contents (Elt F))
    (coef : (⟨S1600000, .f32⟩ : BufTy).Contents (Elt F)) (self : (⟨S100000, .f32⟩ : BufTy).Contents (Elt F)) (b : (⟨S128, .f32⟩ : BufTy).Contents (Elt F)) :
    (⟨S100000x128, .f32⟩ : BufTy).Contents (Elt F) :=
  addf (addf
      (Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 dst)
        (mulf (Host.gather gather_S100000x128_S1600000x1_S1600000x128_1_0_n_n_0_1_1128 h (wrapIdx src))
          (broadcastInDim S1600000x128 ![0, 1] bcast_S1600000x1_S1600000x128_0_1
            (broadcastInDim S1600000x1 ![0] bcast_S1600000_S1600000x1_0 coef))))
      (mulf h (broadcastInDim S100000x128 ![0, 1] bcast_S100000x1_S100000x128_0_1
        (broadcastInDim S100000x1 ![0] bcast_S100000_S100000x1_0 self))))
    (broadcastInDim S100000x128 ![0, 1] bcast_S1x128_S100000x128_0_1 (broadcastInDim S1x128 ![1] bcast_S128_S1x128_1 b))

variable (m : (ℓ : Loc nD τ sig) → Buf (Elt F) ℓ) (ρ : Dev nD → PrngReg)

/-! ## What the first stretch leaves -/

/-- After the first stretch: the edges' source nodes. -/
theorem first_src (c : Dev nD) : W1 m ρ c (Proc.devRef .tc main_v1) = srcOf (W0 m ρ c (Proc.devRef .tc main_arg1)) := by
  show StableHlo.after hostOps0 (W0 m ρ c) (Proc.devRef .tc main_v1) = _
  dsimp only [hostOps0]
  after_results
  rfl

/-- After the first stretch: the edges' destination nodes. -/
theorem first_dst (c : Dev nD) : W1 m ρ c (Proc.devRef .tc main_v3) = dstOf (W0 m ρ c (Proc.devRef .tc main_arg1)) := by
  show StableHlo.after hostOps0 (W0 m ρ c) (Proc.devRef .tc main_v3) = _
  dsimp only [hostOps0]
  after_results
  rfl

set_option maxHeartbeats 4000000 in
/-- After the first stretch: the per-edge coefficients. -/
theorem first_coef (c : Dev nD) : W1 m ρ c (Proc.devRef .tc main_v25) = coefOf (srcOf (W0 m ρ c (Proc.devRef .tc main_arg1))) (dstOf (W0 m ρ c (Proc.devRef .tc main_arg1))) := by
  show StableHlo.after hostOps0 (W0 m ρ c) (Proc.devRef .tc main_v25) = _
  dsimp only [hostOps0]
  after_results_simp <;> rfl

/-- After the first stretch: the self-loop coefficients. -/
theorem first_self (c : Dev nD) : W1 m ρ c (Proc.devRef .tc main_v26) = selfOf (dstOf (W0 m ρ c (Proc.devRef .tc main_arg1))) := by
  show StableHlo.after hostOps0 (W0 m ρ c) (Proc.devRef .tc main_v26) = _
  dsimp only [hostOps0]
  after_results
  rfl

/-- After the first stretch: the residual layer's bias as one row. -/
theorem first_bias (c : Dev nD) : W1 m ρ c (Proc.devRef .tc main_v27) = shapeCast _ (W0 m ρ c (Proc.devRef .tc main_arg7)) shapeCasts_S128_S1x128 := by
  show StableHlo.after hostOps0 (W0 m ρ c) (Proc.devRef .tc main_v27) = _
  dsimp only [hostOps0]
  after_results
  rfl

set_option maxHeartbeats 4000000 in
/-- The second stretch is one message-passing step on the first region's second result. -/
theorem second_agg (c : Dev nD) : W3 m ρ c (Proc.devRef .tc main_v48) = aggregate (W2 m ρ c (Proc.devRef .tc main_v28_1)) (W2 m ρ c (Proc.devRef .tc main_v1)) (W2 m ρ c (Proc.devRef .tc main_v3)) (W2 m ρ c (Proc.devRef .tc main_v25)) (W2 m ρ c (Proc.devRef .tc main_v26)) (W2 m ρ c (Proc.devRef .tc main_arg3)) := by
  show StableHlo.after hostOps1 (W2 m ρ c) (Proc.devRef .tc main_v48) = _
  dsimp only [hostOps1]
  after_results_simp <;> rfl

set_option maxHeartbeats 4000000 in
/-- The third stretch is one message-passing step on the second region's result. -/
theorem third_agg (c : Dev nD) : W5 m ρ c (Proc.devRef .tc main_v69) = aggregate (W4 m ρ c (Proc.devRef .tc main_v49)) (W4 m ρ c (Proc.devRef .tc main_v1)) (W4 m ρ c (Proc.devRef .tc main_v3)) (W4 m ρ c (Proc.devRef .tc main_v25)) (W4 m ρ c (Proc.devRef .tc main_v26)) (W4 m ρ c (Proc.devRef .tc main_arg5)) := by
  show StableHlo.after hostOps2 (W4 m ρ c) (Proc.devRef .tc main_v69) = _
  dsimp only [hostOps2]
  after_results_simp <;> rfl

/-- The third stretch lays the one-output head's weight column out as a row. -/
theorem third_wdeg (c : Dev nD) : W5 m ρ c (Proc.devRef .tc main_v70) = shapeCast _ (W4 m ρ c (Proc.devRef .tc main_arg8)) shapeCasts_S128x1_S1x128 := by
  show StableHlo.after hostOps2 (W4 m ρ c) (Proc.devRef .tc main_v70) = _
  dsimp only [hostOps2]
  after_results
  rfl

/-- The third stretch lays the one-output head's bias out as a one-cell table. -/
theorem third_bdeg (c : Dev nD) : W5 m ρ c (Proc.devRef .tc main_v71) = shapeCast _ (W4 m ρ c (Proc.devRef .tc main_arg9)) shapeCasts_S1_S1x1 := by
  show StableHlo.after hostOps2 (W4 m ρ c) (Proc.devRef .tc main_v71) = _
  dsimp only [hostOps2]
  after_results
  rfl

/-- The third stretch lays the last head's bias out as one row. -/
theorem third_b3 (c : Dev nD) : W5 m ρ c (Proc.devRef .tc main_v72) = shapeCast _ (W4 m ρ c (Proc.devRef .tc main_arg11)) shapeCasts_S128_S1x128 := by
  show StableHlo.after hostOps2 (W4 m ρ c) (Proc.devRef .tc main_v72) = _
  dsimp only [hostOps2]
  after_results
  rfl

/-- The last stretch flattens the one-output head's column to a vector. -/
theorem last_flat (c : Dev nD) : W7 m ρ c (Proc.devRef .tc main_v74) = shapeCast _ (W6 m ρ c (Proc.devRef .tc main_v73_1)) shapeCasts_S100000x1_S100000 := by
  show StableHlo.after hostOps3 (W6 m ρ c) (Proc.devRef .tc main_v74) = _
  dsimp only [hostOps3]
  after_results
  rfl

/-! ## What passes through a stretch or a region untouched

  A buffer no operation of a stretch writes holds after it what it held before; a buffer that is not one of a region's
  arrays holds at the region's exit what it held at its entry. -/

theorem keep1_0_arg0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := (StableHlo.after_of_forall_not_mem (b := Proc.devRef .tc main_arg0) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep1_0_arg2 (c : Dev nD) : W1 m ρ c (Proc.devRef .tc main_arg2) = W0 m ρ c (Proc.devRef .tc main_arg2) :=
  calc W1 m ρ c (Proc.devRef .tc main_arg2)
    _ = W0 m ρ c (Proc.devRef .tc main_arg2) := (StableHlo.after_of_forall_not_mem (b := Proc.devRef .tc main_arg2) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep1_0_arg6 (c : Dev nD) : W1 m ρ c (Proc.devRef .tc main_arg6) = W0 m ρ c (Proc.devRef .tc main_arg6) :=
  calc W1 m ρ c (Proc.devRef .tc main_arg6)
    _ = W0 m ρ c (Proc.devRef .tc main_arg6) := (StableHlo.after_of_forall_not_mem (b := Proc.devRef .tc main_arg6) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep2_0_arg3 (c : Dev nD) : W2 m ρ c (Proc.devRef .tc main_arg3) = W0 m ρ c (Proc.devRef .tc main_arg3) :=
  calc W2 m ρ c (Proc.devRef .tc main_arg3)
    _ = W1 m ρ c (Proc.devRef .tc main_arg3) := (W2_of_ne m ρ c main_arg3 (by decide))
    _ = W0 m ρ c (Proc.devRef .tc main_arg3) := (StableHlo.after_of_forall_not_mem (b := Proc.devRef .tc main_arg3) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep2_1_v1 (c : Dev nD) : W2 m ρ c (Proc.devRef .tc main_v1) = W1 m ρ c (Proc.devRef .tc main_v1) :=
  calc W2 m ρ c (Proc.devRef .tc main_v1)
    _ = W1 m ρ c (Proc.devRef .tc main_v1) := (W2_of_ne m ρ c main_v1 (by decide))

theorem keep2_1_v3 (c : Dev nD) : W2 m ρ c (Proc.devRef .tc main_v3) = W1 m ρ c (Proc.devRef .tc main_v3) :=
  calc W2 m ρ c (Proc.devRef .tc main_v3)
    _ = W1 m ρ c (Proc.devRef .tc main_v3) := (W2_of_ne m ρ c main_v3 (by decide))

theorem keep2_1_v25 (c : Dev nD) : W2 m ρ c (Proc.devRef .tc main_v25) = W1 m ρ c (Proc.devRef .tc main_v25) :=
  calc W2 m ρ c (Proc.devRef .tc main_v25)
    _ = W1 m ρ c (Proc.devRef .tc main_v25) := (W2_of_ne m ρ c main_v25 (by decide))

theorem keep2_1_v26 (c : Dev nD) : W2 m ρ c (Proc.devRef .tc main_v26) = W1 m ρ c (Proc.devRef .tc main_v26) :=
  calc W2 m ρ c (Proc.devRef .tc main_v26)
    _ = W1 m ρ c (Proc.devRef .tc main_v26) := (W2_of_ne m ρ c main_v26 (by decide))

theorem keep3_0_arg4 (c : Dev nD) : W3 m ρ c (Proc.devRef .tc main_arg4) = W0 m ρ c (Proc.devRef .tc main_arg4) :=
  calc W3 m ρ c (Proc.devRef .tc main_arg4)
    _ = W2 m ρ c (Proc.devRef .tc main_arg4) := (StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg4) := (W2_of_ne m ρ c main_arg4 (by decide))
    _ = W0 m ρ c (Proc.devRef .tc main_arg4) := (StableHlo.after_of_forall_not_mem (b := Proc.devRef .tc main_arg4) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep4_0_arg5 (c : Dev nD) : W4 m ρ c (Proc.devRef .tc main_arg5) = W0 m ρ c (Proc.devRef .tc main_arg5) :=
  calc W4 m ρ c (Proc.devRef .tc main_arg5)
    _ = W3 m ρ c (Proc.devRef .tc main_arg5) := (W4_of_ne m ρ c main_arg5 (by decide))
    _ = W2 m ρ c (Proc.devRef .tc main_arg5) := (StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg5) := (W2_of_ne m ρ c main_arg5 (by decide))
    _ = W0 m ρ c (Proc.devRef .tc main_arg5) := (StableHlo.after_of_forall_not_mem (b := Proc.devRef .tc main_arg5) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep4_0_arg8 (c : Dev nD) : W4 m ρ c (Proc.devRef .tc main_arg8) = W0 m ρ c (Proc.devRef .tc main_arg8) :=
  calc W4 m ρ c (Proc.devRef .tc main_arg8)
    _ = W3 m ρ c (Proc.devRef .tc main_arg8) := (W4_of_ne m ρ c main_arg8 (by decide))
    _ = W2 m ρ c (Proc.devRef .tc main_arg8) := (StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg8) := (W2_of_ne m ρ c main_arg8 (by decide))
    _ = W0 m ρ c (Proc.devRef .tc main_arg8) := (StableHlo.after_of_forall_not_mem (b := Proc.devRef .tc main_arg8) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep4_0_arg9 (c : Dev nD) : W4 m ρ c (Proc.devRef .tc main_arg9) = W0 m ρ c (Proc.devRef .tc main_arg9) :=
  calc W4 m ρ c (Proc.devRef .tc main_arg9)
    _ = W3 m ρ c (Proc.devRef .tc main_arg9) := (W4_of_ne m ρ c main_arg9 (by decide))
    _ = W2 m ρ c (Proc.devRef .tc main_arg9) := (StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg9) := (W2_of_ne m ρ c main_arg9 (by decide))
    _ = W0 m ρ c (Proc.devRef .tc main_arg9) := (StableHlo.after_of_forall_not_mem (b := Proc.devRef .tc main_arg9) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep4_0_arg11 (c : Dev nD) : W4 m ρ c (Proc.devRef .tc main_arg11) = W0 m ρ c (Proc.devRef .tc main_arg11) :=
  calc W4 m ρ c (Proc.devRef .tc main_arg11)
    _ = W3 m ρ c (Proc.devRef .tc main_arg11) := (W4_of_ne m ρ c main_arg11 (by decide))
    _ = W2 m ρ c (Proc.devRef .tc main_arg11) := (StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg11) := (W2_of_ne m ρ c main_arg11 (by decide))
    _ = W0 m ρ c (Proc.devRef .tc main_arg11) := (StableHlo.after_of_forall_not_mem (b := Proc.devRef .tc main_arg11) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep4_1_v1 (c : Dev nD) : W4 m ρ c (Proc.devRef .tc main_v1) = W1 m ρ c (Proc.devRef .tc main_v1) :=
  calc W4 m ρ c (Proc.devRef .tc main_v1)
    _ = W3 m ρ c (Proc.devRef .tc main_v1) := (W4_of_ne m ρ c main_v1 (by decide))
    _ = W2 m ρ c (Proc.devRef .tc main_v1) := (StableHlo.after_of_forall_not_mem (b := Proc.devRef .tc main_v1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_v1) := (W2_of_ne m ρ c main_v1 (by decide))

theorem keep4_1_v3 (c : Dev nD) : W4 m ρ c (Proc.devRef .tc main_v3) = W1 m ρ c (Proc.devRef .tc main_v3) :=
  calc W4 m ρ c (Proc.devRef .tc main_v3)
    _ = W3 m ρ c (Proc.devRef .tc main_v3) := (W4_of_ne m ρ c main_v3 (by decide))
    _ = W2 m ρ c (Proc.devRef .tc main_v3) := (StableHlo.after_of_forall_not_mem (b := Proc.devRef .tc main_v3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_v3) := (W2_of_ne m ρ c main_v3 (by decide))

theorem keep4_1_v25 (c : Dev nD) : W4 m ρ c (Proc.devRef .tc main_v25) = W1 m ρ c (Proc.devRef .tc main_v25) :=
  calc W4 m ρ c (Proc.devRef .tc main_v25)
    _ = W3 m ρ c (Proc.devRef .tc main_v25) := (W4_of_ne m ρ c main_v25 (by decide))
    _ = W2 m ρ c (Proc.devRef .tc main_v25) := (StableHlo.after_of_forall_not_mem (b := Proc.devRef .tc main_v25) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_v25) := (W2_of_ne m ρ c main_v25 (by decide))

theorem keep4_1_v26 (c : Dev nD) : W4 m ρ c (Proc.devRef .tc main_v26) = W1 m ρ c (Proc.devRef .tc main_v26) :=
  calc W4 m ρ c (Proc.devRef .tc main_v26)
    _ = W3 m ρ c (Proc.devRef .tc main_v26) := (W4_of_ne m ρ c main_v26 (by decide))
    _ = W2 m ρ c (Proc.devRef .tc main_v26) := (StableHlo.after_of_forall_not_mem (b := Proc.devRef .tc main_v26) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_v26) := (W2_of_ne m ρ c main_v26 (by decide))

theorem keep5_2_v28_0 (c : Dev nD) : W5 m ρ c (Proc.devRef .tc main_v28_0) = W2 m ρ c (Proc.devRef .tc main_v28_0) :=
  calc W5 m ρ c (Proc.devRef .tc main_v28_0)
    _ = W4 m ρ c (Proc.devRef .tc main_v28_0) := (StableHlo.after_of_forall_not_mem (b := Proc.devRef .tc main_v28_0) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W3 m ρ c (Proc.devRef .tc main_v28_0) := (W4_of_ne m ρ c main_v28_0 (by decide))
    _ = W2 m ρ c (Proc.devRef .tc main_v28_0) := (StableHlo.after_of_forall_not_mem (b := Proc.devRef .tc main_v28_0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep5_0_arg10 (c : Dev nD) : W5 m ρ c (Proc.devRef .tc main_arg10) = W0 m ρ c (Proc.devRef .tc main_arg10) :=
  calc W5 m ρ c (Proc.devRef .tc main_arg10)
    _ = W4 m ρ c (Proc.devRef .tc main_arg10) := (StableHlo.after_of_forall_not_mem (b := Proc.devRef .tc main_arg10) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W3 m ρ c (Proc.devRef .tc main_arg10) := (W4_of_ne m ρ c main_arg10 (by decide))
    _ = W2 m ρ c (Proc.devRef .tc main_arg10) := (StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg10) := (W2_of_ne m ρ c main_arg10 (by decide))
    _ = W0 m ρ c (Proc.devRef .tc main_arg10) := (StableHlo.after_of_forall_not_mem (b := Proc.devRef .tc main_arg10) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep7_6_v73_0 (c : Dev nD) : W7 m ρ c (Proc.devRef .tc main_v73_0) = W6 m ρ c (Proc.devRef .tc main_v73_0) :=
  calc W7 m ρ c (Proc.devRef .tc main_v73_0)
    _ = W6 m ρ c (Proc.devRef .tc main_v73_0) := (StableHlo.after_of_forall_not_mem (b := Proc.devRef .tc main_v73_0) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep7_6_v73_2 (c : Dev nD) : W7 m ρ c (Proc.devRef .tc main_v73_2) = W6 m ρ c (Proc.devRef .tc main_v73_2) :=
  calc W7 m ρ c (Proc.devRef .tc main_v73_2)
    _ = W6 m ρ c (Proc.devRef .tc main_v73_2) := (StableHlo.after_of_forall_not_mem (b := Proc.devRef .tc main_v73_2) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

end Cert.KernelIdeal.Stretch

end
-- ==== Proof.Spec.lean ====
/-
  The mathematics of the two programs, as functions of whole arrays over the extended reals.

  Both programs compute a two-layer graph convolution with a residual connection and three output heads.  Between
  the message-passing steps (a gather along the edge list and a segment sum, identical operations in both programs)
  every step acts on each node's row independently:

    * a dense layer, row r of `x · W` is `∑ k, x r k * W k j`; with a bias row added, or after a rectifier;
    * the row-wise log-softmax, `(h - M) - log (∑ k, exp (h k - M))` with `M` the row's maximum, the maximum taken as
      a fold of `max` from the reduction's initial value;
    * a row's dot product with one weight row, plus a scalar bias.

  The functions below state each of these once, over the literal shapes of this problem (100000 nodes, 256 input
  features, 128 hidden features).  The kernel's blocks of 2000 rows and the reference's whole-array operations are
  both shown to compute them.
-/
import Idealize.ShloMosaic.PureOps.Ideal
import Idealize.ShloMosaic.Lib.ValueIdx

noncomputable section

namespace Cert.Gnn

open Idealize.ShloMosaic Idealize.ShloMosaic.ValueIdx

/-- An extended-real table of `a` rows and `b` columns. -/
abbrev Tab (a b : Nat) : Type := (⟨2, ![a, b]⟩ : Shape).Idx → EReal

/-- The row coordinate of a table index, at its literal bound. -/
abbrev row {a b : Nat} (i : (⟨2, ![a, b]⟩ : Shape).Idx) : Fin a := ⟨(i 0).val, idx2_lt0 i⟩
/-- The column coordinate of a table index, at its literal bound. -/
abbrev col {a b : Nat} (i : (⟨2, ![a, b]⟩ : Shape).Idx) : Fin b := ⟨(i 1).val, idx2_lt1 i⟩

theorem row_ix2 {a b : Nat} (r : Fin a) (j : Fin b) : row (ix2 r j) = r := rfl
theorem col_ix2 {a b : Nat} (r : Fin a) (j : Fin b) : col (ix2 r j) = j := rfl
theorem ix2_row_col {a b : Nat} (i : (⟨2, ![a, b]⟩ : Shape).Idx) : ix2 (row i) (col i) = i :=
  funext fun d => by match d with | ⟨0, _⟩ => rfl | ⟨1, _⟩ => rfl

/-- The float zero as the programs spell it (the accumulators' and the rectifier's constant). -/
abbrev zeroF : EReal := Ideal.ofBits .f32 0x00000000#32
/-- The initial value of the row maximum as the programs spell it (the pattern of minus infinity). -/
abbrev negInfF : EReal := Ideal.ofBits .f32 0xFF800000#32

/-- The input layer: row r of `x · W`, 256 features to 128. -/
def dense256 (x : Tab 100000 256) (W : Tab 256 128) : Tab 100000 128 :=
  fun i => ∑ k : Fin 256, x (ix2 (row i) k) * W (ix2 k (col i))

/-- A hidden layer: row r of `h · W`, 128 features to 128. -/
def dense128 (h : Tab 100000 128) (W : Tab 128 128) : Tab 100000 128 :=
  fun i => ∑ k : Fin 128, h (ix2 (row i) k) * W (ix2 k (col i))

/-- A bias row added to every row. -/
def addRow (a : Tab 100000 128) (b : Tab 1 128) : Tab 100000 128 :=
  fun i => a i + b (ix2 0 (col i))

/-- The rectifier, entry by entry. -/
def relu (h : Tab 100000 128) : Tab 100000 128 :=
  fun i => max (h i) zeroF

/-- The entrywise sum of two tables (the residual connection). -/
def plus (a b : Tab 100000 128) : Tab 100000 128 :=
  fun i => a i + b i

/-- A row's maximum: the fold of `max` over the row from the reduction's initial value. -/
def rowMax (h : Tab 100000 128) (r : Fin 100000) : EReal :=
  (Finset.univ : Finset (Fin 128)).fold max negInfF (fun k => h (ix2 r k))

/-- The row-wise log-softmax in its shifted form. -/
def logSoftmax (h : Tab 100000 128) : Tab 100000 128 :=
  fun i => (h i - rowMax h (row i)) - Ideal.log (∑ k : Fin 128, Ideal.exp (h (ix2 (row i) k) - rowMax h (row i)))

/-- A row's dot product with one weight row, plus a scalar bias: a head with one output. -/
def rowDot (h : Tab 100000 128) (w : Tab 1 128) (b : Tab 1 1) : Tab 100000 1 :=
  fun i => (∑ k : Fin 128, h (ix2 (row i) k) * w (ix2 0 k)) + b (ix2 0 0)

/-- A vector of 128 entries as a one-row table. -/
def rowOf (b : (⟨1, ![128]⟩ : Shape).Idx → EReal) : Tab 1 128 :=
  fun j => b (ix1 (col j))

/-- A one-column table of 128 rows laid out as a one-row table (the row-major reshape of [128, 1] to [1, 128]). -/
def transposeCol (w : Tab 128 1) : Tab 1 128 :=
  fun j => w (ix2 (col j) 0)

/-- A vector of one entry as a one-cell table. -/
def cellOf (b : (⟨1, ![1]⟩ : Shape).Idx → EReal) : Tab 1 1 :=
  fun _ => b (ix1 0)

/-- A one-column table of 100000 rows as a vector (the reshape of [100000, 1] to [100000]). -/
def flat (y : Tab 100000 1) : (⟨1, ![100000]⟩ : Shape).Idx → EReal :=
  fun r => y (ix2 (⟨(r 0).val, (r 0).isLt⟩ : Fin 100000) 0)

end Cert.Gnn

end
-- ==== Proof.Layout.lean ====
/-
  The reshapes of the small operands, read as the specification's tables.

  The kernel program hands its regions the bias vectors as one-row tables, the one-output head's weight column as a
  row, its scalar bias as a one-cell table, and flattens that head's column of results to a vector.  Each is a
  row-major reshape, so an entry of the result is the entry of the operand at the same row-major position.
-/
import proofs.«101989_j22505628631761_1_alg».proof.Proof.Spec
import Idealize.ShloMosaic.Lib.Pipeline.Value
import Idealize.ShloMosaic.Lib.ValueLayout

noncomputable section

namespace Cert.Gnn

open Idealize.ShloMosaic Idealize.ShloMosaic.ValueIdx

/-- A vector of 128 entries reshaped to one row is that row. -/
theorem shapeCast_row (x : (⟨1, ![128]⟩ : Shape).Idx → EReal) (h : (⟨1, ![128]⟩ : Shape).ShapeCasts ⟨2, ![1, 128]⟩) :
    shapeCast ⟨2, ![1, 128]⟩ x h = rowOf x := by
  funext j
  obtain ⟨u, i, rfl⟩ : ∃ (u : Fin 1) (i : Fin 128), j = ix2 u i := ⟨row j, col j, (ix2_row_col j).symm⟩
  exact shapeCast_a_1a_apply x h u i

/-- A column of 128 entries reshaped to one row: entry `i` of the row is entry `i` of the column. -/
theorem shapeCast_col_row (w : Tab 128 1) (h : (⟨2, ![128, 1]⟩ : Shape).ShapeCasts ⟨2, ![1, 128]⟩) :
    shapeCast ⟨2, ![1, 128]⟩ w h = transposeCol w := by
  funext j
  obtain ⟨u, i, rfl⟩ : ∃ (u : Fin 1) (i : Fin 128), j = ix2 u i := ⟨row j, col j, (ix2_row_col j).symm⟩
  refine shapeCast_apply w h _ (ix2 i (0 : Fin 1)) ?_
  have hu : u.val = 0 := by omega
  rw [Shape.rowMajor_val_two, Shape.rowMajor_val_two]
  show i.val * 1 + 0 = u.val * 128 + i.val
  omega

/-- A vector of one entry reshaped to a one-cell table. -/
theorem shapeCast_cell (b : (⟨1, ![1]⟩ : Shape).Idx → EReal) (h : (⟨1, ![1]⟩ : Shape).ShapeCasts ⟨2, ![1, 1]⟩) :
    shapeCast ⟨2, ![1, 1]⟩ b h = cellOf b := by
  funext j
  obtain ⟨u, v, rfl⟩ : ∃ (u : Fin 1) (v : Fin 1), j = ix2 u v := ⟨row j, col j, (ix2_row_col j).symm⟩
  refine shapeCast_apply b h _ (ix1 (0 : Fin 1)) ?_
  have hu : u.val = 0 := by omega
  have hv : v.val = 0 := by omega
  rw [Shape.rowMajor_val_one, Shape.rowMajor_val_two]
  show 0 = u.val * 1 + v.val
  omega

/-- A column of 100000 entries reshaped to a vector. -/
theorem shapeCast_flat (y : Tab 100000 1) (h : (⟨2, ![100000, 1]⟩ : Shape).ShapeCasts ⟨1, ![100000]⟩) :
    shapeCast ⟨1, ![100000]⟩ y h = flat y := by
  funext j
  obtain ⟨r, rfl⟩ : ∃ r : Fin 100000, j = ix1 r := ⟨j 0, eq_ix1 j⟩
  refine shapeCast_apply y h _ (ix2 r (0 : Fin 1)) ?_
  rw [Shape.rowMajor_val_two, Shape.rowMajor_val_one]
  show r.val * 1 + 0 = r.val
  omega

end Cert.Gnn

end
-- ==== Proof.Model.lean ====
/-
  The three results as functions of the argument arrays.

  With `pass h` one message-passing step on a table of node rows (gather along the edges, scale, segment sum, the
  self-loop term and a bias), the programs compute

      hidden  = pass (relu (pass (x · W1) + b1) · W2) + b2          (the two graph-convolution layers)
      r       = hidden + (x · Wd + bd)                               (the residual connection)
      result1 = log-softmax of r, row by row
      result2 = r · Wdeg + bdeg, as a vector
      result3 = r · W3 + b3

  Both programs are shown to end with exactly these three tables; that is the whole of the equivalence.
-/
import proofs.«101989_j22505628631761_1_alg».proof.Proof.Spec
import proofs.«101989_j22505628631761_1_alg».proof.Proof.Stretch

noncomputable section

namespace Cert.Gnn

open Idealize.ShloMosaic
open Cert.KernelIdeal.Stretch (aggregate srcOf dstOf coefOf selfOf)

/-- The edge list: two rows of node numbers. -/
abbrev Edges : Type := (⟨Cert.KernelIdeal.S2x1600000, .i32⟩ : BufTy).Contents (Elt Ideal)
/-- A bias vector of 128 entries. -/
abbrev Vec128 : Type := (⟨Cert.KernelIdeal.S128, .f32⟩ : BufTy).Contents (Elt Ideal)
/-- A bias vector of one entry. -/
abbrev Vec1 : Type := (⟨Cert.KernelIdeal.S1, .f32⟩ : BufTy).Contents (Elt Ideal)

/-- One message-passing step along the edge list `e` with bias `b`. -/
def pass (h : Tab 100000 128) (e : Edges) (b : Vec128) : Tab 100000 128 :=
  aggregate (F := Ideal) h (srcOf e) (dstOf e) (coefOf (srcOf e) (dstOf e)) (selfOf (dstOf e)) b

/-- The table the three heads read: the two layers' output plus the residual layer's. -/
def residual (x : Tab 100000 256) (e : Edges) (W1 : Tab 256 128) (b1 : Vec128) (W2 : Tab 128 128) (b2 : Vec128)
    (Wd : Tab 256 128) (bd : Vec128) : Tab 100000 128 :=
  plus (pass (dense128 (relu (pass (dense256 x W1) e b1)) W2) e b2) (addRow (dense256 x Wd) (rowOf bd))

end Cert.Gnn

end
-- ==== Proof.DenseRegions.lean ====
/-
  The first two kernel regions, read as whole-array functions.

  Region 0 computes, on each block of 2000 rows, the two dense layers of the input features: the block's rows times
  the first weight table plus the bias row, and the block's rows times the second weight table.  Region 1 computes
  the rectified block times a weight table.  Every block of rows is a restriction of ONE function of the whole
  arrays, the row blocks tile the 100000 rows, and so each output array ends holding that function:

    * window 4 of region 0:  addRow (dense256 x Wd) b
    * window 5 of region 0:  dense256 x W1
    * window 2 of region 1:  dense128 (relu h) W2

  At the ideal values a narrowing format change is the identity and a matrix product into the zero accumulator is
  the plain sum over the contraction index.
-/
import proofs.«101989_j22505628631761_1_alg».proof.Proof.Gen.KernelIdeal.Frame
import proofs.«101989_j22505628631761_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.DenseRegions

open Cert.KernelIdeal Cert.KernelIdeal.Gen Idealize.ShloMosaic Idealize.ShloMosaic.ValueIdx
open Idealize.ShloMosaic.TcCoe Idealize.SL.Sem
open Idealize.ShloMosaic.Pipeline (Dat)
open Cert.Gnn (row col)

/-! ## The matrix products at an index -/

/-- The zero offsets of a whole-buffer access, as a constant function. -/
theorem zero_off : (![0, 0] : Fin 2 → Nat) = fun _ => 0 := funext fun a => by fin_cases a <;> rfl

/-! The operand indices of the two products, coordinate by coordinate (the dimension numbers contract the left
operand's columns with the right operand's rows). -/

theorem lhs256_0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs256_1 (i : S2000x128.Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem rhs256_0 (i : S2000x128.Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem rhs256_1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A [2000,256] by [256,128] product into the zero accumulator, at row `p` and column `j`: the sum over the 256
    shared coordinates. -/
theorem matmul256_apply (x : FVec Ideal S2000x256 .bf16) (w : FVec Ideal S256x128 .bf16) (p : Fin 2000) (j : Fin 128) :
    matmul dot_S2000x256_S256x128_S2000x128_1_0_0_1_n_n none x w (constant (F := Ideal) S2000x128 .f32 0x00000000#32) (ix2 p j)
      = ∑ k : Fin 256, x (ix2 p k) * w (ix2 k j) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p j) ((contrEquiv1 dot_S2000x256_S256x128_S2000x128_1_0_0_1_n_n 256 rfl rfl).symm k) = ix2 p k :=
    funext fun a => Fin.ext (by
      match a with
      | ⟨0, _⟩ => exact lhs256_0 _ _
      | ⟨1, _⟩ => exact (lhs256_1 _ _).trans hk)
  have er : dot_S2000x256_S256x128_S2000x128_1_0_0_1_n_n.rhsIdx (ix2 p j) ((contrEquiv1 dot_S2000x256_S256x128_S2000x128_1_0_0_1_n_n 256 rfl rfl).symm k) = ix2 k j :=
    funext fun a => Fin.ext (by
      match a with
      | ⟨0, _⟩ => exact (rhs256_0 _ _).trans hk
      | ⟨1, _⟩ => exact rhs256_1 _ _)
  rw [el, er]

theorem lhs128_0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs128_1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs128_0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs128_1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] by [128,128] product into the zero accumulator, at row `p` and column `j`: the sum over the 128
    shared coordinates. -/
theorem matmul128_apply (x : FVec Ideal S2000x128 .bf16) (w : FVec Ideal S128x128 .bf16) (p : Fin 2000) (j : Fin 128) :
    matmul dot_S2000x128_S128x128_S2000x128_1_0_0_1_n_n none x w (constant (F := Ideal) S2000x128 .f32 0x00000000#32) (ix2 p j)
      = ∑ k : Fin 128, x (ix2 p k) * w (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p j) ((contrEquiv1 dot_S2000x128_S128x128_S2000x128_1_0_0_1_n_n 128 rfl rfl).symm k) = ix2 p k :=
    funext fun a => Fin.ext (by
      match a with
      | ⟨0, _⟩ => exact lhs128_0 _ _
      | ⟨1, _⟩ => exact (lhs128_1 _ _).trans hk)
  have er : dot_S2000x128_S128x128_S2000x128_1_0_0_1_n_n.rhsIdx (ix2 p j) ((contrEquiv1 dot_S2000x128_S128x128_S2000x128_1_0_0_1_n_n 128 rfl rfl).symm k) = ix2 k j :=
    funext fun a => Fin.ext (by
      match a with
      | ⟨0, _⟩ => exact (rhs128_0 _ _).trans hk
      | ⟨1, _⟩ => exact rhs128_1 _ _)
  rw [el, er]

/-! ## The payloads at an index

Each block the body stores, at row `p` and column `j` of the block, over the blocks it loaded. -/

/-- The first output of region 0: the rows' product with the first weight table, plus the bias row. -/
theorem bias_payload_apply (x0 : Vec Ideal S2000x256 .f32) (x1 : Vec Ideal S256x128 .f32) (x2 : Vec Ideal S1x128 .f32)
    (p : Fin 2000) (j : Fin 128) :
    k0_pay2 x0 x1 x2 (ix2 p j) = (∑ k : Fin 256, x0 (ix2 p k) * x1 (ix2 k j)) + x2 (ix2 0 j) := by
  unfold k0_pay2 k0_pay1
  dsimp only
  rw [addf_apply, matmul256_apply, shapeCast_self, broadcastTo_1b_ab_apply]
  rfl

/-- The second output of region 0: the rows' product with the second weight table. -/
theorem plain_payload_apply (x0 : Vec Ideal S2000x256 .f32) (x3 : Vec Ideal S256x128 .f32) (p : Fin 2000) (j : Fin 128) :
    k0_pay3 x0 x3 (ix2 p j) = ∑ k : Fin 256, x0 (ix2 p k) * x3 (ix2 k j) := by
  unfold k0_pay3 k0_pay1
  dsimp only
  rw [matmul256_apply]
  rfl

/-- The output of region 1: the rectified rows' product with the weight table. -/
theorem relu_payload_apply (x0 : Vec Ideal S2000x128 .f32) (x1 : Vec Ideal S128x128 .f32) (p : Fin 2000) (j : Fin 128) :
    k1_pay1 x0 x1 (ix2 p j) = ∑ k : Fin 128, max (x0 (ix2 p k)) Cert.Gnn.zeroF * x1 (ix2 k j) := by
  unfold k1_pay1
  rw [matmul128_apply, shapeCast_self]
  rfl

/-! ## The whole-array functions at an index -/

theorem addRow_dense256_apply (x : Cert.Gnn.Tab 100000 256) (W : Cert.Gnn.Tab 256 128) (b : Cert.Gnn.Tab 1 128)
    (i : S100000x128.Idx) :
    Cert.Gnn.addRow (Cert.Gnn.dense256 x W) b i = (∑ k : Fin 256, x (ix2 (row i) k) * W (ix2 k (col i))) + b (ix2 0 (col i)) := rfl

theorem dense256_apply (x : Cert.Gnn.Tab 100000 256) (W : Cert.Gnn.Tab 256 128) (i : S100000x128.Idx) :
    Cert.Gnn.dense256 x W i = ∑ k : Fin 256, x (ix2 (row i) k) * W (ix2 k (col i)) := rfl

theorem dense128_relu_apply (h : Cert.Gnn.Tab 100000 128) (W : Cert.Gnn.Tab 128 128) (i : S100000x128.Idx) :
    Cert.Gnn.dense128 (Cert.Gnn.relu h) W i = ∑ k : Fin 128, max (h (ix2 (row i) k)) Cert.Gnn.zeroF * W (ix2 k (col i)) := rfl

/-! ## Region 0: the blocks of the input windows

The grid has 50 points; at point `t` the row windows sit at block `(t, 0)` and the weight and bias windows at block
`(0, 0)`.  An element of a block sits in its array at block index × block size + its coordinate inside the block. -/

section Region0

variable (V : (c : Dev nD) → (b : Ref sig .tc) → Buf (Elt Ideal) ((c : Thread nD τ).loc b))

/-- The printed index maps of region 0, decided over the grid. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The feature block at point `t` is rows `2000 t … 2000 t + 1999` of the feature table. -/
theorem features_block_apply (c : Dev nD) (t : Fin cfg0.N) (y : S2000x256.Idx) (i : S100000x256.Idx)
    (h0 : (i 0).val = t.val * 2000 + (y 0).val) (h1 : (i 1).val = (y 1).val) :
    (iblk0 V c 0 t : Vec Ideal S2000x256 .f32) y = (V c main_arg0 : S100000x256.Idx → EReal) i := by
  obtain ⟨e0, e1, -⟩ := block_index0 t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 256 + 1 * (y 1).val = (i 1).val; rw [e1, h1]; omega

/-- The first weight block at every point is the whole first weight table. -/
theorem weights_d_block_apply (c : Dev nD) (t : Fin cfg0.N) (y : S256x128.Idx) :
    (iblk0 V c 1 t : Vec Ideal S256x128 .f32) y = (V c main_arg6 : S256x128.Idx → EReal) y := by
  obtain ⟨-, -, e0, e1, -⟩ := block_index0 t
  unfold iblk0
  rw [View.read_apply]
  show V c main_arg6 _ = V c main_arg6 _
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 128 + 1 * (y 1).val = (y 1).val; rw [e1]; omega

/-- The bias block at every point is the whole bias row. -/
theorem bias_block_apply (c : Dev nD) (t : Fin cfg0.N) (y : S1x128.Idx) :
    (iblk0 V c 2 t : Vec Ideal S1x128 .f32) y = (V c main_v27 : S1x128.Idx → EReal) y := by
  obtain ⟨-, -, -, -, e0, e1, -⟩ := block_index0 t
  unfold iblk0
  rw [View.read_apply]
  show V c main_v27 _ = V c main_v27 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The second weight block at every point is the whole second weight table. -/
theorem weights_1_block_apply (c : Dev nD) (t : Fin cfg0.N) (y : S256x128.Idx) :
    (iblk0 V c 3 t : Vec Ideal S256x128 .f32) y = (V c main_arg2 : S256x128.Idx → EReal) y := by
  obtain ⟨-, -, -, -, -, -, e0, e1, -⟩ := block_index0 t
  unfold iblk0
  rw [View.read_apply]
  show V c main_arg2 _ = V c main_arg2 _
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 128 + 1 * (y 1).val = (y 1).val; rw [e1]; omega

/-! ## Region 0: what each point writes back -/

/-- Point `t` writes back, to the first output, block `t` of the biased dense layer of the whole arrays. -/
theorem flushed_origx (c : Dev nD) (t : Fin cfg0.N) :
    (dat0 (F := Ideal) V c).flushed 4 t = ((cfg0.win 4).blk t).view.read (Elt Ideal)
      (Cert.Gnn.addRow (Cert.Gnn.dense256 (V c main_arg0) (V c main_arg6)) (V c main_v27)) := by
  show (cfg0.win 4).cut (grid0.coords t) ((dat0 V c).after 4 t) = _
  rw [after0_4]
  unfold out0_4
  rw [View.canon_unit_zero zero_off]
  simp only [View.ld_unit_zero (S := S2000x256) zero_off, View.ld_unit_zero (S := S256x128) zero_off, View.ld_unit_zero (S := S1x128) zero_off]
  obtain ⟨-, -, -, -, -, -, -, -, e0, e1, -⟩ := block_index0 t
  refine funext fun (j : S2000x128.Idx) => ?_
  obtain ⟨p, q, rfl⟩ : ∃ (p : Fin 2000) (q : Fin 128), j = ix2 p q := ⟨j 0, j 1, eq_ix2 j⟩
  refine (bias_payload_apply _ _ _ p q).trans ?_
  have r0 : ((((cfg0.win 4).blk t).view.emb (ix2 p q)) 0).val = t.val * 2000 + p.val := by
    show win0_4.index t (0 : Fin 2) * 2000 + 1 * p.val = _; rw [e0]; omega
  have r1 : ((((cfg0.win 4).blk t).view.emb (ix2 p q)) 1).val = q.val := by
    show win0_4.index t (1 : Fin 2) * 128 + 1 * q.val = _; rw [e1]; omega
  rw [View.read_apply]
  refine Eq.trans ?_ (addRow_dense256_apply _ _ _ _).symm
  congr 1
  · refine Finset.sum_congr rfl fun k _ => ?_
    congr 1
    · exact features_block_apply V c t _ _ r0 rfl
    · refine (weights_d_block_apply V c t _).trans (congrArg _ ?_)
      funext a; apply Fin.ext
      match a with
      | ⟨0, _⟩ => rfl
      | ⟨1, _⟩ => exact r1.symm
  · refine (bias_block_apply V c t _).trans (congrArg _ ?_)
    funext a; apply Fin.ext
    match a with
    | ⟨0, _⟩ => rfl
    | ⟨1, _⟩ => exact r1.symm

end Region0

section Region0

variable (V : (c : Dev nD) → (b : Ref sig .tc) → Buf (Elt Ideal) ((c : Thread nD τ).loc b))

/-- Point `t` writes back, to the second output, block `t` of the plain dense layer of the whole arrays. -/
theorem flushed_h0 (c : Dev nD) (t : Fin cfg0.N) :
    (dat0 (F := Ideal) V c).flushed 5 t = ((cfg0.win 5).blk t).view.read (Elt Ideal)
      (Cert.Gnn.dense256 (V c main_arg0) (V c main_arg2)) := by
  show (cfg0.win 5).cut (grid0.coords t) ((dat0 V c).after 5 t) = _
  rw [after0_5]
  unfold out0_5
  rw [View.canon_unit_zero zero_off]
  simp only [View.ld_unit_zero (S := S2000x256) zero_off, View.ld_unit_zero (S := S256x128) zero_off]
  obtain ⟨-, -, -, -, -, -, -, -, -, -, e0, e1⟩ := block_index0 t
  refine funext fun (j : S2000x128.Idx) => ?_
  obtain ⟨p, q, rfl⟩ : ∃ (p : Fin 2000) (q : Fin 128), j = ix2 p q := ⟨j 0, j 1, eq_ix2 j⟩
  refine (plain_payload_apply _ _ p q).trans ?_
  have r0 : ((((cfg0.win 5).blk t).view.emb (ix2 p q)) 0).val = t.val * 2000 + p.val := by
    show win0_5.index t (0 : Fin 2) * 2000 + 1 * p.val = _; rw [e0]; omega
  have r1 : ((((cfg0.win 5).blk t).view.emb (ix2 p q)) 1).val = q.val := by
    show win0_5.index t (1 : Fin 2) * 128 + 1 * q.val = _; rw [e1]; omega
  rw [View.read_apply]
  refine Eq.trans ?_ (dense256_apply _ _ _).symm
  refine Finset.sum_congr rfl fun k _ => ?_
  congr 1
  · exact features_block_apply V c t _ _ r0 rfl
  · refine (weights_1_block_apply V c t _).trans (congrArg _ ?_)
    funext a; apply Fin.ext
    match a with
    | ⟨0, _⟩ => rfl
    | ⟨1, _⟩ => exact r1.symm

/-! ## Region 0: the row blocks tile the arrays -/

/-- An index of the first output array is in point `t`'s block iff each coordinate is in the block's range. -/
theorem mem_block_origx (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v28_0).slice (win0_4.rect t)).set ↔ _
  rw [View.set_slice_whole, Rect.mem_set_unit]
  exact Iff.rfl

/-- The same for the second output array. -/
theorem mem_block_h0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v28_1).slice (win0_5.rect t)).set ↔ _
  rw [View.set_slice_whole, Rect.mem_set_unit]
  exact Iff.rfl

/-- Row `r` is in the block of point `r / 2000`: every index of the first output array is written back. -/
theorem cover_origx (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, -, -, -, -, e0, e1, -⟩ := block_index0 t
  refine ⟨t, flush0_4 t, ?_⟩
  rw [mem_block_origx]
  intro a
  match a with
  | ⟨0, _⟩ => show win0_4.index t (0 : Fin 2) * 2000 ≤ (i 0).val ∧ (i 0).val < win0_4.index t (0 : Fin 2) * 2000 + 2000; rw [e0, ht]; omega
  | ⟨1, _⟩ => show win0_4.index t (1 : Fin 2) * 128 ≤ (i 1).val ∧ (i 1).val < win0_4.index t (1 : Fin 2) * 128 + 128; rw [e1]; omega

/-- The same for the second output array. -/
theorem cover_h0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, -, -, -, -, -, -, e0, e1⟩ := block_index0 t
  refine ⟨t, flush0_5 t, ?_⟩
  rw [mem_block_h0]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 128 ≤ (i 1).val ∧ (i 1).val < win0_5.index t (1 : Fin 2) * 128 + 128; rw [e1]; omega

/-! ## Region 0: the output arrays after the run -/

/-- The first output array of region 0 ends holding the biased dense layer of the features. -/
theorem origx_eq (c : Dev nD) : (dat0 (F := Ideal) V c).arrAt 4 cfg0.N
    = Cert.Gnn.addRow (Cert.Gnn.dense256 (V c main_arg0) (V c main_arg6)) (V c main_v27) :=
  (dat0 (F := Ideal) V c).arrAt_eq_of_cover 4 _ (fun t _ => flushed_origx V c t) cover_origx

/-- The second output array of region 0 ends holding the plain dense layer of the features. -/
theorem h0_eq (c : Dev nD) : (dat0 (F := Ideal) V c).arrAt 5 cfg0.N
    = Cert.Gnn.dense256 (V c main_arg0) (V c main_arg2) :=
  (dat0 (F := Ideal) V c).arrAt_eq_of_cover 5 _ (fun t _ => flushed_h0 V c t) cover_h0

end Region0

/-! ## Region 1: the rectified dense layer

The same 50 points; at point `t` the row windows sit at block `(t, 0)` and the weight window at block `(0, 0)`. -/

section Region1

variable (V : (c : Dev nD) → (b : Ref sig .tc) → Buf (Elt Ideal) ((c : Thread nD τ).loc b))

/-- The printed index maps of region 1, decided over the grid. -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The hidden block at point `t` is rows `2000 t … 2000 t + 1999` of the hidden table. -/
theorem hidden_block_apply (c : Dev nD) (t : Fin cfg1.N) (y : S2000x128.Idx) (i : S100000x128.Idx)
    (h0 : (i 0).val = t.val * 2000 + (y 0).val) (h1 : (i 1).val = (y 1).val) :
    (iblk1 V c 0 t : Vec Ideal S2000x128 .f32) y = (V c main_v48 : S100000x128.Idx → EReal) i := by
  obtain ⟨e0, e1, -⟩ := block_index1 t
  unfold iblk1
  rw [View.read_apply]
  show V c main_v48 _ = V c main_v48 _
  congr 1
  funext a
  apply Fin.ext
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The weight block at every point is the whole weight table. -/
theorem weights_2_block_apply (c : Dev nD) (t : Fin cfg1.N) (y : S128x128.Idx) :
    (iblk1 V c 1 t : Vec Ideal S128x128 .f32) y = (V c main_arg4 : S128x128.Idx → EReal) y := by
  obtain ⟨-, -, e0, e1, -⟩ := block_index1 t
  unfold iblk1
  rw [View.read_apply]
  show V c main_arg4 _ = V c main_arg4 _
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- Point `t` writes back block `t` of the rectified dense layer of the whole arrays. -/
theorem flushed_h2pre (c : Dev nD) (t : Fin cfg1.N) :
    (dat1 (F := Ideal) V c).flushed 2 t = ((cfg1.win 2).blk t).view.read (Elt Ideal)
      (Cert.Gnn.dense128 (Cert.Gnn.relu (V c main_v48)) (V c main_arg4)) := by
  show (cfg1.win 2).cut (grid1.coords t) ((dat1 V c).after 2 t) = _
  rw [after1_2]
  unfold out1_2
  rw [View.canon_unit_zero zero_off]
  simp only [View.ld_unit_zero (S := S2000x128) zero_off, View.ld_unit_zero (S := S128x128) zero_off]
  obtain ⟨-, -, -, -, e0, e1⟩ := block_index1 t
  refine funext fun (j : S2000x128.Idx) => ?_
  obtain ⟨p, q, rfl⟩ : ∃ (p : Fin 2000) (q : Fin 128), j = ix2 p q := ⟨j 0, j 1, eq_ix2 j⟩
  refine (relu_payload_apply _ _ p q).trans ?_
  have r0 : ((((cfg1.win 2).blk t).view.emb (ix2 p q)) 0).val = t.val * 2000 + p.val := by
    show win1_2.index t (0 : Fin 2) * 2000 + 1 * p.val = _; rw [e0]; omega
  have r1 : ((((cfg1.win 2).blk t).view.emb (ix2 p q)) 1).val = q.val := by
    show win1_2.index t (1 : Fin 2) * 128 + 1 * q.val = _; rw [e1]; omega
  rw [View.read_apply]
  refine Eq.trans ?_ (dense128_relu_apply _ _ _).symm
  refine Finset.sum_congr rfl fun k _ => ?_
  congr 1
  · exact congrArg (max · Cert.Gnn.zeroF) (hidden_block_apply V c t _ _ r0 rfl)
  · refine (weights_2_block_apply V c t _).trans (congrArg _ ?_)
    funext a; apply Fin.ext
    match a with
    | ⟨0, _⟩ => rfl
    | ⟨1, _⟩ => exact r1.symm

/-- An index of the output array is in point `t`'s block iff each coordinate is in the block's range. -/
theorem mem_block_h2pre (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v49).slice (win1_2.rect t)).set ↔ _
  rw [View.set_slice_whole, Rect.mem_set_unit]
  exact Iff.rfl

/-- Row `r` is in the block of point `r / 2000`: every index of the output array is written back. -/
theorem cover_h2pre (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, by rw [show cfg1.N = 50 from N_1]; omega⟩, rfl⟩
  obtain ⟨-, -, -, -, e0, e1⟩ := block_index1 t
  refine ⟨t, flush1_2 t, ?_⟩
  rw [mem_block_h2pre]
  intro a
  match a with
  | ⟨0, _⟩ => show win1_2.index t (0 : Fin 2) * 2000 ≤ (i 0).val ∧ (i 0).val < win1_2.index t (0 : Fin 2) * 2000 + 2000; rw [e0, ht]; omega
  | ⟨1, _⟩ => show win1_2.index t (1 : Fin 2) * 128 ≤ (i 1).val ∧ (i 1).val < win1_2.index t (1 : Fin 2) * 128 + 128; rw [e1]; omega

/-- The output array of region 1 ends holding the rectified dense layer of the hidden table. -/
theorem h2pre_eq (c : Dev nD) : (dat1 (F := Ideal) V c).arrAt 2 cfg1.N
    = Cert.Gnn.dense128 (Cert.Gnn.relu (V c main_v48)) (V c main_arg4) :=
  (dat1 (F := Ideal) V c).arrAt_eq_of_cover 2 _ (fun t _ => flushed_h2pre V c t) cover_h2pre

end Region1

end Cert.KernelIdeal.DenseRegions

end
-- ==== Proof.HeadsRegion.lean ====
/-
  The value of the third kernel region: the three output heads.

  At every grid point the body adds its two blocks of 2000 rows, `h = a + b`, and stores three results: the row-wise
  log-softmax of `h` in its shifted form, `(h - M) - log (∑ k, exp (h k - M))` with `M` the row's maximum; the row's dot
  product with one weight row plus a scalar bias; and the row times a weight matrix plus a bias row.  Each of the three
  is a function of the row alone, so block `t` of each output is block `t` of one whole-array function of the region's
  input arrays; the 50 blocks tile the 100000 rows, so after the region each output array is that function.

  The file reads each payload at an index (the lane reductions as a fold of `max` and a sum over the 128 lanes, the
  matrix product as a sum over the contraction index), restates it as the shared specification's function given where
  the block's rows sit in the arrays, and then goes from blocks to arrays: the index maps are decided over the grid,
  point `t` writes back block `t` of the function, and row `r` is covered by point `r / 2000`.
-/
import proofs.«101989_j22505628631761_1_alg».proof.Proof.Gen.KernelIdeal.Frame
import proofs.«101989_j22505628631761_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HeadsRegion

open Cert.KernelIdeal Cert.KernelIdeal.Gen Idealize.ShloMosaic Idealize.ShloMosaic.ValueIdx
open Idealize.ShloMosaic.TcCoe Idealize.SL.Sem
open Idealize.ShloMosaic.Pipeline (Dat)

/-! ## Layout operations read at an index: the column forms a row reduction with kept dimensions goes through -/

section Layout
variable {α : Type}

/-- A vector of `a` entries laid out as a column `[a, 1]` reads, at `(p, u)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along each row to `[a, b]` reads, at `(p, q)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## The two lane reductions of a block of 2000 rows, read at a row -/

/-- The row maximum: the fold of `max` over the row's 128 lanes, from the value of the reduction's initial pattern. -/
theorem laneMax_apply (src : FVec Ideal S2000x128 .f32) (h : S2000x128.Reduces [1] S2000) (hφ : FKind.Formats .f32)
    (hacc : (0xFF800000#32 : BitVec 32) = 0xFF800000#32) (p : Fin 2000) :
    multiReduction (F := Ideal) .maximumf [1] S2000 src 0xFF800000#32 h hφ hacc (ix1 p)
      = (Finset.univ : Finset (Fin 128)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin 128)).fold max (Ideal.ofBits .f32 0xFF800000#32) f) (funext fun k => ?_)
  refine congrArg src (funext fun a => Fin.ext ?_)
  match a with
  | ⟨0, _⟩ => rfl
  | ⟨1, _⟩ => rfl

/-- The row sum: the sum over the row's 128 lanes. -/
theorem laneSum_apply (src : FVec Ideal S2000x128 .f32) (h : S2000x128.Reduces [1] S2000) (hφ : FKind.Formats .f32)
    (hacc : (0x00000000#32 : BitVec 32) = 0x00000000#32) (p : Fin 2000) :
    multiReduction (F := Ideal) .add [1] S2000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-! ## The body's payloads read at an index -/

theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-- The residual sum of the two loaded blocks, entry by entry. -/
theorem sum_pay (x0 x1 : Vec Ideal S2000x128 .f32) (j : S2000x128.Idx) :
    k2_pay1 x0 x1 j = (x0 j : EReal) + (x1 j : EReal) := by
  unfold k2_pay1
  simp only [shapeCast_self]
  rfl

/-- The log-softmax payload at row `p`, lane `q`, over the summed block `k2_pay1 x0 x1`. -/
theorem logits_pay (x0 x1 : Vec Ideal S2000x128 .f32) (p : Fin 2000) (q : Fin 128) :
    k2_pay2 x0 x1 (ix2 p q)
      = (k2_pay1 x0 x1 (ix2 p q)
          - (Finset.univ : Finset (Fin 128)).fold max (Ideal.ofBits .f32 0xFF800000#32) (fun k => k2_pay1 x0 x1 (ix2 p k)))
        - Ideal.log (∑ k : Fin 128, Ideal.exp (k2_pay1 x0 x1 (ix2 p k)
          - (Finset.univ : Finset (Fin 128)).fold max (Ideal.ofBits .f32 0xFF800000#32) (fun k => k2_pay1 x0 x1 (ix2 p k)))) := by
  unfold k2_pay2
  generalize k2_pay1 x0 x1 = H
  simp only [subf_apply, broadcastTo_a1_ab_apply, shapeCast_a_a1_apply, log_apply]
  rw [laneMax_apply, laneSum_apply]
  simp only [exp_apply, subf_apply, broadcastTo_a1_ab_apply, shapeCast_a_a1_apply]
  rw [laneMax_apply]

/-- The one-output head's payload at row `p`: the row's dot product with the weight row, plus the scalar bias. -/
theorem degree_pay (x0 x1 : Vec Ideal S2000x128 .f32) (x2 : Vec Ideal S1x128 .f32) (x3 : Vec Ideal S1x1 .f32) (p : Fin 2000) (u : Fin 1) :
    k2_pay3 x0 x1 x2 x3 (ix2 p u)
      = (∑ k : Fin 128, k2_pay1 x0 x1 (ix2 p k) * (x2 (ix2 (0 : Fin 1) k) : EReal)) + (x3 (ix2 (0 : Fin 1) (0 : Fin 1)) : EReal) := by
  obtain rfl : u = 0 := Subsingleton.elim _ _
  unfold k2_pay3
  generalize k2_pay1 x0 x1 = H
  simp only [addf_apply, shapeCast_self, shapeCast_a_a1_apply, broadcastTo_1b_ab_apply]
  rw [laneSum_apply]
  simp only [mulf_apply, broadcastTo_1b_ab_apply]

/-! The matrix product's operand indices: the left operand is read at (row, contraction index), the right one at
    (contraction index, column). -/

theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The 128-output head's payload at row `p`, column `q`: the row times the weight matrix's column, plus the bias row's entry. -/
theorem head3_pay (x0 x1 : Vec Ideal S2000x128 .f32) (x4 : Vec Ideal S128x128 .f32) (x5 : Vec Ideal S1x128 .f32) (p : Fin 2000) (q : Fin 128) :
    k2_pay4 x0 x1 x4 x5 (ix2 p q)
      = (∑ k : Fin 128, k2_pay1 x0 x1 (ix2 p k) * (x4 (ix2 k q) : EReal)) + (x5 (ix2 (0 : Fin 1) q) : EReal) := by
  unfold k2_pay4
  generalize k2_pay1 x0 x1 = H
  simp only [addf_apply, shapeCast_self, broadcastTo_1b_ab_apply]
  refine congrArg (· + (x5 (ix2 (0 : Fin 1) q) : EReal)) ?_
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]
  rfl

/-! ## A block's payload as the whole-array function, given where the block's rows sit in the arrays -/

/-- If row `p` of the two loaded blocks is row `r` of the arrays `A` and `B`, the log-softmax payload at `(p, q)` is the
    log-softmax of `A + B` at `(r, q)`. -/
theorem logits_block (A B : Gnn.Tab 100000 128) (x0 x1 : Vec Ideal S2000x128 .f32) (r : Fin 100000) (p : Fin 2000)
    (h0 : ∀ k : Fin 128, (x0 (ix2 p k) : EReal) = A (ix2 r k)) (h1 : ∀ k : Fin 128, (x1 (ix2 p k) : EReal) = B (ix2 r k))
    (q : Fin 128) : k2_pay2 x0 x1 (ix2 p q) = Gnn.logSoftmax (Gnn.plus A B) (ix2 r q) := by
  have hH : ∀ k : Fin 128, k2_pay1 x0 x1 (ix2 p k) = Gnn.plus A B (ix2 r k) := fun k => by
    rw [sum_pay, h0, h1]; rfl
  rw [logits_pay]
  simp only [hH]
  rfl

/-- Likewise the one-output head: the dot product of row `r` of `A + B` with the weight row, plus the bias. -/
theorem degree_block (A B : Gnn.Tab 100000 128) (w : Gnn.Tab 1 128) (b : Gnn.Tab 1 1) (x0 x1 : Vec Ideal S2000x128 .f32)
    (x2 : Vec Ideal S1x128 .f32) (x3 : Vec Ideal S1x1 .f32) (r : Fin 100000) (p : Fin 2000)
    (h0 : ∀ k : Fin 128, (x0 (ix2 p k) : EReal) = A (ix2 r k)) (h1 : ∀ k : Fin 128, (x1 (ix2 p k) : EReal) = B (ix2 r k))
    (h2 : ∀ k : Fin 128, (x2 (ix2 (0 : Fin 1) k) : EReal) = w (ix2 0 k)) (h3 : (x3 (ix2 (0 : Fin 1) (0 : Fin 1)) : EReal) = b (ix2 0 0))
    (u : Fin 1) : k2_pay3 x0 x1 x2 x3 (ix2 p u) = Gnn.rowDot (Gnn.plus A B) w b (ix2 r u) := by
  have hH : ∀ k : Fin 128, k2_pay1 x0 x1 (ix2 p k) = Gnn.plus A B (ix2 r k) := fun k => by
    rw [sum_pay, h0, h1]; rfl
  rw [degree_pay]
  simp only [hH, h2, h3]
  rfl

/-- Likewise the 128-output head: row `r` of `A + B` times the weight matrix, plus the bias row. -/
theorem head3_block (A B : Gnn.Tab 100000 128) (W : Gnn.Tab 128 128) (b : Gnn.Tab 1 128) (x0 x1 : Vec Ideal S2000x128 .f32)
    (x4 : Vec Ideal S128x128 .f32) (x5 : Vec Ideal S1x128 .f32) (r : Fin 100000) (p : Fin 2000)
    (h0 : ∀ k : Fin 128, (x0 (ix2 p k) : EReal) = A (ix2 r k)) (h1 : ∀ k : Fin 128, (x1 (ix2 p k) : EReal) = B (ix2 r k))
    (h4 : ∀ k q : Fin 128, (x4 (ix2 k q) : EReal) = W (ix2 k q)) (h5 : ∀ q : Fin 128, (x5 (ix2 (0 : Fin 1) q) : EReal) = b (ix2 0 q))
    (q : Fin 128) : k2_pay4 x0 x1 x4 x5 (ix2 p q) = Gnn.addRow (Gnn.dense128 (Gnn.plus A B) W) b (ix2 r q) := by
  have hH : ∀ k : Fin 128, k2_pay1 x0 x1 (ix2 p k) = Gnn.plus A B (ix2 r k) := fun k => by
    rw [sum_pay, h0, h1]; rfl
  rw [head3_pay]
  simp only [hH, h4, h5]
  rfl

/-! ## From blocks to the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps of the row-blocked windows, decided over the grid's 50 points: point `t` has block `(t, 0)`. -/
theorem idx_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- The printed index maps of the whole-array windows: block `(0, 0)` at every point. -/
theorem idx_whole : ∀ t : Fin cfg2.N,
    win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The array row that row `p` of point `t`'s block is. -/
abbrev rowAt (t : Fin cfg2.N) (p : Fin 2000) : Fin 100000 :=
  ⟨t.val * 2000 + p.val, by have := t.isLt; have hN : cfg2.N = 50 := N_2; have := p.isLt; omega⟩

/-- Row `p` of the first summand's block at point `t` is row `2000 t + p` of its array. -/
theorem blk0_apply (c : Dev nD) (t : Fin cfg2.N) (p : Fin 2000) (k : Fin 128) :
    ((iblk2 V c 0 t : Vec Ideal S2000x128 .f32) (ix2 p k) : EReal) = (V c main_v69 : Gnn.Tab 100000 128) (ix2 (rowAt t p) k) := by
  obtain ⟨e0, e1, -⟩ := idx_rows t
  show V c main_v69 (((cfg2.win 0).blk t).view.emb (ix2 p k)) = V c main_v69 (ix2 (rowAt t p) k)
  refine congrArg (V c main_v69) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * k.val = k.val; rw [e1]; omega

/-- The same for the second summand's block. -/
theorem blk1_apply (c : Dev nD) (t : Fin cfg2.N) (p : Fin 2000) (k : Fin 128) :
    ((iblk2 V c 1 t : Vec Ideal S2000x128 .f32) (ix2 p k) : EReal) = (V c main_v28_0 : Gnn.Tab 100000 128) (ix2 (rowAt t p) k) := by
  obtain ⟨-, -, e0, e1, -⟩ := idx_rows t
  show V c main_v28_0 (((cfg2.win 1).blk t).view.emb (ix2 p k)) = V c main_v28_0 (ix2 (rowAt t p) k)
  refine congrArg (V c main_v28_0) (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 128 + 1 * k.val = k.val; rw [e1]; omega

/-! ### The log-softmax output -/

/-- What point `t` writes back to the log-softmax output is block `t` of the log-softmax of the summed arrays. -/
theorem logits_flushed (c : Dev nD) (t : Fin cfg2.N) :
    (dat2 (F := Ideal) V c).flushed 6 t
      = ((cfg2.win 6).blk t).view.read (Elt Ideal) (Gnn.logSoftmax (Gnn.plus (V c main_v69) (V c main_v28_0))) := by
  show (cfg2.win 6).cut (grid2.coords t) ((dat2 V c).after 6 t) = _
  rw [after2_6]
  unfold out2_6
  rw [View.canon_unit_zero hz]
  simp only [View.ld_unit_zero (S := S2000x128) hz]
  obtain ⟨-, -, -, -, e0, e1, -⟩ := idx_rows t
  funext j
  obtain ⟨p, q, rfl⟩ : ∃ (p : Fin 2000) (q : Fin 128), j = ix2 p q := ⟨j 0, j 1, eq_ix2 j⟩
  show k2_pay2 (iblk2 V c 0 t) (iblk2 V c 1 t) (ix2 p q)
    = Gnn.logSoftmax (Gnn.plus (V c main_v69) (V c main_v28_0)) (((cfg2.win 6).blk t).view.emb (ix2 p q))
  refine (logits_block (V c main_v69) (V c main_v28_0) (iblk2 V c 0 t) (iblk2 V c 1 t) (rowAt t p) p
    (fun k => blk0_apply V c t p k) (fun k => blk1_apply V c t p k) q).trans ?_
  refine congrArg (Gnn.logSoftmax (Gnn.plus (V c main_v69) (V c main_v28_0))) (funext fun a => Fin.ext ?_)
  match a with
  | ⟨0, _⟩ => show t.val * 2000 + p.val = win2_6.index t (0 : Fin 2) * 2000 + 1 * p.val; rw [e0]; omega
  | ⟨1, _⟩ => show q.val = win2_6.index t (1 : Fin 2) * 128 + 1 * q.val; rw [e1]; omega

/-- An index of the array is in point `t`'s block iff each coordinate is in the block's range on its axis. -/
theorem logits_mem_blk (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v73_0).slice (win2_6.rect t)).set ↔ _
  rw [View.set_slice_whole, Rect.mem_set_unit]
  exact Iff.rfl

/-- Every row is in some point's block: row `r` in the block of point `r / 2000`. -/
theorem logits_cover (i : S100000x128.Idx) :
    ∃ t : Fin cfg2.N, (cfg2.win 6).flush t = true ∧ i ∈ ((cfg2.win 6).blk t).view.set := by
  have hN : cfg2.N = 50 := N_2
  have hi0 : (i 0).val < 100000 := (i 0).isLt
  have hi1 : (i 1).val < 128 := (i 1).isLt
  obtain ⟨t, ht⟩ : ∃ t : Fin cfg2.N, t.val = (i 0).val / 2000 := ⟨⟨(i 0).val / 2000, by rw [hN]; omega⟩, rfl⟩
  obtain ⟨-, -, -, -, e0, e1, -⟩ := idx_rows t
  refine ⟨t, flush2_6 t, ?_⟩
  rw [logits_mem_blk]
  intro a
  match a with
  | ⟨0, _⟩ => show win2_6.index t (0 : Fin 2) * 2000 ≤ (i 0).val ∧ (i 0).val < win2_6.index t (0 : Fin 2) * 2000 + 2000; rw [e0, ht]; omega
  | ⟨1, _⟩ => show win2_6.index t (1 : Fin 2) * 128 ≤ (i 1).val ∧ (i 1).val < win2_6.index t (1 : Fin 2) * 128 + 128; rw [e1]; omega

/-- The log-softmax output after the region: the log-softmax of the sum of the two input arrays. -/
theorem logits_eq (c : Dev nD) :
    (dat2 (F := Ideal) V c).arrAt 6 cfg2.N = Gnn.logSoftmax (Gnn.plus (V c main_v69) (V c main_v28_0)) :=
  (dat2 (F := Ideal) V c).arrAt_eq_of_cover 6 (Gnn.logSoftmax (Gnn.plus (V c main_v69) (V c main_v28_0)))
    (fun t _ => logits_flushed V c t) logits_cover

/-! ### The whole-array windows: the weight row, the scalar bias, the weight matrix and the bias row -/

/-- The weight row's block at any point is the weight row. -/
theorem blk2_apply (c : Dev nD) (t : Fin cfg2.N) (k : Fin 128) :
    ((iblk2 V c 2 t : Vec Ideal S1x128 .f32) (ix2 (0 : Fin 1) k) : EReal) = (V c main_v70 : Gnn.Tab 1 128) (ix2 0 k) := by
  obtain ⟨e0, e1, -⟩ := idx_whole t
  show V c main_v70 (((cfg2.win 2).blk t).view.emb (ix2 (0 : Fin 1) k)) = V c main_v70 (ix2 0 k)
  refine congrArg (V c main_v70) (funext fun a => Fin.ext ?_)
  match a with
  | ⟨0, _⟩ => show win2_2.index t (0 : Fin 2) * 1 + 1 * ((0 : Fin 1) : ℕ) = ((0 : Fin 1) : ℕ); rw [e0]; rfl
  | ⟨1, _⟩ => show win2_2.index t (1 : Fin 2) * 128 + 1 * k.val = k.val; rw [e1]; omega

/-- The scalar bias's block at any point is the scalar bias. -/
theorem blk3_apply (c : Dev nD) (t : Fin cfg2.N) :
    ((iblk2 V c 3 t : Vec Ideal S1x1 .f32) (ix2 (0 : Fin 1) (0 : Fin 1)) : EReal) = (V c main_v71 : Gnn.Tab 1 1) (ix2 0 0) := by
  obtain ⟨-, -, e0, e1, -⟩ := idx_whole t
  show V c main_v71 (((cfg2.win 3).blk t).view.emb (ix2 (0 : Fin 1) (0 : Fin 1))) = V c main_v71 (ix2 0 0)
  refine congrArg (V c main_v71) (funext fun a => Fin.ext ?_)
  match a with
  | ⟨0, _⟩ => show win2_3.index t (0 : Fin 2) * 1 + 1 * ((0 : Fin 1) : ℕ) = ((0 : Fin 1) : ℕ); rw [e0]; rfl
  | ⟨1, _⟩ => show win2_3.index t (1 : Fin 2) * 1 + 1 * ((0 : Fin 1) : ℕ) = ((0 : Fin 1) : ℕ); rw [e1]; rfl

/-- The weight matrix's block at any point is the weight matrix. -/
theorem blk4_apply (c : Dev nD) (t : Fin cfg2.N) (k q : Fin 128) :
    ((iblk2 V c 4 t : Vec Ideal S128x128 .f32) (ix2 k q) : EReal) = (V c main_arg10 : Gnn.Tab 128 128) (ix2 k q) := by
  obtain ⟨-, -, -, -, e0, e1, -⟩ := idx_whole t
  show V c main_arg10 (((cfg2.win 4).blk t).view.emb (ix2 k q)) = V c main_arg10 (ix2 k q)
  refine congrArg (V c main_arg10) (funext fun a => Fin.ext ?_)
  match a with
  | ⟨0, _⟩ => show win2_4.index t (0 : Fin 2) * 128 + 1 * k.val = k.val; rw [e0]; omega
  | ⟨1, _⟩ => show win2_4.index t (1 : Fin 2) * 128 + 1 * q.val = q.val; rw [e1]; omega

/-- The bias row's block at any point is the bias row. -/
theorem blk5_apply (c : Dev nD) (t : Fin cfg2.N) (q : Fin 128) :
    ((iblk2 V c 5 t : Vec Ideal S1x128 .f32) (ix2 (0 : Fin 1) q) : EReal) = (V c main_v72 : Gnn.Tab 1 128) (ix2 0 q) := by
  obtain ⟨-, -, -, -, -, -, e0, e1⟩ := idx_whole t
  show V c main_v72 (((cfg2.win 5).blk t).view.emb (ix2 (0 : Fin 1) q)) = V c main_v72 (ix2 0 q)
  refine congrArg (V c main_v72) (funext fun a => Fin.ext ?_)
  match a with
  | ⟨0, _⟩ => show win2_5.index t (0 : Fin 2) * 1 + 1 * ((0 : Fin 1) : ℕ) = ((0 : Fin 1) : ℕ); rw [e0]; rfl
  | ⟨1, _⟩ => show win2_5.index t (1 : Fin 2) * 128 + 1 * q.val = q.val; rw [e1]; omega

/-! ### The one-output head -/

/-- What point `t` writes back to the one-output head is block `t` of the rows' dot products with the weight row, plus the bias. -/
theorem degree_flushed (c : Dev nD) (t : Fin cfg2.N) :
    (dat2 (F := Ideal) V c).flushed 7 t
      = ((cfg2.win 7).blk t).view.read (Elt Ideal) (Gnn.rowDot (Gnn.plus (V c main_v69) (V c main_v28_0)) (V c main_v70) (V c main_v71)) := by
  show (cfg2.win 7).cut (grid2.coords t) ((dat2 V c).after 7 t) = _
  rw [after2_7]
  unfold out2_7
  rw [View.canon_unit_zero hz]
  simp only [View.ld_unit_zero (S := S2000x128) hz, View.ld_unit_zero (S := S1x128) hz, View.ld_unit_zero (S := S1x1) hz]
  obtain ⟨-, -, -, -, -, -, e0, e1, -⟩ := idx_rows t
  funext j
  obtain ⟨p, u, rfl⟩ : ∃ (p : Fin 2000) (u : Fin 1), j = ix2 p u := ⟨j 0, j 1, eq_ix2 j⟩
  show k2_pay3 (iblk2 V c 0 t) (iblk2 V c 1 t) (iblk2 V c 2 t) (iblk2 V c 3 t) (ix2 p u)
    = Gnn.rowDot (Gnn.plus (V c main_v69) (V c main_v28_0)) (V c main_v70) (V c main_v71) (((cfg2.win 7).blk t).view.emb (ix2 p u))
  refine (degree_block (V c main_v69) (V c main_v28_0) (V c main_v70) (V c main_v71) (iblk2 V c 0 t) (iblk2 V c 1 t)
    (iblk2 V c 2 t) (iblk2 V c 3 t) (rowAt t p) p (fun k => blk0_apply V c t p k) (fun k => blk1_apply V c t p k)
    (fun k => blk2_apply V c t k) (blk3_apply V c t) u).trans ?_
  refine congrArg (Gnn.rowDot (Gnn.plus (V c main_v69) (V c main_v28_0)) (V c main_v70) (V c main_v71)) (funext fun a => Fin.ext ?_)
  match a with
  | ⟨0, _⟩ => show t.val * 2000 + p.val = win2_7.index t (0 : Fin 2) * 2000 + 1 * p.val; rw [e0]; omega
  | ⟨1, _⟩ => show u.val = win2_7.index t (1 : Fin 2) * 1 + 1 * u.val; rw [e1]; omega

/-- An index of the array is in point `t`'s block iff each coordinate is in the block's range on its axis. -/
theorem degree_mem_blk (t : Fin cfg2.N) (i : S100000x1.Idx) :
    i ∈ ((cfg2.win 7).blk t).view.set ↔ ∀ a : Fin 2, win2_7.index t a * S2000x1.size a ≤ (i a).val ∧ (i a).val < win2_7.index t a * S2000x1.size a + S2000x1.size a := by
  show i ∈ ((View.whole main_v73_1).slice (win2_7.rect t)).set ↔ _
  rw [View.set_slice_whole, Rect.mem_set_unit]
  exact Iff.rfl

/-- Every row is in some point's block: row `r` in the block of point `r / 2000`. -/
theorem degree_cover (i : S100000x1.Idx) :
    ∃ t : Fin cfg2.N, (cfg2.win 7).flush t = true ∧ i ∈ ((cfg2.win 7).blk t).view.set := by
  have hN : cfg2.N = 50 := N_2
  have hi0 : (i 0).val < 100000 := (i 0).isLt
  have hi1 : (i 1).val < 1 := (i 1).isLt
  obtain ⟨t, ht⟩ : ∃ t : Fin cfg2.N, t.val = (i 0).val / 2000 := ⟨⟨(i 0).val / 2000, by rw [hN]; omega⟩, rfl⟩
  obtain ⟨-, -, -, -, -, -, e0, e1, -⟩ := idx_rows t
  refine ⟨t, flush2_7 t, ?_⟩
  rw [degree_mem_blk]
  intro a
  match a with
  | ⟨0, _⟩ => show win2_7.index t (0 : Fin 2) * 2000 ≤ (i 0).val ∧ (i 0).val < win2_7.index t (0 : Fin 2) * 2000 + 2000; rw [e0, ht]; omega
  | ⟨1, _⟩ => show win2_7.index t (1 : Fin 2) * 1 ≤ (i 1).val ∧ (i 1).val < win2_7.index t (1 : Fin 2) * 1 + 1; rw [e1]; omega

/-- The one-output head after the region: each row's dot product with the weight row, plus the scalar bias. -/
theorem degree_eq (c : Dev nD) :
    (dat2 (F := Ideal) V c).arrAt 7 cfg2.N = Gnn.rowDot (Gnn.plus (V c main_v69) (V c main_v28_0)) (V c main_v70) (V c main_v71) :=
  (dat2 (F := Ideal) V c).arrAt_eq_of_cover 7 (Gnn.rowDot (Gnn.plus (V c main_v69) (V c main_v28_0)) (V c main_v70) (V c main_v71))
    (fun t _ => degree_flushed V c t) degree_cover

/-! ### The 128-output head -/

/-- What point `t` writes back to the 128-output head is block `t` of the summed arrays times the weight matrix, plus the bias row. -/
theorem head3_flushed (c : Dev nD) (t : Fin cfg2.N) :
    (dat2 (F := Ideal) V c).flushed 8 t
      = ((cfg2.win 8).blk t).view.read (Elt Ideal) (Gnn.addRow (Gnn.dense128 (Gnn.plus (V c main_v69) (V c main_v28_0)) (V c main_arg10)) (V c main_v72)) := by
  show (cfg2.win 8).cut (grid2.coords t) ((dat2 V c).after 8 t) = _
  rw [after2_8]
  unfold out2_8
  rw [View.canon_unit_zero hz]
  simp only [View.ld_unit_zero (S := S2000x128) hz, View.ld_unit_zero (S := S1x128) hz, View.ld_unit_zero (S := S128x128) hz]
  obtain ⟨-, -, -, -, -, -, -, -, e0, e1⟩ := idx_rows t
  funext j
  obtain ⟨p, q, rfl⟩ : ∃ (p : Fin 2000) (q : Fin 128), j = ix2 p q := ⟨j 0, j 1, eq_ix2 j⟩
  show k2_pay4 (iblk2 V c 0 t) (iblk2 V c 1 t) (iblk2 V c 4 t) (iblk2 V c 5 t) (ix2 p q)
    = Gnn.addRow (Gnn.dense128 (Gnn.plus (V c main_v69) (V c main_v28_0)) (V c main_arg10)) (V c main_v72) (((cfg2.win 8).blk t).view.emb (ix2 p q))
  refine (head3_block (V c main_v69) (V c main_v28_0) (V c main_arg10) (V c main_v72) (iblk2 V c 0 t) (iblk2 V c 1 t)
    (iblk2 V c 4 t) (iblk2 V c 5 t) (rowAt t p) p (fun k => blk0_apply V c t p k) (fun k => blk1_apply V c t p k)
    (fun k q => blk4_apply V c t k q) (fun q => blk5_apply V c t q) q).trans ?_
  refine congrArg (Gnn.addRow (Gnn.dense128 (Gnn.plus (V c main_v69) (V c main_v28_0)) (V c main_arg10)) (V c main_v72)) (funext fun a => Fin.ext ?_)
  match a with
  | ⟨0, _⟩ => show t.val * 2000 + p.val = win2_8.index t (0 : Fin 2) * 2000 + 1 * p.val; rw [e0]; omega
  | ⟨1, _⟩ => show q.val = win2_8.index t (1 : Fin 2) * 128 + 1 * q.val; rw [e1]; omega

/-- An index of the array is in point `t`'s block iff each coordinate is in the block's range on its axis. -/
theorem head3_mem_blk (t : Fin cfg2.N) (i : S100000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole main_v73_2).slice (win2_8.rect t)).set ↔ _
  rw [View.set_slice_whole, Rect.mem_set_unit]
  exact Iff.rfl

/-- Every row is in some point's block: row `r` in the block of point `r / 2000`. -/
theorem head3_cover (i : S100000x128.Idx) :
    ∃ t : Fin cfg2.N, (cfg2.win 8).flush t = true ∧ i ∈ ((cfg2.win 8).blk t).view.set := by
  have hN : cfg2.N = 50 := N_2
  have hi0 : (i 0).val < 100000 := (i 0).isLt
  have hi1 : (i 1).val < 128 := (i 1).isLt
  obtain ⟨t, ht⟩ : ∃ t : Fin cfg2.N, t.val = (i 0).val / 2000 := ⟨⟨(i 0).val / 2000, by rw [hN]; omega⟩, rfl⟩
  obtain ⟨-, -, -, -, -, -, -, -, e0, e1⟩ := idx_rows t
  refine ⟨t, flush2_8 t, ?_⟩
  rw [head3_mem_blk]
  intro a
  match a with
  | ⟨0, _⟩ => show win2_8.index t (0 : Fin 2) * 2000 ≤ (i 0).val ∧ (i 0).val < win2_8.index t (0 : Fin 2) * 2000 + 2000; rw [e0, ht]; omega
  | ⟨1, _⟩ => show win2_8.index t (1 : Fin 2) * 128 ≤ (i 1).val ∧ (i 1).val < win2_8.index t (1 : Fin 2) * 128 + 128; rw [e1]; omega

/-- The 128-output head after the region: the summed arrays times the weight matrix, plus the bias row. -/
theorem head3_eq (c : Dev nD) :
    (dat2 (F := Ideal) V c).arrAt 8 cfg2.N = Gnn.addRow (Gnn.dense128 (Gnn.plus (V c main_v69) (V c main_v28_0)) (V c main_arg10)) (V c main_v72) :=
  (dat2 (F := Ideal) V c).arrAt_eq_of_cover 8 (Gnn.addRow (Gnn.dense128 (Gnn.plus (V c main_v69) (V c main_v28_0)) (V c main_arg10)) (V c main_v72))
    (fun t _ => head3_flushed V c t) head3_cover

end Cert.KernelIdeal.HeadsRegion

end
-- ==== Proof.KernelValue.lean ====
/-
  What the idealized kernel program leaves in its three result buffers, as functions of its argument arrays.

  The run ends with every buffer at the last boundary's contents.  Walking that boundary back through the program:
  the last stretch only flattens one column; the third region writes the three heads of the table it is handed;
  that table is the second message-passing step's result plus the first region's residual output; the second
  message-passing step acts on the second region's dense output of the first step's result; and the first step
  acts on the first region's second output.  Every operand a region or a stretch reads on the way is either an
  argument array, unchanged since the launch, or the degree normalisation computed from the edge list in the
  first stretch.
-/
import proofs.«101989_j22505628631761_1_alg».proof.Proof.KernelRun
import proofs.«101989_j22505628631761_1_alg».proof.Proof.Stretch
import proofs.«101989_j22505628631761_1_alg».proof.Proof.Layout
import proofs.«101989_j22505628631761_1_alg».proof.Proof.Model
import proofs.«101989_j22505628631761_1_alg».proof.Proof.DenseRegions
import proofs.«101989_j22505628631761_1_alg».proof.Proof.HeadsRegion

set_option maxRecDepth 16384

noncomputable section

namespace Cert.KernelIdeal.Outcome

open Cert.KernelIdeal Cert.KernelIdeal.Gen Cert.KernelIdeal.Stretch Cert.Gnn
open Idealize.ShloMosaic Idealize.ShloMosaic.TcCoe Idealize.SL.Sem

variable (m : (ℓ : Loc nD τ sig) → Buf (Elt Ideal) ℓ) (ρ : Dev nD → PrngReg)

/-! ## The first region -/

/-- The first region's second output is the first layer's dense step. -/
theorem dense1_buf (c : Dev nD) :
    W2 m ρ c (Proc.devRef .tc main_v28_1) = dense256 (W0 m ρ c (Proc.devRef .tc main_arg0)) (W0 m ρ c (Proc.devRef .tc main_arg2)) := by
  have e0 : V1 m ρ c main_arg0 = (W0 m ρ c (Proc.devRef .tc main_arg0)) := keep1_0_arg0 m ρ c
  have e2 : V1 m ρ c main_arg2 = (W0 m ρ c (Proc.devRef .tc main_arg2)) := keep1_0_arg2 m ρ c
  refine (W2_arr m ρ c 5).trans ((DenseRegions.h0_eq (V1 m ρ) c).trans ?_)
  rw [e0, e2]

/-- The first region's first output is the residual layer: a dense step plus its bias row. -/
theorem residual_buf (c : Dev nD) :
    W2 m ρ c (Proc.devRef .tc main_v28_0) = addRow (dense256 (W0 m ρ c (Proc.devRef .tc main_arg0)) (W0 m ρ c (Proc.devRef .tc main_arg6))) (rowOf (W0 m ρ c (Proc.devRef .tc main_arg7))) := by
  have e0 : V1 m ρ c main_arg0 = (W0 m ρ c (Proc.devRef .tc main_arg0)) := keep1_0_arg0 m ρ c
  have e6 : V1 m ρ c main_arg6 = (W0 m ρ c (Proc.devRef .tc main_arg6)) := keep1_0_arg6 m ρ c
  have eb : V1 m ρ c main_v27 = rowOf (W0 m ρ c (Proc.devRef .tc main_arg7)) := (first_bias m ρ c).trans (shapeCast_row _ _)
  refine (W2_arr m ρ c 4).trans ((DenseRegions.origx_eq (V1 m ρ) c).trans ?_)
  rw [e0, e6, eb]

/-! ## The first message-passing step and the second region -/

/-- The second stretch leaves the first layer's message-passing step. -/
theorem layer1_buf (c : Dev nD) :
    W3 m ρ c (Proc.devRef .tc main_v48) = pass (dense256 (W0 m ρ c (Proc.devRef .tc main_arg0)) (W0 m ρ c (Proc.devRef .tc main_arg2))) (W0 m ρ c (Proc.devRef .tc main_arg1)) (W0 m ρ c (Proc.devRef .tc main_arg3)) := by
  rw [second_agg, dense1_buf, keep2_1_v1, keep2_1_v3, keep2_1_v25, keep2_1_v26, keep2_0_arg3,
    first_src, first_dst, first_coef, first_self]
  rfl

/-- The second region's output is the second layer's dense step of the rectified first layer. -/
theorem dense2_buf (c : Dev nD) :
    W4 m ρ c (Proc.devRef .tc main_v49)
      = dense128 (relu (pass (dense256 (W0 m ρ c (Proc.devRef .tc main_arg0)) (W0 m ρ c (Proc.devRef .tc main_arg2))) (W0 m ρ c (Proc.devRef .tc main_arg1)) (W0 m ρ c (Proc.devRef .tc main_arg3)))) (W0 m ρ c (Proc.devRef .tc main_arg4)) := by
  have eh : V3 m ρ c main_v48 = pass (dense256 (W0 m ρ c (Proc.devRef .tc main_arg0)) (W0 m ρ c (Proc.devRef .tc main_arg2))) (W0 m ρ c (Proc.devRef .tc main_arg1)) (W0 m ρ c (Proc.devRef .tc main_arg3)) := layer1_buf m ρ c
  have e4 : V3 m ρ c main_arg4 = (W0 m ρ c (Proc.devRef .tc main_arg4)) := keep3_0_arg4 m ρ c
  refine (W4_arr m ρ c 2).trans ((DenseRegions.h2pre_eq (V3 m ρ) c).trans ?_)
  rw [eh, e4]

/-! ## The second message-passing step and the table the heads read -/

/-- The third stretch leaves the second layer's message-passing step. -/
theorem layer2_buf (c : Dev nD) :
    W5 m ρ c (Proc.devRef .tc main_v69)
      = pass (dense128 (relu (pass (dense256 (W0 m ρ c (Proc.devRef .tc main_arg0)) (W0 m ρ c (Proc.devRef .tc main_arg2))) (W0 m ρ c (Proc.devRef .tc main_arg1)) (W0 m ρ c (Proc.devRef .tc main_arg3)))) (W0 m ρ c (Proc.devRef .tc main_arg4)))
          (W0 m ρ c (Proc.devRef .tc main_arg1)) (W0 m ρ c (Proc.devRef .tc main_arg5)) := by
  rw [third_agg, dense2_buf, keep4_1_v1, keep4_1_v3, keep4_1_v25, keep4_1_v26, keep4_0_arg5,
    first_src, first_dst, first_coef, first_self]
  rfl

/-- The two tables the third region adds up are the model's residual table. -/
theorem heads_input (c : Dev nD) :
    plus (V5 m ρ c main_v69) (V5 m ρ c main_v28_0)
      = residual (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) := by
  have ea : V5 m ρ c main_v69 = _ := layer2_buf m ρ c
  have eb : V5 m ρ c main_v28_0 = _ := (keep5_2_v28_0 m ρ c).trans (residual_buf m ρ c)
  rw [ea, eb]
  rfl

/-! ## The three result buffers -/

/-- The first result: the row-wise log-softmax of the residual table. -/
theorem result1 (c : Dev nD) :
    W7 m ρ c (Proc.devRef .tc main_v73_0)
      = logSoftmax (residual (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7))) := by
  refine (keep7_6_v73_0 m ρ c).trans ((W6_arr m ρ c 6).trans ((HeadsRegion.logits_eq (V5 m ρ) c).trans ?_))
  rw [heads_input]

/-- The second result: each row's dot product with the one-output head's weights, plus its bias, as a vector. -/
theorem result2 (c : Dev nD) :
    W7 m ρ c (Proc.devRef .tc main_v74)
      = flat (rowDot (residual (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)))
          (transposeCol (W0 m ρ c (Proc.devRef .tc main_arg8))) (cellOf (W0 m ρ c (Proc.devRef .tc main_arg9)))) := by
  have ew : V5 m ρ c main_v70 = transposeCol (W0 m ρ c (Proc.devRef .tc main_arg8)) := by
    refine (third_wdeg m ρ c).trans ?_
    rw [keep4_0_arg8]
    exact shapeCast_col_row _ _
  have eb : V5 m ρ c main_v71 = cellOf (W0 m ρ c (Proc.devRef .tc main_arg9)) := by
    refine (third_bdeg m ρ c).trans ?_
    rw [keep4_0_arg9]
    exact shapeCast_cell _ _
  refine (last_flat m ρ c).trans ((shapeCast_flat _ _).trans (congrArg flat ?_))
  refine (W6_arr m ρ c 7).trans ((HeadsRegion.degree_eq (V5 m ρ) c).trans ?_)
  rw [heads_input, ew, eb]

/-- The third result: the last head's dense step of the residual table plus its bias row. -/
theorem result3 (c : Dev nD) :
    W7 m ρ c (Proc.devRef .tc main_v73_2)
      = addRow (dense128 (residual (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)))
          (W0 m ρ c (Proc.devRef .tc main_arg10))) (rowOf (W0 m ρ c (Proc.devRef .tc main_arg11))) := by
  have ew : V5 m ρ c main_arg10 = (W0 m ρ c (Proc.devRef .tc main_arg10)) := keep5_0_arg10 m ρ c
  have eb : V5 m ρ c main_v72 = rowOf (W0 m ρ c (Proc.devRef .tc main_arg11)) := by
    refine (third_b3 m ρ c).trans ?_
    rw [keep4_0_arg11]
    exact shapeCast_row _ _
  refine (keep7_6_v73_2 m ρ c).trans ((W6_arr m ρ c 8).trans ((HeadsRegion.head3_eq (V5 m ρ) c).trans ?_))
  rw [heads_input, ew, eb]

end Cert.KernelIdeal.Outcome

end
-- ==== Proof.RefStages.lean ====
/-
  The reference's dense stages are the specification's functions.

  Between its message-passing steps the reference acts on each node's row independently.  Read at an index, each of
  these stages is the corresponding function of the specification applied to the stage's inputs:

    * the residual branch, x · W + b: a sum over the 256 input features plus the bias at the column;
    * the first layer's product x · W;
    * the second layer's product of the rectified first layer, max(h, 0) · W;
    * the residual sum of the two branches;
    * the row-wise log-softmax: the row maximum is a fold of max from the pattern of minus infinity, and taking the
      maximum with that pattern once more does not change it (a fold of max is at least its initial value); the sum of
      exponentials starts from the zero word, which is 0;
    * the degree head, a row's dot product with the one weight column plus a scalar, laid out as a vector;
    * the third head, a dense layer with its bias row.

  The message-passing stages below the first layer's sum and below the second layer's sum are never opened here: they
  enter every statement as one function of the arguments.
-/
import proofs.«101989_j22505628631761_1_alg».proof.Proof.RefRead
import proofs.«101989_j22505628631761_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.Stages

open Cert.ReferenceIdeal Cert.ReferenceIdeal.Read Idealize.ShloMosaic Idealize.ShloMosaic.ValueIdx

/-! ## The operands at an index

Each dense stage reads its operands at indices the shapes determine: row r, column j of a product reads the
left operand at (r, k) and the right at (k, j); a bias vector broadcast along the rows is read at the column.
The equations below say so with the coordinates at their literal bounds. -/

theorem lidx4_eq (i : S100000x128.Idx) (k : Fin 256) : lidx_main_v4 i k = ix2 (Cert.Gnn.row i) k :=
  funext fun a => by match a with | ⟨0, _⟩ => rfl | ⟨1, _⟩ => rfl
theorem ridx4_eq (i : S100000x128.Idx) (k : Fin 256) : ridx_main_v4 i k = ix2 k (Cert.Gnn.col i) :=
  funext fun a => by match a with | ⟨0, _⟩ => rfl | ⟨1, _⟩ => rfl
theorem lidx8_eq (i : S100000x128.Idx) (k : Fin 256) : lidx_main_v8 i k = ix2 (Cert.Gnn.row i) k :=
  funext fun a => by match a with | ⟨0, _⟩ => rfl | ⟨1, _⟩ => rfl
theorem ridx8_eq (i : S100000x128.Idx) (k : Fin 256) : ridx_main_v8 i k = ix2 k (Cert.Gnn.col i) :=
  funext fun a => by match a with | ⟨0, _⟩ => rfl | ⟨1, _⟩ => rfl
theorem lidx53_eq (i : S100000x128.Idx) (k : Fin 128) : lidx_main_v53 i k = ix2 (Cert.Gnn.row i) k :=
  funext fun a => by match a with | ⟨0, _⟩ => rfl | ⟨1, _⟩ => rfl
theorem ridx53_eq (i : S100000x128.Idx) (k : Fin 128) : ridx_main_v53 i k = ix2 k (Cert.Gnn.col i) :=
  funext fun a => by match a with | ⟨0, _⟩ => rfl | ⟨1, _⟩ => rfl
theorem lidx104_eq (i : S100000x128.Idx) (k : Fin 128) : lidx_main_v104 i k = ix2 (Cert.Gnn.row i) k :=
  funext fun a => by match a with | ⟨0, _⟩ => rfl | ⟨1, _⟩ => rfl
theorem ridx104_eq (i : S100000x128.Idx) (k : Fin 128) : ridx_main_v104 i k = ix2 k (Cert.Gnn.col i) :=
  funext fun a => by match a with | ⟨0, _⟩ => rfl | ⟨1, _⟩ => rfl
theorem lidx99_eq (i : S100000x1.Idx) (k : Fin 128) : lidx_main_v99 i k = ix2 (Cert.Gnn.row i) k :=
  funext fun a => by match a with | ⟨0, _⟩ => rfl | ⟨1, _⟩ => rfl
/-- The one column of a one-column table is column 0. -/
theorem ridx99_eq (i : S100000x1.Idx) (k : Fin 128) : ridx_main_v99 i k = ix2 k (0 : Fin 1) :=
  funext fun a => by
    match a with
    | ⟨0, _⟩ => rfl
    | ⟨1, _⟩ => exact Fin.ext (by have h := idx2_lt1 i; show (i 1).val = 0; omega)
/-- A bias vector broadcast to one row and then to every row is read at the column. -/
theorem bias7_eq (i : S100000x128.Idx) : idx_main_v5 (idx_main_v6 i) = ix1 (Cert.Gnn.col i) :=
  funext fun a => by match a with | ⟨0, _⟩ => rfl
theorem bias11_eq (i : S100000x128.Idx) : idx_main_v105 (idx_main_v106 i) = ix1 (Cert.Gnn.col i) :=
  funext fun a => by match a with | ⟨0, _⟩ => rfl
/-- A one-entry bias broadcast to one cell and then down the column is read at its one entry. -/
theorem bias9_eq (i : S100000x1.Idx) : idx_main_v100 (idx_main_v101 i) = ix1 (0 : Fin 1) :=
  funext fun a => by match a with | ⟨0, _⟩ => rfl
/-- The reshape of one column to a vector reads row r of the column. -/
theorem flat_eq (r : S100000.Idx) : idx_main_v103 r = ix2 (⟨(r 0).val, (r 0).isLt⟩ : Fin 100000) (0 : Fin 1) :=
  funext fun a => by
    match a with
    | ⟨0, _⟩ => exact Fin.ext (Nat.div_one _)
    | ⟨1, _⟩ => rfl

variable (x0 : (⟨S100000x256, .f32⟩ : BufTy).Contents (Elt Ideal)) (x1 : (⟨S2x1600000, .i32⟩ : BufTy).Contents (Elt Ideal))
  (x2 : (⟨S256x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S256x128, .f32⟩ : BufTy).Contents (Elt Ideal)) (x7 : (⟨S128, .f32⟩ : BufTy).Contents (Elt Ideal))
  (x8 : (⟨S128x1, .f32⟩ : BufTy).Contents (Elt Ideal)) (x9 : (⟨S1, .f32⟩ : BufTy).Contents (Elt Ideal))
  (x10 : (⟨S128x128, .f32⟩ : BufTy).Contents (Elt Ideal)) (x11 : (⟨S128, .f32⟩ : BufTy).Contents (Elt Ideal))

/-! ## The dense stages -/

/-- The residual branch: the input layer with its bias row. -/
theorem origx_stage :
    val_main_v7 (F := Ideal) x0 x6 x7 = Cert.Gnn.addRow (Cert.Gnn.dense256 x0 x6) (Cert.Gnn.rowOf x7) := by
  funext i
  rw [val_main_v7_apply, val_main_v4_apply, val_main_v6_apply, val_main_v5_apply]
  simp only [Ideal.addf_def, lidx4_eq, ridx4_eq, bias7_eq]
  rfl

/-- The first layer's product, before the message passing. -/
theorem h0_stage : val_main_v8 (F := Ideal) x0 x2 = Cert.Gnn.dense256 x0 x2 := by
  funext i
  rw [val_main_v8_apply]
  simp only [lidx8_eq, ridx8_eq]
  rfl

/-- The rectifier, entry by entry: the maximum with the broadcast zero. -/
theorem relu_read (j : S100000x128.Idx) :
    val_main_v52 (F := Ideal) x0 x1 x2 x3 j = Cert.Gnn.relu (val_main_v51 (F := Ideal) x0 x1 x2 x3) j := by
  rw [val_main_v52_apply, val_main_call0_v0_apply, val_main_call0_cst_apply]
  generalize val_main_v51 (F := Ideal) x0 x1 x2 x3 = y
  rfl

/-- The second layer's product of the rectified first layer. -/
theorem h2pre_stage :
    val_main_v53 (F := Ideal) x0 x1 x2 x3 x4 = Cert.Gnn.dense128 (Cert.Gnn.relu (val_main_v51 (F := Ideal) x0 x1 x2 x3)) x4 := by
  funext i
  have hr : val_main_v52 (F := Ideal) x0 x1 x2 x3 = Cert.Gnn.relu (val_main_v51 (F := Ideal) x0 x1 x2 x3) :=
    funext fun j => relu_read x0 x1 x2 x3 j
  rw [val_main_v53_apply, hr]
  generalize Cert.Gnn.relu (val_main_v51 (F := Ideal) x0 x1 x2 x3) = y
  simp only [lidx53_eq, ridx53_eq]
  rfl

/-- The residual connection. -/
theorem residual_stage :
    val_main_v97 (F := Ideal) x0 x1 x2 x3 x4 x5 x6 x7
      = Cert.Gnn.plus (val_main_v96 (F := Ideal) x0 x1 x2 x3 x4 x5) (val_main_v7 (F := Ideal) x0 x6 x7) := by
  funext i
  rw [val_main_v97_apply, Ideal.addf_def]
  generalize val_main_v96 (F := Ideal) x0 x1 x2 x3 x4 x5 = a
  generalize val_main_v7 (F := Ideal) x0 x6 x7 = b
  rfl

/-! ## The row maximum

The reference takes a row's maximum as a reduction of max over the column axis from the pattern of minus infinity:
a fold of max over the 128 coordinates of that axis, the reduced index with the coordinate inserted being (row, k). -/

/-- The column axis of a table of 100000 by 128 reduces to the vector of its 100000 rows. -/
theorem rows_reduce : S100000x128.Reduces [1] S100000 := by decide

/-- Row r with column k inserted is the index (r, k). -/
theorem lift_eq (j : S100000.Idx) (k : Fin 128) :
    rows_reduce.lift j k = ix2 (⟨(j 0).val, (j 0).isLt⟩ : Fin 100000) k :=
  funext fun a => by match a with | ⟨0, _⟩ => rfl | ⟨1, _⟩ => rfl

/-- The reduction of max over the columns, read at row j, is the specification's row maximum. -/
theorem rowMax_read (y : (⟨S100000x128, .f32⟩ : BufTy).Contents (Elt Ideal)) (j : S100000.Idx) :
    Host.reduce (FloatOps.maximumf (F := Ideal) (φ := .f32)) y (val_main_call1_cst (F := Ideal))
        Gen.reducesTo_S100000x128_S100000_d1 Gen.h_S_ j
      = Cert.Gnn.rowMax y (⟨(j 0).val, (j 0).isLt⟩ : Fin 100000) := by
  refine (Host.reduce_eq_fold_single (FloatOps.maximumf (F := Ideal) (φ := .f32)) y _
    Gen.reducesTo_S100000x128_S100000_d1 rows_reduce Gen.h_S_ j).trans ?_
  have e : (y ∘ rows_reduce.lift j) = fun k : Fin 128 => y (ix2 (⟨(j 0).val, (j 0).isLt⟩ : Fin 100000) k) :=
    funext fun k => congrArg y (lift_eq j k)
  exact congrArg (fun f => (Finset.univ : Finset (Fin 128)).fold max Cert.Gnn.negInfF f) e

/-- A fold of max is at least its initial value, so taking the maximum with that value again changes nothing. -/
theorem max_init_rowMax (y : Cert.Gnn.Tab 100000 128) (r : Fin 100000) :
    max Cert.Gnn.negInfF (Cert.Gnn.rowMax y r) = Cert.Gnn.rowMax y r :=
  max_eq_right ((Finset.le_fold_max _).2 (Or.inl le_rfl))

/-- The broadcast row maximum, read at an entry: the maximum with the initial value taken once more leaves the fold as it is. -/
theorem bmax_read (i : S100000x128.Idx) :
    val_main_call1_v4 (F := Ideal) x0 x1 x2 x3 x4 x5 x6 x7 i
      = Cert.Gnn.rowMax (val_main_v97 (F := Ideal) x0 x1 x2 x3 x4 x5 x6 x7) (Cert.Gnn.row i) := by
  rw [val_main_call1_v4_apply, val_main_call1_v3_apply, val_main_call1_v2_apply, val_main_call1_v1_apply,
    val_main_call1_cst_0_apply]
  unfold val_main_call1_v0
  generalize val_main_v97 (F := Ideal) x0 x1 x2 x3 x4 x5 x6 x7 = y
  rw [rowMax_read, Ideal.maximumf_def, Ideal.ofBits_def]
  exact max_init_rowMax y _

/-- The entries shifted by their row's maximum. -/
theorem shifted_read (i : S100000x128.Idx) :
    val_main_call1_v5 (F := Ideal) x0 x1 x2 x3 x4 x5 x6 x7 i
      = val_main_v97 (F := Ideal) x0 x1 x2 x3 x4 x5 x6 x7 i - Cert.Gnn.rowMax (val_main_v97 (F := Ideal) x0 x1 x2 x3 x4 x5 x6 x7) (Cert.Gnn.row i) := by
  rw [val_main_call1_v5_apply, bmax_read, Ideal.subf_def]

/-- The sum of exponentials runs over the row of the entry. -/
theorem sumIdx_eq (i : S100000x128.Idx) (k : Fin 128) :
    idx_main_call1_v7 (idx_main_call1_v8 (idx_main_call1_v10 i)) k = ix2 (Cert.Gnn.row i) k :=
  funext fun a => by match a with | ⟨0, _⟩ => rfl | ⟨1, _⟩ => rfl

theorem expTerm_read (i : S100000x128.Idx) (k : Fin 128) :
    val_main_call1_v6 (F := Ideal) x0 x1 x2 x3 x4 x5 x6 x7 (idx_main_call1_v7 (idx_main_call1_v8 (idx_main_call1_v10 i)) k)
      = Ideal.exp (val_main_v97 (F := Ideal) x0 x1 x2 x3 x4 x5 x6 x7 (ix2 (Cert.Gnn.row i) k) - Cert.Gnn.rowMax (val_main_v97 (F := Ideal) x0 x1 x2 x3 x4 x5 x6 x7) (Cert.Gnn.row i)) := by
  rw [val_main_call1_v6_apply, shifted_read, Ideal.hostUnary_exp_def, sumIdx_eq]

/-- The row-wise log-softmax of the residual sum. -/
theorem logits_stage :
    val_main_v98 (F := Ideal) x0 x1 x2 x3 x4 x5 x6 x7 = Cert.Gnn.logSoftmax (val_main_v97 (F := Ideal) x0 x1 x2 x3 x4 x5 x6 x7) := by
  funext i
  have hs : (∑ k : Fin 128, val_main_call1_v6 (F := Ideal) x0 x1 x2 x3 x4 x5 x6 x7
        (idx_main_call1_v7 (idx_main_call1_v8 (idx_main_call1_v10 i)) k))
      = ∑ k : Fin 128, Ideal.exp (val_main_v97 (F := Ideal) x0 x1 x2 x3 x4 x5 x6 x7 (ix2 (Cert.Gnn.row i) k) - Cert.Gnn.rowMax (val_main_v97 (F := Ideal) x0 x1 x2 x3 x4 x5 x6 x7) (Cert.Gnn.row i)) :=
    Finset.sum_congr rfl fun k _ => expTerm_read x0 x1 x2 x3 x4 x5 x6 x7 i k
  rw [val_main_v98_apply, val_main_call1_v10_apply, val_main_call1_v9_apply, val_main_call1_v8_apply,
    val_main_call1_v7_apply, val_main_call1_cst_1_apply, shifted_read, hs, Ideal.subf_def, Ideal.hostUnary_log_def,
    Ideal.ofBits_def, Ideal.ofBits_zero_f32, zero_add]
  generalize val_main_v97 (F := Ideal) x0 x1 x2 x3 x4 x5 x6 x7 = y
  rfl

/-! ## The two heads read from the residual sum -/

/-- The degree head: each row's dot product with the one weight column, plus the scalar bias, as a vector. -/
theorem degree_stage :
    val_main_v103 (F := Ideal) x0 x1 x2 x3 x4 x5 x6 x7 x8 x9
      = Cert.Gnn.flat (Cert.Gnn.rowDot (val_main_v97 (F := Ideal) x0 x1 x2 x3 x4 x5 x6 x7) (Cert.Gnn.transposeCol x8) (Cert.Gnn.cellOf x9)) := by
  funext r
  rw [val_main_v103_apply, val_main_v102_apply, val_main_v99_apply, val_main_v101_apply, val_main_v100_apply]
  generalize val_main_v97 (F := Ideal) x0 x1 x2 x3 x4 x5 x6 x7 = y
  simp only [Ideal.addf_def, flat_eq, lidx99_eq, ridx99_eq, bias9_eq]
  rfl

/-- The third head: a dense layer of the residual sum with its bias row. -/
theorem head3_stage :
    val_main_v107 (F := Ideal) x0 x1 x2 x3 x4 x5 x6 x7 x10 x11
      = Cert.Gnn.addRow (Cert.Gnn.dense128 (val_main_v97 (F := Ideal) x0 x1 x2 x3 x4 x5 x6 x7) x10) (Cert.Gnn.rowOf x11) := by
  funext i
  rw [val_main_v107_apply, val_main_v104_apply, val_main_v106_apply, val_main_v105_apply]
  generalize val_main_v97 (F := Ideal) x0 x1 x2 x3 x4 x5 x6 x7 = y
  simp only [Ideal.addf_def, lidx104_eq, ridx104_eq, bias11_eq]
  rfl

end Cert.ReferenceIdeal.Stages

end
-- ==== Proof.RefPassing.lean ====
/-
  The reference's two message-passing steps are the kernel program's.

  Both programs run the same operations between their dense steps: the edge list's two rows, each node's
  in-degree plus one and its inverse square root, the per-edge and self-loop coefficients, then gather, scale,
  segment sum, the self-loop term and the bias.  The reference recomputes the normalisation in each layer; the
  kernel program computes it once.  Either way the stage after a layer's dense step is `aggregate` of that step's
  table, the edge list's rows, the coefficients of those rows, and the layer's bias.
-/
import proofs.«101989_j22505628631761_1_alg».proof.Proof.RefRead
import proofs.«101989_j22505628631761_1_alg».proof.Proof.Stretch

set_option maxRecDepth 65536

noncomputable section

namespace Cert.ReferenceIdeal.Passing

open Cert.ReferenceIdeal Cert.ReferenceIdeal.Read Idealize.ShloMosaic
open Cert.KernelIdeal.Stretch (aggregate srcOf dstOf coefOf selfOf)

variable {F : FTy → Type} [FloatOps F]

/-- The first layer: the stage before the rectifier is one message-passing step on the first dense stage. -/
theorem layer1 (x0 : (⟨S100000x256, .f32⟩ : BufTy).Contents (Elt F)) (x1 : (⟨S2x1600000, .i32⟩ : BufTy).Contents (Elt F))
    (x2 : (⟨S256x128, .f32⟩ : BufTy).Contents (Elt F)) (x3 : (⟨S128, .f32⟩ : BufTy).Contents (Elt F)) :
    val_main_v51 (F := F) x0 x1 x2 x3
      = aggregate (val_main_v8 (F := F) x0 x2) (srcOf x1) (dstOf x1) (coefOf (srcOf x1) (dstOf x1)) (selfOf (dstOf x1)) x3 := rfl

/-- The second layer: the stage before the residual sum is one message-passing step on the second dense stage. -/
theorem layer2 (x0 : (⟨S100000x256, .f32⟩ : BufTy).Contents (Elt F)) (x1 : (⟨S2x1600000, .i32⟩ : BufTy).Contents (Elt F))
    (x2 : (⟨S256x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F)) :
    val_main_v96 (F := F) x0 x1 x2 x3 x4 x5
      = aggregate (val_main_v53 (F := F) x0 x1 x2 x3 x4) (srcOf x1) (dstOf x1) (coefOf (srcOf x1) (dstOf x1)) (selfOf (dstOf x1)) x5 := rfl

end Cert.ReferenceIdeal.Passing

end
-- ==== Proof.RefValue.lean ====
/-
  The idealized reference's three results, as functions of its argument arrays.

  Read stage by stage, the reference's dense operations are the specification's row-wise functions, and the operations
  between them are the message-passing step shared with the kernel program; so the table its three heads read is the
  model's residual table, and its three results are the model's.
-/
import proofs.«101989_j22505628631761_1_alg».proof.Proof.RefRead
import proofs.«101989_j22505628631761_1_alg».proof.Proof.RefStages
import proofs.«101989_j22505628631761_1_alg».proof.Proof.RefPassing
import proofs.«101989_j22505628631761_1_alg».proof.Proof.Model

set_option maxRecDepth 65536

noncomputable section

namespace Cert.ReferenceIdeal.Outcome

open Cert.ReferenceIdeal Cert.ReferenceIdeal.Read Cert.Gnn
open Idealize.ShloMosaic

/-- The table the reference's heads read is the model's residual table. -/
theorem residual_stage_eq (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) :
    val_main_v97 (F := Ideal) x0 x1 x2 x3 x4 x5 x6 x7 = residual x0 x1 x2 x3 x4 x5 x6 x7 := by
  rw [Stages.residual_stage, Passing.layer2, Stages.h2pre_stage, Passing.layer1, Stages.h0_stage, Stages.origx_stage]
  rfl

/-- The first result: the row-wise log-softmax of the residual table. -/
theorem result1 (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) :
    val_main_v98 (F := Ideal) x0 x1 x2 x3 x4 x5 x6 x7 = logSoftmax (residual x0 x1 x2 x3 x4 x5 x6 x7) := by
  rw [Stages.logits_stage, residual_stage_eq]

/-- The second result: each row's dot product with the one-output head's weights, plus its bias, as a vector. -/
theorem result2 (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x1, .f32⟩ : BufTy).Contents (Elt Ideal)) (x9 : (⟨S1, .f32⟩ : BufTy).Contents (Elt Ideal)) :
    val_main_v103 (F := Ideal) x0 x1 x2 x3 x4 x5 x6 x7 x8 x9 = flat (rowDot (residual x0 x1 x2 x3 x4 x5 x6 x7) (transposeCol x8) (cellOf x9)) := by
  rw [Stages.degree_stage, residual_stage_eq]

/-- The third result: the last head's dense step of the residual table plus its bias row. -/
theorem result3 (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x10 : (⟨S128x128, .f32⟩ : BufTy).Contents (Elt Ideal)) (x11 : (⟨S128, .f32⟩ : BufTy).Contents (Elt Ideal)) :
    val_main_v107 (F := Ideal) x0 x1 x2 x3 x4 x5 x6 x7 x10 x11 = addRow (dense128 (residual x0 x1 x2 x3 x4 x5 x6 x7) x10) (rowOf x11) := by
  rw [Stages.head3_stage, residual_stage_eq]

end Cert.ReferenceIdeal.Outcome

end
-- ==== Proof.lean ====
/-
  The proof that a Pallas implementation of a two-layer graph convolution network with a residual connection and
  three output heads computes, over the extended reals, what its plain-array reference computes.

  The kernel program runs three tiled kernels (blocks of 2000 of the 100000 node rows) among plain array operations
  for the message passing along the 1.6 million edges.  Over the extended reals a change of float format is the
  identity and a blocked matrix product into a zero accumulator is the plain sum over the contraction index, so each
  kernel writes, block by block, the same row-wise function of its operands that the reference's whole-array
  operations compute (Proof/DenseRegions.lean, Proof/HeadsRegion.lean for the kernel program; Proof/RefStages.lean
  for the reference).  The message-passing operations are the same in both programs and are carried as one function,
  never opened (Proof/Stretch.lean, Proof/RefPassing.lean).  Both programs therefore end with the three tables of
  Proof/Model.lean (Proof/KernelValue.lean, Proof/RefValue.lean).  No step rearranges a sum or distributes a
  product, so the inputs' finiteness is never used.

  The three frame claims are the generated frame certificates of the two kernel programs and the reference's run;
  the ideal pass rewrote no operation, so the idealization claim is trivial.
-/
import proofs.«101989_j22505628631761_1_alg».proof.Defs
import proofs.«101989_j22505628631761_1_alg».proof.Proof.Gen.Kernel
import proofs.«101989_j22505628631761_1_alg».proof.Proof.Gen.Kernel.Skeleton
import proofs.«101989_j22505628631761_1_alg».proof.Proof.Gen.Kernel.Launch
import proofs.«101989_j22505628631761_1_alg».proof.Proof.Gen.Kernel.Points
import proofs.«101989_j22505628631761_1_alg».proof.Proof.Gen.Kernel.Frame
import proofs.«101989_j22505628631761_1_alg».proof.Proof.Gen.KernelIdeal
import proofs.«101989_j22505628631761_1_alg».proof.Proof.Gen.KernelIdeal.Skeleton
import proofs.«101989_j22505628631761_1_alg».proof.Proof.Gen.KernelIdeal.Launch
import proofs.«101989_j22505628631761_1_alg».proof.Proof.Gen.KernelIdeal.Points
import proofs.«101989_j22505628631761_1_alg».proof.Proof.Gen.KernelIdeal.Frame
import proofs.«101989_j22505628631761_1_alg».proof.Proof.Gen.ReferenceIdeal
import proofs.«101989_j22505628631761_1_alg».proof.Proof.Gen.Pre_finite_inputs
import proofs.«101989_j22505628631761_1_alg».proof.Proof.RefStaged
import proofs.«101989_j22505628631761_1_alg».proof.Proof.KernelRun
import proofs.«101989_j22505628631761_1_alg».proof.Proof.KernelValue
import proofs.«101989_j22505628631761_1_alg».proof.Proof.RefValue
import Idealize.ShloMosaic.Adequacy
import Idealize.ShloMosaic.Init

set_option maxRecDepth 16384

noncomputable section

namespace Cert.Proof

open Idealize.ShloMosaic Idealize.SL.Sem Cert.Gnn

/-- The word-level kernel program terminates without a fault and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the idealized reference: its run, with the results dropped. -/
theorem frame_reference_ideal : Cert.frame_ReferenceIdeal := fun m ρ _ =>
  (θ_run Cert.ReferenceIdeal.defs _ _).mono (fun _ h c => (h c).2.2.2) (Cert.ReferenceIdeal.Staged.run (F := Ideal) m ρ)

/-- The residual table of the argument arrays a memory holds on device `c`. -/
abbrev tableOf (m : (ℓ : Loc Cert.KernelIdeal.nD Cert.KernelIdeal.τ Cert.KernelIdeal.sig) → Buf (Elt Ideal) ℓ) (c : Dev Cert.KernelIdeal.nD) :
    Tab 100000 128 :=
  residual (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))

/-- From memories that agree on the arguments both idealized programs end with the model's three tables. -/
theorem algebraic : Cert.algebraic_KernelIdeal_ReferenceIdeal := by
  intro m ρ m' ρ' _ hagree
  refine ⟨fun c => logSoftmax (tableOf m c),
    fun c => flat (rowDot (tableOf m c) (transposeCol (m ((c.tc : Thread Cert.KernelIdeal.nD Cert.KernelIdeal.τ).loc Cert.KernelIdeal.main_arg8))) (cellOf (m ((c.tc : Thread Cert.KernelIdeal.nD Cert.KernelIdeal.τ).loc Cert.KernelIdeal.main_arg9)))),
    fun c => addRow (dense128 (tableOf m c) (m ((c.tc : Thread Cert.KernelIdeal.nD Cert.KernelIdeal.τ).loc Cert.KernelIdeal.main_arg10))) (rowOf (m ((c.tc : Thread Cert.KernelIdeal.nD Cert.KernelIdeal.τ).loc Cert.KernelIdeal.main_arg11))), ?_, ?_⟩
  · exact (θ_run Cert.KernelIdeal.defs _ _).mono (fun r h c =>
      ⟨(Cert.KernelIdeal.Outcome.at_ref m ρ r h c Cert.KernelIdeal.main_v73_0 (by decide)).trans (Cert.KernelIdeal.Outcome.result1 m ρ c),
       (Cert.KernelIdeal.Outcome.at_ref m ρ r h c Cert.KernelIdeal.main_v74 (by decide)).trans (Cert.KernelIdeal.Outcome.result2 m ρ c),
       (Cert.KernelIdeal.Outcome.at_ref m ρ r h c Cert.KernelIdeal.main_v73_2 (by decide)).trans (Cert.KernelIdeal.Outcome.result3 m ρ c),
       (Cert.KernelIdeal.Outcome.at_ref m ρ r h c Cert.KernelIdeal.main_arg0 (by decide)).trans (Cert.KernelIdeal.Gen.W7_main_arg0 m ρ c),
       (Cert.KernelIdeal.Outcome.at_ref m ρ r h c Cert.KernelIdeal.main_arg1 (by decide)).trans (Cert.KernelIdeal.Gen.W7_main_arg1 m ρ c),
       (Cert.KernelIdeal.Outcome.at_ref m ρ r h c Cert.KernelIdeal.main_arg2 (by decide)).trans (Cert.KernelIdeal.Gen.W7_main_arg2 m ρ c),
       (Cert.KernelIdeal.Outcome.at_ref m ρ r h c Cert.KernelIdeal.main_arg3 (by decide)).trans (Cert.KernelIdeal.Gen.W7_main_arg3 m ρ c),
       (Cert.KernelIdeal.Outcome.at_ref m ρ r h c Cert.KernelIdeal.main_arg4 (by decide)).trans (Cert.KernelIdeal.Gen.W7_main_arg4 m ρ c),
       (Cert.KernelIdeal.Outcome.at_ref m ρ r h c Cert.KernelIdeal.main_arg5 (by decide)).trans (Cert.KernelIdeal.Gen.W7_main_arg5 m ρ c),
       (Cert.KernelIdeal.Outcome.at_ref m ρ r h c Cert.KernelIdeal.main_arg6 (by decide)).trans (Cert.KernelIdeal.Gen.W7_main_arg6 m ρ c),
       (Cert.KernelIdeal.Outcome.at_ref m ρ r h c Cert.KernelIdeal.main_arg7 (by decide)).trans (Cert.KernelIdeal.Gen.W7_main_arg7 m ρ c),
       (Cert.KernelIdeal.Outcome.at_ref m ρ r h c Cert.KernelIdeal.main_arg8 (by decide)).trans (Cert.KernelIdeal.Gen.W7_main_arg8 m ρ c),
       (Cert.KernelIdeal.Outcome.at_ref m ρ r h c Cert.KernelIdeal.main_arg9 (by decide)).trans (Cert.KernelIdeal.Gen.W7_main_arg9 m ρ c),
       (Cert.KernelIdeal.Outcome.at_ref m ρ r h c Cert.KernelIdeal.main_arg10 (by decide)).trans (Cert.KernelIdeal.Gen.W7_main_arg10 m ρ c),
       (Cert.KernelIdeal.Outcome.at_ref m ρ r h c Cert.KernelIdeal.main_arg11 (by decide)).trans (Cert.KernelIdeal.Gen.W7_main_arg11 m ρ c)⟩)
      (Cert.KernelIdeal.Outcome.run_all (F := Ideal) m ρ)
  · refine (θ_run Cert.ReferenceIdeal.defs _ _).mono (fun r h c => ⟨(h c).1.trans ?_, (h c).2.1.trans ?_, (h c).2.2.1.trans ?_, (h c).2.2.2⟩)
      (Cert.ReferenceIdeal.Staged.run (F := Ideal) m' ρ')
    · rw [Cert.ReferenceIdeal.Outcome.result1, (hagree c).1, (hagree c).2.1, (hagree c).2.2.1, (hagree c).2.2.2.1, (hagree c).2.2.2.2.1,
        (hagree c).2.2.2.2.2.1, (hagree c).2.2.2.2.2.2.1, (hagree c).2.2.2.2.2.2.2.1]
    · rw [Cert.ReferenceIdeal.Outcome.result2, (hagree c).1, (hagree c).2.1, (hagree c).2.2.1, (hagree c).2.2.2.1, (hagree c).2.2.2.2.1,
        (hagree c).2.2.2.2.2.1, (hagree c).2.2.2.2.2.2.1, (hagree c).2.2.2.2.2.2.2.1, (hagree c).2.2.2.2.2.2.2.2.1, (hagree c).2.2.2.2.2.2.2.2.2.1]
    · rw [Cert.ReferenceIdeal.Outcome.result3, (hagree c).1, (hagree c).2.1, (hagree c).2.2.1, (hagree c).2.2.2.1, (hagree c).2.2.2.2.1,
        (hagree c).2.2.2.2.2.1, (hagree c).2.2.2.2.2.2.1, (hagree c).2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
